-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v209) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x1000000 : Shape := ⟨2, ![2, 1000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S50000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S2x1000000 32) (main_arg11 : IVec S16384 32) (main_arg12 : IVec S16384 32) (main_arg13 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x1000000 : Shape := ⟨2, ![2, 1000000]⟩
abbrev S16384 : Shape := ⟨1, ![16384]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S1003520 : Shape := ⟨1, ![1003520]⟩
abbrev S1003520x1 : Shape := ⟨2, ![1003520, 1]⟩
abbrev S1003520x64 : Shape := ⟨2, ![1003520, 64]⟩
abbrev S1003520x128 : Shape := ⟨2, ![1003520, 128]⟩
abbrev S1x64 : Shape := ⟨2, ![1, 64]⟩
abbrev S4096x128 : Shape := ⟨2, ![4096, 128]⟩
abbrev S4096x1 : Shape := ⟨2, ![4096, 1]⟩
abbrev S4096x64 : Shape := ⟨2, ![4096, 64]⟩
abbrev S2000x64 : Shape := ⟨2, ![2000, 64]⟩
abbrev S2000 : Shape := ⟨1, ![2000]⟩
abbrev S2000x1 : Shape := ⟨2, ![2000, 1]⟩
abbrev S100000x192 : Shape := ⟨2, ![100000, 192]⟩
abbrev S50000x192 : Shape := ⟨2, ![50000, 192]⟩
abbrev S16384x1 : Shape := ⟨2, ![16384, 1]⟩
abbrev S16384x192 : Shape := ⟨2, ![16384, 192]⟩

abbrev nBuf : Space → Nat
  | .hbm => 157
  | .vmem => 36
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S2x1000000, .i32⟩
  | 11 => ⟨S16384, .i32⟩
  | 12 => ⟨S16384, .i32⟩
  | 13 => ⟨S16384, .i32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .f32⟩
  | 33 => ⟨S_, .f32⟩
  | 34 => ⟨S50000, .f32⟩
  | 35 => ⟨S1000000x1, .i32⟩
  | 36 => ⟨S50000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000x1, .f32⟩
  | 51 => ⟨S_, .i32⟩
  | 52 => ⟨S_, .i32⟩
  | 53 => ⟨S1003520, .i32⟩
  | 54 => ⟨S_, .i32⟩
  | 55 => ⟨S_, .i32⟩
  | 56 => ⟨S1003520, .i32⟩
  | 57 => ⟨S_, .i32⟩
  | 58 => ⟨S_, .f32⟩
  | 59 => ⟨S1003520x1, .f32⟩
  | 60 => ⟨S_, .i32⟩
  | 61 => ⟨S1003520, .i32⟩
  | 62 => ⟨S1003520, .i1⟩
  | 63 => ⟨S_, .i32⟩
  | 64 => ⟨S1003520, .i32⟩
  | 65 => ⟨S1003520, .i32⟩
  | 66 => ⟨S1003520, .i32⟩
  | 67 => ⟨S1003520x1, .i32⟩
  | 68 => ⟨S1003520x64, .f32⟩
  | 69 => ⟨S_, .i32⟩
  | 70 => ⟨S1003520, .i32⟩
  | 71 => ⟨S1003520, .i1⟩
  | 72 => ⟨S_, .i32⟩
  | 73 => ⟨S1003520, .i32⟩
  | 74 => ⟨S1003520, .i32⟩
  | 75 => ⟨S1003520, .i32⟩
  | 76 => ⟨S1003520x1, .i32⟩
  | 77 => ⟨S1003520x64, .f32⟩
  | 78 => ⟨S1003520x128, .f32⟩
  | 79 => ⟨S1x64, .f32⟩
  | 80 => ⟨S1x64, .f32⟩
  | 81 => ⟨S1003520x128, .f32⟩
  | 82 => ⟨S1003520x64, .f32⟩
  | 83 => ⟨S1003520x64, .f32⟩
  | 84 => ⟨S_, .f32⟩
  | 85 => ⟨S50000x64, .f32⟩
  | 86 => ⟨S1003520x1, .i32⟩
  | 87 => ⟨S50000x64, .f32⟩
  | 88 => ⟨S_, .f32⟩
  | 89 => ⟨S100000x64, .f32⟩
  | 90 => ⟨S1003520x1, .i32⟩
  | 91 => ⟨S100000x64, .f32⟩
  | 92 => ⟨S100000x64, .f32⟩
  | 93 => ⟨S50000x64, .f32⟩
  | 94 => ⟨S_, .i32⟩
  | 95 => ⟨S1003520, .i32⟩
  | 96 => ⟨S1003520, .i1⟩
  | 97 => ⟨S_, .i32⟩
  | 98 => ⟨S1003520, .i32⟩
  | 99 => ⟨S1003520, .i32⟩
  | 100 => ⟨S1003520, .i32⟩
  | 101 => ⟨S1003520x1, .i32⟩
  | 102 => ⟨S1003520x64, .f32⟩
  | 103 => ⟨S_, .i32⟩
  | 104 => ⟨S1003520, .i32⟩
  | 105 => ⟨S1003520, .i1⟩
  | 106 => ⟨S_, .i32⟩
  | 107 => ⟨S1003520, .i32⟩
  | 108 => ⟨S1003520, .i32⟩
  | 109 => ⟨S1003520, .i32⟩
  | 110 => ⟨S1003520x1, .i32⟩
  | 111 => ⟨S1003520x64, .f32⟩
  | 112 => ⟨S1003520x128, .f32⟩
  | 113 => ⟨S1x64, .f32⟩
  | 114 => ⟨S1x64, .f32⟩
  | 115 => ⟨S1003520x128, .f32⟩
  | 116 => ⟨S1003520x64, .f32⟩
  | 117 => ⟨S1003520x64, .f32⟩
  | 118 => ⟨S_, .f32⟩
  | 119 => ⟨S50000x64, .f32⟩
  | 120 => ⟨S1003520x1, .i32⟩
  | 121 => ⟨S50000x64, .f32⟩
  | 122 => ⟨S_, .f32⟩
  | 123 => ⟨S100000x64, .f32⟩
  | 124 => ⟨S1003520x1, .i32⟩
  | 125 => ⟨S100000x64, .f32⟩
  | 126 => ⟨S100000x64, .f32⟩
  | 127 => ⟨S50000x64, .f32⟩
  | _ => ⟨S100000x64, .f32⟩

abbrev hbmTy0_1 (i : Nat) : BufTy := match i % 128 with
  | 0 => ⟨S100000x192, .f32⟩
  | 1 => ⟨S50000x192, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x192, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x192, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S4096x128, .f32⟩
  | .local _ .vmem, ⟨9, _⟩ => ⟨S4096x128, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S4096x128, .f32⟩
  | .local _ .vmem, ⟨19, _⟩ => ⟨S4096x128, .f32⟩
  | .local _ .vmem, ⟨20, _⟩ => ⟨S4096x1, .f32⟩
  | .local _ .vmem, ⟨21, _⟩ => ⟨S4096x1, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S4096x128, .f32⟩
  | .local _ .vmem, ⟨27, _⟩ => ⟨S4096x128, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_call0_v0 : Ref sig .tc := ⟨.hbm, 52, rfl⟩
abbrev main_v29 : Ref sig .tc := ⟨.hbm, 53, rfl⟩
abbrev main_c_7 : Ref sig .tc := ⟨.hbm, 54, rfl⟩
abbrev main_call1_v0 : Ref sig .tc := ⟨.hbm, 55, rfl⟩
abbrev main_v30 : Ref sig .tc := ⟨.hbm, 56, rfl⟩
abbrev main_c_8 : Ref sig .tc := ⟨.hbm, 57, rfl⟩
abbrev main_call2_v0 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_c_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_11 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_15 : Ref sig .tc := ⟨.hbm, 94, rfl⟩
abbrev main_v60 : Ref sig .tc := ⟨.hbm, 95, rfl⟩
abbrev main_v61 : Ref sig .tc := ⟨.hbm, 96, rfl⟩
abbrev main_c_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_17 : Ref sig .tc := ⟨.hbm, 103, rfl⟩
abbrev main_v67 : Ref sig .tc := ⟨.hbm, 104, rfl⟩
abbrev main_v68 : Ref sig .tc := ⟨.hbm, 105, rfl⟩
abbrev main_c_18 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_21 : Ref sig .tc := ⟨.hbm, 130, rfl⟩
abbrev main_v90 : Ref sig .tc := ⟨.hbm, 131, rfl⟩
abbrev main_v91 : Ref sig .tc := ⟨.hbm, 132, rfl⟩
abbrev main_c_22 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_23 : Ref sig .tc := ⟨.hbm, 139, rfl⟩
abbrev main_v97 : Ref sig .tc := ⟨.hbm, 140, rfl⟩
abbrev main_v98 : Ref sig .tc := ⟨.hbm, 141, rfl⟩
abbrev main_c_24 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_25 : Ref sig .tc := ⟨.hbm, 148, rfl⟩
abbrev main_v104 : Ref sig .tc := ⟨.hbm, 149, rfl⟩
abbrev main_v105 : Ref sig .tc := ⟨.hbm, 150, rfl⟩
abbrev main_c_26 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc5_sem0_0 : DmaSem sig := 32
abbrev cc5_sem0_1 : DmaSem sig := 33
abbrev cc5_sem1_0 : DmaSem sig := 34
abbrev cc5_sem1_1 : DmaSem sig := 35

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![245], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  shapeCasts_S1000000_S1000000x1 : S1000000.ShapeCasts S1000000x1
  pads_S1000000_S1003520_035200 : S1000000.Pads (![0] : Fin 1 → Nat) ![3520] ![0] S1003520
  h_S_ : 0 < S_.numel
  pads_S1000000x1_S1003520x1_035200_000 : S1000000x1.Pads (![0, 0] : Fin 2 → Nat) ![3520, 0] ![0, 0] S1003520x1
  bcast_S_S1003520 : S_.BroadcastsInDim S1003520 (![] : Fin 0 → Fin S1003520.rank)
  bcast_S1003520_S1003520x1_0 : S1003520.BroadcastsInDim S1003520x1 (![0] : Fin 1 → Fin S1003520x1.rank)
  concatenates_S1003520x64_S1003520x64_S1003520x128_d1 : Shape.Concatenates [S1003520x64, S1003520x64] S1003520x128 1
  shapeCasts_S64_S1x64 : S64.ShapeCasts S1x64
  iota_S4096x1_d0_w32 : S4096x1.Iotas .tc 32 [0]
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x128_o0_0_S4096x64 : S4096x128.Slices ![0, 0] S4096x64
  slices_S4096x128_o0_64_S4096x64 : S4096x128.Slices ![0, 64] S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  broadcasts_S4096x1_S4096x64 : S4096x1.Broadcasts S4096x64
  concatenates_S4096x64_S4096x64_S4096x128_d1 : Shape.Concatenates [S4096x64, S4096x64] S4096x128 1
  slices_S1003520x128_S1003520x64_0_0 : S1003520x128.Slices ![0, 0] S1003520x64
  slices_S1003520x128_S1003520x64_0_64 : S1003520x128.Slices ![0, 64] S1003520x64
  bcast_S_S50000x64 : S_.BroadcastsInDim S50000x64 (![] : Fin 0 → Fin S50000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  concatenates_S100000x64_S100000x64_S100000x64_S100000x192_d1 : Shape.Concatenates [S100000x64, S100000x64, S100000x64] S100000x192 1
  concatenates_S50000x64_S50000x64_S50000x64_S50000x192_d1 : Shape.Concatenates [S50000x64, S50000x64, S50000x64] S50000x192 1
  bcast_S_S16384 : S_.BroadcastsInDim S16384 (![] : Fin 0 → Fin S16384.rank)
  bcast_S16384_S16384x1_0 : S16384.BroadcastsInDim S16384x1 (![0] : Fin 1 → Fin S16384x1.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  gather_S100000x64_S1003520x1_S1003520x64_1_0_n_n_0_1_164_wf : GatherDims.WF S100000x64 S1003520x1 S1003520x64 [1] [0] [] [0] [] 1 ![1, 64]
  gather_S50000x64_S1003520x1_S1003520x64_1_0_n_n_0_1_164_wf : GatherDims.WF S50000x64 S1003520x1 S1003520x64 [1] [0] [] [0] [] 1 ![1, 64]
  dot_S4096x64_S64x64_S4096x64_1_0_0_1_n_n_wf : DotDims.WF S4096x64 S64x64 S4096x64 [1] [0] [0] [1] [] []
  scatter_S50000x64_S1003520x1_S1003520x64_1_0_0_1_wf : ScatterDims.WF S50000x64 S1003520x1 S1003520x64 [1] [0] [0] 1
  scatter_S100000x64_S1003520x1_S1003520x64_1_0_0_1_wf : ScatterDims.WF S100000x64 S1003520x1 S1003520x64 [1] [0] [0] 1
  gather_S100000x192_S16384x1_S16384x192_1_0_n_n_0_1_1192_wf : GatherDims.WF S100000x192 S16384x1 S16384x192 [1] [0] [] [0] [] 1 ![1, 192]
  gather_S50000x192_S16384x1_S16384x192_1_0_n_n_0_1_1192_wf : GatherDims.WF S50000x192 S16384x1 S16384x192 [1] [0] [] [0] [] 1 ![1, 192]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1003520x1.size a
  hwx0_1 : ∀ i : grid0.Coords, EltTy.bits .f32 = 32 ∨ (Rect.block (s := S1003520x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S1003520x128.size a
  hwx0_6 : ∀ i : grid0.Coords, EltTy.bits .f32 = 32 ∨ (Rect.block (s := S1003520x128) S4096x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S1003520x128.size a
  hwx3_0 : ∀ i : grid3.Coords, EltTy.bits .f32 = 32 ∨ (Rect.block (s := S1003520x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S1003520x1.size a
  hwx3_1 : ∀ i : grid3.Coords, EltTy.bits .f32 = 32 ∨ (Rect.block (s := S1003520x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x128.size a ≤ S1003520x128.size a
  hwx3_6 : ∀ i : grid3.Coords, EltTy.bits .f32 = 32 ∨ (Rect.block (s := S1003520x128) S4096x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S100000x64_S1003520x1_S1003520x64_1_0_n_n_0_1_164 : GatherDims S100000x64 S1003520x1 S1003520x64 where
  offsetDims := [1]
  collapsedSliceDims := [0]
  operandBatchingDims := []
  startIndicesBatchingDims := []
  startIndexMap := [0]
  indexVectorDim := 1
  sliceSizes := ![1, 64]
  wf := gather_S100000x64_S1003520x1_S1003520x64_1_0_n_n_0_1_164_wf
def gather_S50000x64_S1003520x1_S1003520x64_1_0_n_n_0_1_164 : GatherDims S50000x64 S1003520x1 S1003520x64 where
  offsetDims := [1]
  collapsedSliceDims := [0]
  operandBatchingDims := []
  startIndicesBatchingDims := []
  startIndexMap := [0]
  indexVectorDim := 1
  sliceSizes := ![1, 64]
  wf := gather_S50000x64_S1003520x1_S1003520x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S50000x64_S1003520x1_S1003520x64_1_0_0_1 : ScatterDims S50000x64 S1003520x1 S1003520x64 where
  updateWindowDims := [1]
  insertedWindowDims := [0]
  scatterDimsToOperandDims := [0]
  indexVectorDim := 1
  wf := scatter_S50000x64_S1003520x1_S1003520x64_1_0_0_1_wf
def scatter_S100000x64_S1003520x1_S1003520x64_1_0_0_1 : ScatterDims S100000x64 S1003520x1 S1003520x64 where
  updateWindowDims := [1]
  insertedWindowDims := [0]
  scatterDimsToOperandDims := [0]
  indexVectorDim := 1
  wf := scatter_S100000x64_S1003520x1_S1003520x64_1_0_0_1_wf
def gather_S100000x192_S16384x1_S16384x192_1_0_n_n_0_1_1192 : GatherDims S100000x192 S16384x1 S16384x192 where
  offsetDims := [1]
  collapsedSliceDims := [0]
  operandBatchingDims := []
  startIndicesBatchingDims := []
  startIndexMap := [0]
  indexVectorDim := 1
  sliceSizes := ![1, 192]
  wf := gather_S100000x192_S16384x1_S16384x192_1_0_n_n_0_1_1192_wf
def gather_S50000x192_S16384x1_S16384x192_1_0_n_n_0_1_1192 : GatherDims S50000x192 S16384x1 S16384x192 where
  offsetDims := [1]
  collapsedSliceDims := [0]
  operandBatchingDims := []
  startIndicesBatchingDims := []
  startIndexMap := [0]
  indexVectorDim := 1
  sliceSizes := ![1, 192]
  wf := gather_S50000x192_S16384x1_S16384x192_1_0_n_n_0_1_1192_wf

abbrev win0_0 : Pipeline.Window sig grid0 :=
  Pipeline.Window.ofSpec (Memref.whole main_v46) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v57) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v54) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S2000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v74) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S4096x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v85) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S2000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v82) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S2000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x1000000 : Shape := ⟨2, ![2, 1000000]⟩
abbrev S16384 : Shape := ⟨1, ![16384]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S50000 : Shape := ⟨1, ![50000]⟩
abbrev S1x64 : Shape := ⟨2, ![1, 64]⟩
abbrev S1000000x64 : Shape := ⟨2, ![1000000, 64]⟩
abbrev S100000x1 : Shape := ⟨2, ![100000, 1]⟩
abbrev S50000x1 : Shape := ⟨2, ![50000, 1]⟩
abbrev S100000x192 : Shape := ⟨2, ![100000, 192]⟩
abbrev S50000x192 : Shape := ⟨2, ![50000, 192]⟩
abbrev S16384x1 : Shape := ⟨2, ![16384, 1]⟩
abbrev S16384x192 : Shape := ⟨2, ![16384, 192]⟩

abbrev nBuf : Space → Nat
  | .hbm => 274
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S2x1000000, .i32⟩
  | 11 => ⟨S16384, .i32⟩
  | 12 => ⟨S16384, .i32⟩
  | 13 => ⟨S16384, .i32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .f32⟩
  | 33 => ⟨S_, .f32⟩
  | 34 => ⟨S50000, .f32⟩
  | 35 => ⟨S1000000x1, .i32⟩
  | 36 => ⟨S50000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000x1, .f32⟩
  | 51 => ⟨S100000x64, .f32⟩
  | 52 => ⟨S1x64, .f32⟩
  | 53 => ⟨S100000x64, .f32⟩
  | 54 => ⟨S100000x64, .f32⟩
  | 55 => ⟨S50000x64, .f32⟩
  | 56 => ⟨S1x64, .f32⟩
  | 57 => ⟨S50000x64, .f32⟩
  | 58 => ⟨S50000x64, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S1000000x64, .f32⟩
  | 79 => ⟨S1x64, .f32⟩
  | 80 => ⟨S1000000x64, .f32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1000000x64, .f32⟩
  | 92 => ⟨S1000000x64, .f32⟩
  | 93 => ⟨S1000000x64, .f32⟩
  | 94 => ⟨S_, .f32⟩
  | 95 => ⟨S50000x64, .f32⟩
  | 96 => ⟨S1000000x1, .i32⟩
  | 97 => ⟨S50000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S1000000x64, .f32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S_, .f32⟩
  | 115 => ⟨S100000x64, .f32⟩
  | 116 => ⟨S100000x64, .i1⟩
  | 117 => ⟨S_, .f32⟩
  | 118 => ⟨S100000x64, .f32⟩
  | 119 => ⟨S100000x64, .f32⟩
  | 120 => ⟨S100000x64, .f32⟩
  | 121 => ⟨S100000x64, .f32⟩
  | 122 => ⟨S_, .f32⟩
  | 123 => ⟨S100000, .f32⟩
  | 124 => ⟨S100000x1, .f32⟩
  | 125 => ⟨S100000x1, .f32⟩
  | 126 => ⟨S_, .f32⟩
  | 127 => ⟨S100000x1, .f32⟩
  | _ => ⟨S100000x64, .f32⟩

abbrev hbmTy0_1 (i : Nat) : BufTy := match i % 128 with
  | 0 => ⟨S100000x1, .f32⟩
  | 1 => ⟨S100000x64, .f32⟩
  | 2 => ⟨S100000x64, .f32⟩
  | 3 => ⟨S_, .f32⟩
  | 4 => ⟨S50000x64, .f32⟩
  | 5 => ⟨S50000x64, .i1⟩
  | 6 => ⟨S_, .f32⟩
  | 7 => ⟨S50000x64, .f32⟩
  | 8 => ⟨S50000x64, .f32⟩
  | 9 => ⟨S50000x64, .f32⟩
  | 10 => ⟨S50000x64, .f32⟩
  | 11 => ⟨S_, .f32⟩
  | 12 => ⟨S50000, .f32⟩
  | 13 => ⟨S50000x1, .f32⟩
  | 14 => ⟨S50000x1, .f32⟩
  | 15 => ⟨S_, .f32⟩
  | 16 => ⟨S50000x1, .f32⟩
  | 17 => ⟨S50000x1, .f32⟩
  | 18 => ⟨S50000x64, .f32⟩
  | 19 => ⟨S50000x64, .f32⟩
  | 20 => ⟨S100000x64, .f32⟩
  | 21 => ⟨S1x64, .f32⟩
  | 22 => ⟨S100000x64, .f32⟩
  | 23 => ⟨S100000x64, .f32⟩
  | 24 => ⟨S50000x64, .f32⟩
  | 25 => ⟨S1x64, .f32⟩
  | 26 => ⟨S50000x64, .f32⟩
  | 27 => ⟨S50000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x64, .f32⟩
  | 46 => ⟨S1000000x64, .f32⟩
  | 47 => ⟨S1000000x64, .f32⟩
  | 48 => ⟨S1x64, .f32⟩
  | 49 => ⟨S1000000x64, .f32⟩
  | 50 => ⟨S1000000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S1000000x64, .f32⟩
  | 61 => ⟨S1000000x64, .f32⟩
  | 62 => ⟨S1000000x64, .f32⟩
  | 63 => ⟨S_, .f32⟩
  | 64 => ⟨S50000x64, .f32⟩
  | 65 => ⟨S1000000x1, .i32⟩
  | 66 => ⟨S50000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S1000000x64, .f32⟩
  | 77 => ⟨S1000000x64, .f32⟩
  | 78 => ⟨S1000000x64, .f32⟩
  | 79 => ⟨S_, .f32⟩
  | 80 => ⟨S100000x64, .f32⟩
  | 81 => ⟨S1000000x1, .i32⟩
  | 82 => ⟨S100000x64, .f32⟩
  | 83 => ⟨S_, .f32⟩
  | 84 => ⟨S100000x64, .f32⟩
  | 85 => ⟨S100000x64, .i1⟩
  | 86 => ⟨S_, .f32⟩
  | 87 => ⟨S100000x64, .f32⟩
  | 88 => ⟨S100000x64, .f32⟩
  | 89 => ⟨S100000x64, .f32⟩
  | 90 => ⟨S100000x64, .f32⟩
  | 91 => ⟨S_, .f32⟩
  | 92 => ⟨S100000, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S100000x64, .f32⟩
  | 99 => ⟨S100000x64, .f32⟩
  | 100 => ⟨S_, .f32⟩
  | 101 => ⟨S50000x64, .f32⟩
  | 102 => ⟨S50000x64, .i1⟩
  | 103 => ⟨S_, .f32⟩
  | 104 => ⟨S50000x64, .f32⟩
  | 105 => ⟨S50000x64, .f32⟩
  | 106 => ⟨S50000x64, .f32⟩
  | 107 => ⟨S50000x64, .f32⟩
  | 108 => ⟨S_, .f32⟩
  | 109 => ⟨S50000, .f32⟩
  | 110 => ⟨S50000x1, .f32⟩
  | 111 => ⟨S50000x1, .f32⟩
  | 112 => ⟨S_, .f32⟩
  | 113 => ⟨S50000x1, .f32⟩
  | 114 => ⟨S50000x1, .f32⟩
  | 115 => ⟨S50000x64, .f32⟩
  | 116 => ⟨S50000x64, .f32⟩
  | 117 => ⟨S100000x192, .f32⟩
  | 118 => ⟨S50000x192, .f32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S16384x192, .f32⟩
  | _ => ⟨S100000x64, .f32⟩

abbrev hbmTy0_2 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S16384x192, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S16384x192, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_24 : Ref sig .tc := ⟨.hbm, 156, rfl⟩
abbrev main_v116 : Ref sig .tc := ⟨.hbm, 157, rfl⟩
abbrev main_v117 : Ref sig .tc := ⟨.hbm, 158, rfl⟩
abbrev main_c_25 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_26 : Ref sig .tc := ⟨.hbm, 165, rfl⟩
abbrev main_v123 : Ref sig .tc := ⟨.hbm, 166, rfl⟩
abbrev main_v124 : Ref sig .tc := ⟨.hbm, 167, rfl⟩
abbrev main_c_27 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_28 : Ref sig .tc := ⟨.hbm, 179, rfl⟩
abbrev main_v135 : Ref sig .tc := ⟨.hbm, 180, rfl⟩
abbrev main_v136 : Ref sig .tc := ⟨.hbm, 181, rfl⟩
abbrev main_c_29 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_30 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_c_31 : Ref sig .tc := ⟨.hbm, 195, rfl⟩
abbrev main_v148 : Ref sig .tc := ⟨.hbm, 196, rfl⟩
abbrev main_v149 : Ref sig .tc := ⟨.hbm, 197, rfl⟩
abbrev main_c_32 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_33 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_34 : Ref sig .tc := ⟨.hbm, 211, rfl⟩
abbrev main_v161 : Ref sig .tc := ⟨.hbm, 212, rfl⟩
abbrev main_v162 : Ref sig .tc := ⟨.hbm, 213, rfl⟩
abbrev main_cst_35 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_36 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_37 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_38 : Ref sig .tc := ⟨.hbm, 228, rfl⟩
abbrev main_v174 : Ref sig .tc := ⟨.hbm, 229, rfl⟩
abbrev main_v175 : Ref sig .tc := ⟨.hbm, 230, rfl⟩
abbrev main_cst_39 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_40 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_41 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_c_42 : Ref sig .tc := ⟨.hbm, 247, rfl⟩
abbrev main_v189 : Ref sig .tc := ⟨.hbm, 248, rfl⟩
abbrev main_v190 : Ref sig .tc := ⟨.hbm, 249, rfl⟩
abbrev main_c_43 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_c_44 : Ref sig .tc := ⟨.hbm, 256, rfl⟩
abbrev main_v196 : Ref sig .tc := ⟨.hbm, 257, rfl⟩
abbrev main_v197 : Ref sig .tc := ⟨.hbm, 258, rfl⟩
abbrev main_c_45 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_c_46 : Ref sig .tc := ⟨.hbm, 265, rfl⟩
abbrev main_v203 : Ref sig .tc := ⟨.hbm, 266, rfl⟩
abbrev main_v204 : Ref sig .tc := ⟨.hbm, 267, rfl⟩
abbrev main_c_47 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S100000x64_S100000x64_S100000x64_S100000x192_d1 : Shape.Concatenates [S100000x64, S100000x64, S100000x64] S100000x192 1
  concatenates_S50000x64_S50000x64_S50000x64_S50000x192_d1 : Shape.Concatenates [S50000x64, S50000x64, S50000x64] S50000x192 1
  bcast_S_S16384 : S_.BroadcastsInDim S16384 (![] : Fin 0 → Fin S16384.rank)
  bcast_S16384_S16384x1_0 : S16384.BroadcastsInDim S16384x1 (![0] : Fin 1 → Fin S16384x1.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  scatter_S100000x64_S1000000x1_S1000000x64_1_0_0_1_wf : ScatterDims.WF S100000x64 S1000000x1 S1000000x64 [1] [0] [0] 1
  gather_S100000x192_S16384x1_S16384x192_1_0_n_n_0_1_1192_wf : GatherDims.WF S100000x192 S16384x1 S16384x192 [1] [0] [] [0] [] 1 ![1, 192]
  gather_S50000x192_S16384x1_S16384x192_1_0_n_n_0_1_1192_wf : GatherDims.WF S50000x192 S16384x1 S16384x192 [1] [0] [] [0] [] 1 ![1, 192]

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x192_S16384x1_S16384x192_1_0_n_n_0_1_1192 : GatherDims S100000x192 S16384x1 S16384x192 where
  offsetDims := [1]
  collapsedSliceDims := [0]
  operandBatchingDims := []
  startIndicesBatchingDims := []
  startIndexMap := [0]
  indexVectorDim := 1
  sliceSizes := ![1, 192]
  wf := gather_S100000x192_S16384x1_S16384x192_1_0_n_n_0_1_1192_wf
def gather_S50000x192_S16384x1_S16384x192_1_0_n_n_0_1_1192 : GatherDims S50000x192 S16384x1 S16384x192 where
  offsetDims := [1]
  collapsedSliceDims := [0]
  operandBatchingDims := []
  startIndicesBatchingDims := []
  startIndexMap := [0]
  indexVectorDim := 1
  sliceSizes := ![1, 192]
  wf := gather_S50000x192_S16384x1_S16384x192_1_0_n_n_0_1_1192_wf

class Facts : Prop extends Facts₀ where

variable [Facts]
-- ==== Proof.EdgeRegion0.lean ====
/- The edge-message region 0 of @main (custom_call 0, pipeline 0), at a parameter `V`: the TensorCore's buffer
   contents when the region is entered. Each window's block at a grid point, what the kernel body leaves in the
   output window's staging buffer as a function of the six input blocks and the grid coordinate, the body's
   triple, the pipeline's proof data and its body obligation. Windows 2..5 (the two weight matrices and the two
   bias rows) have a constant block index: they are fetched at the first point only and found unchanged at every
   later one. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x128 := Rect.unit (s := S4096x128) ![0, 0] S4096x128.size inb_S4096x128_S4096x128_0_0
abbrev r0_1 : Rect S4096x1 := Rect.unit (s := S4096x1) ![0, 0] S4096x1.size inb_S4096x1_S4096x1_0_0
abbrev r0_2 : Rect S64x64 := Rect.unit (s := S64x64) ![0, 0] S64x64.size inb_S64x64_S64x64_0_0
abbrev r0_3 : Rect S1x64 := Rect.unit (s := S1x64) ![0, 0] S1x64.size inb_S1x64_S1x64_0_0

/-! ## What the body leaves in the output window's buffer -/

/-- Window 6's staging buffer after the body at grid coordinate `i`, from the input windows' blocks: its one
    store, of the whole block. -/
def out0_6 (i : grid0.Coords) (x0 : Vec F S4096x128 .f32) (x1 : Vec F S4096x1 .f32) (x2 : Vec F S64x64 .f32) (x3 : Vec F S1x64 .f32)
    (x4 : Vec F S64x64 .f32) (x5 : Vec F S1x64 .f32) : Vec F S4096x128 .f32 :=
  View.canon [⟨r0_0, k0_pay1 (k0_pay2 (F := F) i) (k0_pay9 (View.ld x0 r0_0) (View.ld x4 r0_2) (View.ld x5 r0_3))
    (k0_pay10 i (View.ld x0 r0_0) (View.ld x1 r0_1) (View.ld x2 r0_2) (View.ld x4 r0_2) (View.ld x3 r0_3) (View.ld x5 r0_3))
    (k0_pay11 (View.ld x0 r0_0) (View.ld x1 r0_1) (View.ld x2 r0_2) (View.ld x3 r0_3))⟩]

/-- The store tiles the buffer, so it covers it. -/
theorem cover0_6 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 4000000 in
/-- The kernel body at grid coordinate `i` on whole staging memrefs, the inputs' at read contents `xW` and the output's
    at anything, runs to the continuation holding the inputs' as they were and the output's at `out0_6 i` of the inputs'. -/
theorem sound_kernel0 (c : Dev nD) (E : Set ℕ) (i : grid0.Coords)
    (arg1 : Memref sig .tc .vmem S4096x128 .f32) (harg1 : arg1.IsWhole) (arg2 : Memref sig .tc .vmem S4096x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x128 .f32) (harg7 : arg7.IsWhole)
    (x0 : Vec F S4096x128 .f32) (x1 : Vec F S4096x1 .f32) (x2 : Vec F S64x64 .f32) (x3 : Vec F S1x64 .f32)
    (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (out0_6 i x0 x1 x2 x3 x4 x5)) -∗ K ⟨⟩))
      ⊢ wp frame (wpE (defs₀ (F := F)) Variants.none c none) E (cc0__edge_message_kernel i arg1 harg1 arg2 harg2 arg3 harg3 arg4 harg4 arg5 harg5 arg6 harg6 arg7 harg7) K := by
  simp only [cc0__edge_message_kernel_eq_skeleton]; unfold cc0__edge_message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks at the point's coordinate; the
    invariant the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (grid0.coords t) (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies at the point's
    coordinate; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.EpiRegion1.lean ====
/- Region 1 of @main (the row-normalising epilogue, custom_call 1): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s (`hA`) and whose body leaves the block in place (`hafter`): the window is fetched at every point, uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000 × 64 block as a rectangle. -/
abbrev r1_0 : Rect S2000x64 := Rect.unit (s := S2000x64) ![0, 0] S2000x64.size inb_S2000x64_S2000x64_0_0

/-! ## What the body leaves in the output window's buffer -/

/-- The output staging buffer after the body, from the input block: its one store, of the payload of the block. -/
def out1_1 (x0 : Vec F S2000x64 .f32) : Vec F S2000x64 .f32 :=
  View.canon [⟨r1_0, k1_pay1 (View.ld x0 r1_0)⟩]

/-- The store's rectangle is the whole buffer, so it covers it. -/
theorem cover1_1 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-! ## The body's triple -/

set_option maxHeartbeats 1000000 in
/-- The kernel body on whole staging memrefs, the input's at read contents `x0` and the output's at anything, runs
    to the continuation holding the input's as it was and the output's at `out1_1 x0`, at any grid coordinate. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__epilogue_kernel i arg1 harg1 arg2 harg2) K := by
  simp only [cc1__epilogue_kernel_eq_skeleton]; unfold cc1__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at point
    `t` the input's buffer at its block and the output's at `out1_1` of the input block; the invariant keeps the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.EpiRegion2.lean ====
/- Region 2 of @main (the row-normalising epilogue, custom_call 2): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s (`hA`) and whose body leaves the block in place (`hafter`): the window is fetched at every point, uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 × 64 block as a rectangle. -/
abbrev r2_0 : Rect S2000x64 := Rect.unit (s := S2000x64) ![0, 0] S2000x64.size inb_S2000x64_S2000x64_0_0

/-! ## What the body leaves in the output window's buffer -/

/-- The output staging buffer after the body, from the input block: its one store, of the payload of the block. -/
def out2_1 (x0 : Vec F S2000x64 .f32) : Vec F S2000x64 .f32 :=
  View.canon [⟨r2_0, k2_pay1 (View.ld x0 r2_0)⟩]

/-- The store's rectangle is the whole buffer, so it covers it. -/
theorem cover2_1 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging memrefs, the input's at read contents `x0` and the output's at anything, runs
    to the continuation holding the input's as it was and the output's at `out2_1 x0`, at any grid coordinate. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__epilogue_kernel i arg1 harg1 arg2 harg2) K := by
  simp only [cc2__epilogue_kernel_eq_skeleton]; unfold cc2__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at point
    `t` the input's buffer at its block and the output's at `out2_1` of the input block; the invariant keeps the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block (`before2_0`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.EdgeRegion3.lean ====
/- The edge-message region 3 of @main (custom_call 3, pipeline 3), at a parameter `V`: the TensorCore's buffer
   contents when the region is entered. Each window's block at a grid point, what the kernel body leaves in the
   output window's staging buffer as a function of the six input blocks and the grid coordinate, the body's
   triple, the pipeline's proof data and its body obligation. Windows 2..5 (the two weight matrices and the two
   bias rows) have a constant block index: they are fetched at the first point only and found unchanged at every
   later one. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4096x128 := Rect.unit (s := S4096x128) ![0, 0] S4096x128.size inb_S4096x128_S4096x128_0_0
abbrev r3_1 : Rect S4096x1 := Rect.unit (s := S4096x1) ![0, 0] S4096x1.size inb_S4096x1_S4096x1_0_0
abbrev r3_2 : Rect S64x64 := Rect.unit (s := S64x64) ![0, 0] S64x64.size inb_S64x64_S64x64_0_0
abbrev r3_3 : Rect S1x64 := Rect.unit (s := S1x64) ![0, 0] S1x64.size inb_S1x64_S1x64_0_0

/-! ## What the body leaves in the output window's buffer -/

/-- Window 6's staging buffer after the body at grid coordinate `i`, from the input windows' blocks: its one
    store, of the whole block. -/
def out3_6 (i : grid3.Coords) (x0 : Vec F S4096x128 .f32) (x1 : Vec F S4096x1 .f32) (x2 : Vec F S64x64 .f32) (x3 : Vec F S1x64 .f32)
    (x4 : Vec F S64x64 .f32) (x5 : Vec F S1x64 .f32) : Vec F S4096x128 .f32 :=
  View.canon [⟨r3_0, k3_pay1 (k3_pay2 (F := F) i) (k3_pay9 (View.ld x0 r3_0) (View.ld x4 r3_2) (View.ld x5 r3_3))
    (k3_pay10 i (View.ld x0 r3_0) (View.ld x1 r3_1) (View.ld x2 r3_2) (View.ld x4 r3_2) (View.ld x3 r3_3) (View.ld x5 r3_3))
    (k3_pay11 (View.ld x0 r3_0) (View.ld x1 r3_1) (View.ld x2 r3_2) (View.ld x3 r3_3))⟩]

/-- The store tiles the buffer, so it covers it. -/
theorem cover3_6 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 4000000 in
/-- The kernel body at grid coordinate `i` on whole staging memrefs, the inputs' at read contents `xW` and the output's
    at anything, runs to the continuation holding the inputs' as they were and the output's at `out3_6 i` of the inputs'. -/
theorem sound_kernel3 (c : Dev nD) (E : Set ℕ) (i : grid3.Coords)
    (arg1 : Memref sig .tc .vmem S4096x128 .f32) (harg1 : arg1.IsWhole) (arg2 : Memref sig .tc .vmem S4096x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x128 .f32) (harg7 : arg7.IsWhole)
    (x0 : Vec F S4096x128 .f32) (x1 : Vec F S4096x1 .f32) (x2 : Vec F S64x64 .f32) (x3 : Vec F S1x64 .f32)
    (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (out3_6 i x0 x1 x2 x3 x4 x5)) -∗ K ⟨⟩))
      ⊢ wp frame (wpE (defs₀ (F := F)) Variants.none c none) E (cc3__edge_message_kernel i arg1 harg1 arg2 harg2 arg3 harg3 arg4 harg4 arg5 harg5 arg6 harg6 arg7 harg7) K := by
  simp only [cc3__edge_message_kernel_eq_skeleton]; unfold cc3__edge_message_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and the output's at `out3_6` of the input blocks at the point's coordinate; the
    invariant the class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (grid3.coords t) (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (grid3.coords t) (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies at the point's
    coordinate; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.EpiRegion4.lean ====
/- Region 4 of @main (the row-normalising epilogue, custom_call 4): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s (`hA`) and whose body leaves the block in place (`hafter`): the window is fetched at every point, uncut
    and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000 × 64 block as a rectangle. -/
abbrev r4_0 : Rect S2000x64 := Rect.unit (s := S2000x64) ![0, 0] S2000x64.size inb_S2000x64_S2000x64_0_0

/-! ## What the body leaves in the output window's buffer -/

/-- The output staging buffer after the body, from the input block: its one store, of the payload of the block. -/
def out4_1 (x0 : Vec F S2000x64 .f32) : Vec F S2000x64 .f32 :=
  View.canon [⟨r4_0, k4_pay1 (View.ld x0 r4_0)⟩]

/-- The store's rectangle is the whole buffer, so it covers it. -/
theorem cover4_1 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 1000000 in
/-- The kernel body on whole staging memrefs, the input's at read contents `x0` and the output's at anything, runs
    to the continuation holding the input's as it was and the output's at `out4_1 x0`, at any grid coordinate. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__epilogue_kernel i arg1 harg1 arg2 harg2) K := by
  simp only [cc4__epilogue_kernel_eq_skeleton]; unfold cc4__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The pipeline's proof data -/

/-- The proof data of pipeline 4 on core `c`: the arrays as the region finds them (`V`); after the body at point
    `t` the input's buffer at its block and the output's at `out4_1` of the input block; the invariant keeps the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block (`before4_0`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.EpiRegion5.lean ====
/- Region 5 of @main (the row-normalising epilogue, custom_call 5): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.KernelIdeal.Launch
import proofs.«155537_j65712999628849_1_alg».proof.Proof.Gen.KernelIdeal.Skeleton
import proofs.«155537_j65712999628849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose array is
    `V`'s (`hA`) and whose body leaves the block in place (`hafter`): the window is fetched at every point, uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 × 64 block as a rectangle. -/
abbrev r5_0 : Rect S2000x64 := Rect.unit (s := S2000x64) ![0, 0] S2000x64.size inb_S2000x64_S2000x64_0_0

/-! ## What the body leaves in the output window's buffer -/

/-- The output staging buffer after the body, from the input block: its one store, of the payload of the block. -/
def out5_1 (x0 : Vec F S2000x64 .f32) : Vec F S2000x64 .f32 :=
  View.canon [⟨r5_0, k5_pay1 (View.ld x0 r5_0)⟩]

/-- The store's rectangle is the whole buffer, so it covers it. -/
theorem cover5_1 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- The kernel body on whole staging memrefs, the input's at read contents `x0` and the output's at anything, runs
    to the continuation holding the input's as it was and the output's at `out5_1 x0`, at any grid coordinate. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__epilogue_kernel i arg1 harg1 arg2 harg2) K := by
  simp only [cc5__epilogue_kernel_eq_skeleton]; unfold cc5__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-! ## The pipeline's proof data -/

/-- The proof data of pipeline 5 on core `c`: the arrays as the region finds them (`V`); after the body at point
    `t` the input's buffer at its block and the output's at `out5_1` of the input block; the invariant keeps the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

/-- The input's current staging buffer holds its block at every point. -/
theorem before5_0 (c : Dev nD) (t : Fin cfg5.N) (d) : (dat5 V c).before 0 t d = iblk5 V c 0 t :=
  before5_0_of V (dat5 V c) (A_eq5 V c 0) (after5_0 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's memref holds its block (`before5_0`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ _ _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Assembly.lean ====
import proofs.«155537_j65712999628849_1_alg».proof.Proof.EdgeRegion0
import proofs.«155537_j65712999628849_1_alg».proof.Proof.EpiRegion1
import proofs.«155537_j65712999628849_1_alg».proof.Proof.EpiRegion2
import proofs.«155537_j65712999628849_1_alg».proof.Proof.EdgeRegion3
import proofs.«155537_j65712999628849_1_alg».proof.Proof.EpiRegion4
import proofs.«155537_j65712999628849_1_alg».proof.Proof.EpiRegion5
import proofs.«155537_j65712999628849_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: six kernel regions among host stretches

Each region's proof data is stated at the contents of the unscoped buffers when the region is entered. The contents a
region leaves in its output array are what its write-backs fold to (`Dat.arrAt … N`); they are collected, region after
region, into one family `outs`, over which the boundary valuations `V0 … V17` are written. With one segment record per
region the launch lemma gives the run with every unscoped buffer named at the end (`run_all`) and the frame (`frame`). -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, stage by stage

`oJ c` is the output array of the region at item J−1 after its last write-back, the region entered at the contents
`E(J−1) c`; `EJ c` is every unscoped buffer after item J−1. None of these mentions `outs`. -/

def o8 (c : Dev nD) : Buf (Elt F) ((c : Thread nD τ).loc main_v49) := (dat0 (fun c b => V7 m c b) c).arrAt 6 cfg0.N
abbrev E8 (c : Dev nD) : Valuation τ sig (Elt F) := Function.update (V7 m c) main_v49 (o8 m c)
abbrev E9 (c : Dev nD) : Valuation τ sig (Elt F) := StableHlo.after hostOps1 (E8 m c)
def o10 (c : Dev nD) : Buf (Elt F) ((c : Thread nD τ).loc main_v58) := (dat1 (fun c b => E9 m c b) c).arrAt 1 cfg1.N
abbrev E10 (c : Dev nD) : Valuation τ sig (Elt F) := Function.update (E9 m c) main_v58 (o10 m c)
def o11 (c : Dev nD) : Buf (Elt F) ((c : Thread nD τ).loc main_v59) := (dat2 (fun c b => E10 m c b) c).arrAt 1 cfg2.N
abbrev E11 (c : Dev nD) : Valuation τ sig (Elt F) := Function.update (E10 m c) main_v59 (o11 m c)
abbrev E12 (c : Dev nD) : Valuation τ sig (Elt F) := StableHlo.after hostOps3 (E11 m c)
def o13 (c : Dev nD) : Buf (Elt F) ((c : Thread nD τ).loc main_v77) := (dat3 (fun c b => E12 m c b) c).arrAt 6 cfg3.N
abbrev E13 (c : Dev nD) : Valuation τ sig (Elt F) := Function.update (E12 m c) main_v77 (o13 m c)
abbrev E14 (c : Dev nD) : Valuation τ sig (Elt F) := StableHlo.after hostOps4 (E13 m c)
def o15 (c : Dev nD) : Buf (Elt F) ((c : Thread nD τ).loc main_v86) := (dat4 (fun c b => E14 m c b) c).arrAt 1 cfg4.N
abbrev E15 (c : Dev nD) : Valuation τ sig (Elt F) := Function.update (E14 m c) main_v86 (o15 m c)
def o16 (c : Dev nD) : Buf (Elt F) ((c : Thread nD τ).loc main_v87) := (dat5 (fun c b => E15 m c b) c).arrAt 1 cfg5.N
abbrev E16 (c : Dev nD) : Valuation τ sig (Elt F) := Function.update (E15 m c) main_v87 (o16 m c)

/-- What the regions leave: at a region's output reference the staged contents above, at any other reference the launch
    contents (never read there). The item number is not looked at: the six references are distinct. -/
def outs : Outs (F := F) := fun _ r c =>
  if h49 : r = main_v49 then h49 ▸ o8 m c
  else if h58 : r = main_v58 then h58 ▸ o10 m c
  else if h59 : r = main_v59 then h59 ▸ o11 m c
  else if h77 : r = main_v77 then h77 ▸ o13 m c
  else if h86 : r = main_v86 then h86 ▸ o15 m c
  else if h87 : r = main_v87 then h87 ▸ o16 m c
  else m ((c : Thread nD τ).loc r)

theorem outs_o8 (j : ℕ) (c : Dev nD) : outs m j main_v49 c = o8 m c := by
  unfold outs; rw [dif_pos rfl]
theorem outs_o10 (j : ℕ) (c : Dev nD) : outs m j main_v58 c = o10 m c := by
  unfold outs; rw [dif_neg (show ¬ main_v58 = main_v49 by decide), dif_pos rfl]
theorem outs_o11 (j : ℕ) (c : Dev nD) : outs m j main_v59 c = o11 m c := by
  unfold outs; rw [dif_neg (show ¬ main_v59 = main_v49 by decide), dif_neg (show ¬ main_v59 = main_v58 by decide), dif_pos rfl]
theorem outs_o13 (j : ℕ) (c : Dev nD) : outs m j main_v77 c = o13 m c := by
  unfold outs; rw [dif_neg (show ¬ main_v77 = main_v49 by decide), dif_neg (show ¬ main_v77 = main_v58 by decide), dif_neg (show ¬ main_v77 = main_v59 by decide), dif_pos rfl]
theorem outs_o15 (j : ℕ) (c : Dev nD) : outs m j main_v86 c = o15 m c := by
  unfold outs; rw [dif_neg (show ¬ main_v86 = main_v49 by decide), dif_neg (show ¬ main_v86 = main_v58 by decide), dif_neg (show ¬ main_v86 = main_v59 by decide), dif_neg (show ¬ main_v86 = main_v77 by decide), dif_pos rfl]
theorem outs_o16 (j : ℕ) (c : Dev nD) : outs m j main_v87 c = o16 m c := by
  unfold outs; rw [dif_neg (show ¬ main_v87 = main_v49 by decide), dif_neg (show ¬ main_v87 = main_v58 by decide), dif_neg (show ¬ main_v87 = main_v59 by decide), dif_neg (show ¬ main_v87 = main_v77 by decide), dif_neg (show ¬ main_v87 = main_v86 by decide), dif_pos rfl]

/-! ## The boundary valuations over `outs` are the staged ones -/

theorem V8_eq (c : Dev nD) : V8 m (outs m) c = E8 m c := by rw [V8, outs_o8]
theorem V9_eq (c : Dev nD) : V9 m (outs m) c = E9 m c := by rw [V9, V8_eq]
theorem V10_eq (c : Dev nD) : V10 m (outs m) c = E10 m c := by rw [V10, V9_eq, outs_o10]
theorem V11_eq (c : Dev nD) : V11 m (outs m) c = E11 m c := by rw [V11, V10_eq, outs_o11]
theorem V12_eq (c : Dev nD) : V12 m (outs m) c = E12 m c := by rw [V12, V11_eq]
theorem V13_eq (c : Dev nD) : V13 m (outs m) c = E13 m c := by rw [V13, V12_eq, outs_o13]
theorem V14_eq (c : Dev nD) : V14 m (outs m) c = E14 m c := by rw [V14, V13_eq]
theorem V15_eq (c : Dev nD) : V15 m (outs m) c = E15 m c := by rw [V15, V14_eq, outs_o15]
theorem V16_eq (c : Dev nD) : V16 m (outs m) c = E16 m c := by rw [V16, V15_eq, outs_o16]

/-! ## What each region leaves, at its true entry contents -/

theorem outs_v49 (c : Dev nD) : outs m 8 main_v49 c = (dat0 (fun c b => V7 m c b) c).arrAt 6 cfg0.N := outs_o8 m 8 c
theorem outs_v58 (c : Dev nD) : outs m 10 main_v58 c = (dat1 (fun c b => V9 m (outs m) c b) c).arrAt 1 cfg1.N := by
  rw [show (fun (c : Dev nD) (b : Ref sig .tc) => V9 m (outs m) c b) = fun (c : Dev nD) (b : Ref sig .tc) => E9 m c b from
    funext fun c => funext fun b => congrFun (V9_eq m c) _]
  exact outs_o10 m 10 c
theorem outs_v59 (c : Dev nD) : outs m 11 main_v59 c = (dat2 (fun c b => V10 m (outs m) c b) c).arrAt 1 cfg2.N := by
  rw [show (fun (c : Dev nD) (b : Ref sig .tc) => V10 m (outs m) c b) = fun (c : Dev nD) (b : Ref sig .tc) => E10 m c b from
    funext fun c => funext fun b => congrFun (V10_eq m c) _]
  exact outs_o11 m 11 c
theorem outs_v77 (c : Dev nD) : outs m 13 main_v77 c = (dat3 (fun c b => V12 m (outs m) c b) c).arrAt 6 cfg3.N := by
  rw [show (fun (c : Dev nD) (b : Ref sig .tc) => V12 m (outs m) c b) = fun (c : Dev nD) (b : Ref sig .tc) => E12 m c b from
    funext fun c => funext fun b => congrFun (V12_eq m c) _]
  exact outs_o13 m 13 c
theorem outs_v86 (c : Dev nD) : outs m 15 main_v86 c = (dat4 (fun c b => V14 m (outs m) c b) c).arrAt 1 cfg4.N := by
  rw [show (fun (c : Dev nD) (b : Ref sig .tc) => V14 m (outs m) c b) = fun (c : Dev nD) (b : Ref sig .tc) => E14 m c b from
    funext fun c => funext fun b => congrFun (V14_eq m c) _]
  exact outs_o15 m 15 c
theorem outs_v87 (c : Dev nD) : outs m 16 main_v87 c = (dat5 (fun c b => V15 m (outs m) c b) c).arrAt 1 cfg5.N := by
  rw [show (fun (c : Dev nD) (b : Ref sig .tc) => V15 m (outs m) c b) = fun (c : Dev nD) (b : Ref sig .tc) => E15 m c b from
    funext fun c => funext fun b => congrFun (V15_eq m c) _]
  exact outs_o16 m 16 c

/-! ## A region's exit: its arrays at what the pipeline leaves, every other buffer as entered -/

theorem hF0 (c : Dev nD) (w : Fin cfg0.W) :
    (dat0 (fun c b => V7 m c b) c).arrAt w cfg0.N = V8 m (outs m) c (Pipeline.arrRef spec0 w) := by
  by_cases hw : w = 6
  · subst hw
    have h : V8 m (outs m) c (Proc.devRef .tc main_v49) = (dat0 (fun c b => V7 m c b) c).arrAt 6 cfg0.N := by
      rw [V8, Function.update_self]; exact outs_v49 m c
    exact h.symm
  · have hin : (cfg0.win w).isOut = false :=
      (by decide : ∀ w : Fin 7, w ≠ 6 → (cfg0.win w).isOut = false) w hw
    have hne : Pipeline.arrRef spec0 w ∉ ([main_v49] : List (Ref sig .tc)) :=
      (by decide : ∀ w : Fin 7, w ≠ 6 → Pipeline.arrRef spec0 w ∉ ([main_v49] : List (Ref sig .tc))) w hw
    exact ((dat0 _ c).arrAt_in w hin _).trans ((A_eq0 _ c w).trans (V8_of m (outs m) c _ hne).symm)
theorem hrest0 (c : Dev nD) (b : Ref sig .tc) (hb : b ∉ Finset.univ.image (Pipeline.arrRef spec0)) :
    V8 m (outs m) c b = V7 m c b :=
  V8_of m (outs m) c b fun hmem => by
    rw [List.mem_singleton] at hmem; subst hmem
    exact hb (Finset.mem_image.mpr ⟨6, Finset.mem_univ _, rfl⟩)

theorem hF1 (c : Dev nD) (w : Fin cfg1.W) :
    (dat1 (fun c b => V9 m (outs m) c b) c).arrAt w cfg1.N = V10 m (outs m) c (Pipeline.arrRef spec1 w) := by
  by_cases hw : w = 1
  · subst hw
    have h : V10 m (outs m) c (Proc.devRef .tc main_v58) = (dat1 (fun c b => V9 m (outs m) c b) c).arrAt 1 cfg1.N := by
      rw [V10, Function.update_self]; exact outs_v58 m c
    exact h.symm
  · have hin : (cfg1.win w).isOut = false :=
      (by decide : ∀ w : Fin 2, w ≠ 1 → (cfg1.win w).isOut = false) w hw
    have hne : Pipeline.arrRef spec1 w ∉ ([main_v58] : List (Ref sig .tc)) :=
      (by decide : ∀ w : Fin 2, w ≠ 1 → Pipeline.arrRef spec1 w ∉ ([main_v58] : List (Ref sig .tc))) w hw
    exact ((dat1 _ c).arrAt_in w hin _).trans ((A_eq1 _ c w).trans (V10_of m (outs m) c _ hne).symm)
theorem hrest1 (c : Dev nD) (b : Ref sig .tc) (hb : b ∉ Finset.univ.image (Pipeline.arrRef spec1)) :
    V10 m (outs m) c b = V9 m (outs m) c b :=
  V10_of m (outs m) c b fun hmem => by
    rw [List.mem_singleton] at hmem; subst hmem
    exact hb (Finset.mem_image.mpr ⟨1, Finset.mem_univ _, rfl⟩)

theorem hF2 (c : Dev nD) (w : Fin cfg2.W) :
    (dat2 (fun c b => V10 m (outs m) c b) c).arrAt w cfg2.N = V11 m (outs m) c (Pipeline.arrRef spec2 w) := by
  by_cases hw : w = 1
  · subst hw
    have h : V11 m (outs m) c (Proc.devRef .tc main_v59) = (dat2 (fun c b => V10 m (outs m) c b) c).arrAt 1 cfg2.N := by
      rw [V11, Function.update_self]; exact outs_v59 m c
    exact h.symm
  · have hin : (cfg2.win w).isOut = false :=
      (by decide : ∀ w : Fin 2, w ≠ 1 → (cfg2.win w).isOut = false) w hw
    have hne : Pipeline.arrRef spec2 w ∉ ([main_v59] : List (Ref sig .tc)) :=
      (by decide : ∀ w : Fin 2, w ≠ 1 → Pipeline.arrRef spec2 w ∉ ([main_v59] : List (Ref sig .tc))) w hw
    exact ((dat2 _ c).arrAt_in w hin _).trans ((A_eq2 _ c w).trans (V11_of m (outs m) c _ hne).symm)
theorem hrest2 (c : Dev nD) (b : Ref sig .tc) (hb : b ∉ Finset.univ.image (Pipeline.arrRef spec2)) :
    V11 m (outs m) c b = V10 m (outs m) c b :=
  V11_of m (outs m) c b fun hmem => by
    rw [List.mem_singleton] at hmem; subst hmem
    exact hb (Finset.mem_image.mpr ⟨1, Finset.mem_univ _, rfl⟩)

theorem hF3 (c : Dev nD) (w : Fin cfg3.W) :
    (dat3 (fun c b => V12 m (outs m) c b) c).arrAt w cfg3.N = V13 m (outs m) c (Pipeline.arrRef spec3 w) := by
  by_cases hw : w = 6
  · subst hw
    have h : V13 m (outs m) c (Proc.devRef .tc main_v77) = (dat3 (fun c b => V12 m (outs m) c b) c).arrAt 6 cfg3.N := by
      rw [V13, Function.update_self]; exact outs_v77 m c
    exact h.symm
  · have hin : (cfg3.win w).isOut = false :=
      (by decide : ∀ w : Fin 7, w ≠ 6 → (cfg3.win w).isOut = false) w hw
    have hne : Pipeline.arrRef spec3 w ∉ ([main_v77] : List (Ref sig .tc)) :=
      (by decide : ∀ w : Fin 7, w ≠ 6 → Pipeline.arrRef spec3 w ∉ ([main_v77] : List (Ref sig .tc))) w hw
    exact ((dat3 _ c).arrAt_in w hin _).trans ((A_eq3 _ c w).trans (V13_of m (outs m) c _ hne).symm)
theorem hrest3 (c : Dev nD) (b : Ref sig .tc) (hb : b ∉ Finset.univ.image (Pipeline.arrRef spec3)) :
    V13 m (outs m) c b = V12 m (outs m) c b :=
  V13_of m (outs m) c b fun hmem => by
    rw [List.mem_singleton] at hmem; subst hmem
    exact hb (Finset.mem_image.mpr ⟨6, Finset.mem_univ _, rfl⟩)

theorem hF4 (c : Dev nD) (w : Fin cfg4.W) :
    (dat4 (fun c b => V14 m (outs m) c b) c).arrAt w cfg4.N = V15 m (outs m) c (Pipeline.arrRef spec4 w) := by
  by_cases hw : w = 1
  · subst hw
    have h : V15 m (outs m) c (Proc.devRef .tc main_v86) = (dat4 (fun c b => V14 m (outs m) c b) c).arrAt 1 cfg4.N := by
      rw [V15, Function.update_self]; exact outs_v86 m c
    exact h.symm
  · have hin : (cfg4.win w).isOut = false :=
      (by decide : ∀ w : Fin 2, w ≠ 1 → (cfg4.win w).isOut = false) w hw
    have hne : Pipeline.arrRef spec4 w ∉ ([main_v86] : List (Ref sig .tc)) :=
      (by decide : ∀ w : Fin 2, w ≠ 1 → Pipeline.arrRef spec4 w ∉ ([main_v86] : List (Ref sig .tc))) w hw
    exact ((dat4 _ c).arrAt_in w hin _).trans ((A_eq4 _ c w).trans (V15_of m (outs m) c _ hne).symm)
theorem hrest4 (c : Dev nD) (b : Ref sig .tc) (hb : b ∉ Finset.univ.image (Pipeline.arrRef spec4)) :
    V15 m (outs m) c b = V14 m (outs m) c b :=
  V15_of m (outs m) c b fun hmem => by
    rw [List.mem_singleton] at hmem; subst hmem
    exact hb (Finset.mem_image.mpr ⟨1, Finset.mem_univ _, rfl⟩)

theorem hF5 (c : Dev nD) (w : Fin cfg5.W) :
    (dat5 (fun c b => V15 m (outs m) c b) c).arrAt w cfg5.N = V16 m (outs m) c (Pipeline.arrRef spec5 w) := by
  by_cases hw : w = 1
  · subst hw
    have h : V16 m (outs m) c (Proc.devRef .tc main_v87) = (dat5 (fun c b => V15 m (outs m) c b) c).arrAt 1 cfg5.N := by
      rw [V16, Function.update_self]; exact outs_v87 m c
    exact h.symm
  · have hin : (cfg5.win w).isOut = false :=
      (by decide : ∀ w : Fin 2, w ≠ 1 → (cfg5.win w).isOut = false) w hw
    have hne : Pipeline.arrRef spec5 w ∉ ([main_v87] : List (Ref sig .tc)) :=
      (by decide : ∀ w : Fin 2, w ≠ 1 → Pipeline.arrRef spec5 w ∉ ([main_v87] : List (Ref sig .tc))) w hw
    exact ((dat5 _ c).arrAt_in w hin _).trans ((A_eq5 _ c w).trans (V16_of m (outs m) c _ hne).symm)
theorem hrest5 (c : Dev nD) (b : Ref sig .tc) (hb : b ∉ Finset.univ.image (Pipeline.arrRef spec5)) :
    V16 m (outs m) c b = V15 m (outs m) c b :=
  V16_of m (outs m) c b fun hmem => by
    rw [List.mem_singleton] at hmem; subst hmem
    exact hb (Finset.mem_image.mpr ⟨1, Finset.mem_univ _, rfl⟩)

/-! ## The proof data family and the thread state -/

/-- Every pipeline's proof data, each at its region's entry contents: a literal match, so that the launch lemma's
    pinned configuration at a numeral reduces to the printed one. -/
def pdats : (p : Fin 6) → (c : Dev nD) → Dat τ (Elt F) Unit ℕ (UR sig nD τ) ℕ (cfgs p) c
  | ⟨0, _⟩ => fun c => dat0 (fun c b => V7 m c b) c
  | ⟨1, _⟩ => fun c => dat1 (fun c b => V9 m (outs m) c b) c
  | ⟨2, _⟩ => fun c => dat2 (fun c b => V10 m (outs m) c b) c
  | ⟨3, _⟩ => fun c => dat3 (fun c b => V12 m (outs m) c b) c
  | ⟨4, _⟩ => fun c => dat4 (fun c b => V14 m (outs m) c b) c
  | ⟨5, _⟩ => fun c => dat5 (fun c b => V15 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `V7`, left at `V8`. Its arrays are
    split out of the unscoped buffers and put back at the exit contents; the generator register goes into the class
    invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V7 m c b) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V7 m c b) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V9`, left at `V10`. Its arrays are
    split out of the unscoped buffers and put back at the exit contents; the generator register goes into the class
    invariant and comes out; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V9 m (outs m) c b) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V9 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V9 m (outs m) c b) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V10`, left at `V11`. Its arrays are
    split out of the unscoped buffers and put back at the exit contents; the generator register goes into the class
    invariant and comes out; nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V10 m (outs m) c b) c).loose
  hwaits := Pipeline.hwaits_of_owed_zero _ _ _ _ L lv 2 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V10 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V10 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V10 m (outs m) c b) (fun b => V11 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V12`, left at `V13`. Its arrays are
    split out of the unscoped buffers and put back at the exit contents; the generator register goes into the class
    invariant and comes out; nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V12 m (outs m) c b) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V12 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V12 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V12 m (outs m) c b) (fun b => V13 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `V14`, left at `V15`. Its arrays are
    split out of the unscoped buffers and put back at the exit contents; the generator register goes into the class
    invariant and comes out; nothing is owed; the kernel has no semaphore of its own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V14 m (outs m) c b) c).loose
  hwaits := Pipeline.hwaits_of_owed_zero _ _ _ _ L lv 4 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V14 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V14 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V14 m (outs m) c b) (fun b => V15 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `V15`, left at `V16`. Its arrays are
    split out of the unscoped buffers and put back at the exit contents; the generator register goes into the class
    invariant and comes out; nothing is owed; the kernel has no semaphore of its own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V15 m (outs m) c b) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V15 m (outs m) c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V15 m (outs m) c b) (fun b => V16 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's at every pipeline's staging cells; no ghost resource beside it. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes the rest of its first thread state from what the launch deals it: its generator register, and its
    `owes` at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- The rest of the last thread state owes nothing. -/
theorem hE6 (c : Dev nD) : R (F := F) c ⊢ (iprop(∃ W, owes (c : Thread nD τ) (0 : CellTallies nD τ sig Unit) W) : sProp 𝕄) := by
  iintro ⟨-, H⟩; iexact H

/-! ## The run -/

set_option backward.isDefEq.respectTransparency.types false in
/-- THE RUN with every unscoped buffer named: from any memory with zero counters every weakly fair execution of @main
    terminates, and every final memory holds each unscoped buffer at the last boundary's contents `V17`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V17 m (outs m) c b) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m) (reg3 m) (reg4 m) (reg5 m))
    (fun c Q => by
      rewrite [main_chain c, Seg.run_eq_chain,
        show (segs m (outs m) Variants.none L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      exact .rfl)
    (fun c => by simp only [segs, Seg.pipes_host, Seg.pipes_region, Seg.pipes_nil]; decide) 0 (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl, sep_mono .rfl (hE6 c)⟩)
    (hinit := ?_) (QY := fun c s => ∀ b ∈ Pipeline.ucRefs τ sig, s.mem ((c : Thread nD τ).1, b) = V17 m (outs m) c b)
    (hfin := fun c s' => ?_) (hQ := fun _ h => h)
  · -- the launch: the unscoped buffers are held at `V0`; the rest makes `R` on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact h
    · iexact HSI

set_option backward.isDefEq.respectTransparency.types false in
/-- THE FRAME: from any memory with zero counters every weakly fair execution of @main terminates and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m) 0 (fun _ => (BI.emp : sProp 𝕄)) u₀ hu₀
    (fun _ c => R c) (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.KernelIdeal.Hand

end
-- ==== Proof.BEdgeRegion0.lean ====
/- The edge-message region 0 of @main (custom_call 0, pipeline 0), at a parameter `V`: the TensorCore's buffer
   contents when the region is entered. Each window's block at a grid point, what the kernel body leaves in the
   output window's staging buffer as a function of the six input blocks and the grid coordinate, the body's
   triple, the pipeline's proof data and its body obligation. Windows 2..5 (the two weight matrices and the two
   bias rows) have a constant block index: they are fetched at the first point only and found unchanged at every
   later one. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x128 := Rect.unit (s := S4096x128) ![0, 0] S4096x128.size inb_S4096x128_S4096x128_0_0
abbrev r0_1 : Rect S4096x1 := Rect.unit (s := S4096x1) ![0, 0] S4096x1.size inb_S4096x1_S4096x1_0_0
abbrev r0_2 : Rect S64x64 := Rect.unit (s := S64x64) ![0, 0] S64x64.size inb_S64x64_S64x64_0_0
abbrev r0_3 : Rect S1x64 := Rect.unit (s := S1x64) ![0, 0] S1x64.size inb_S1x64_S1x64_0_0

/-! ## What the body leaves in the output window's buffer -/

/-- Window 6's staging buffer after the body at grid coordinate `i`, from the input windows' blocks: its one
    store, of the whole block. -/
def out0_6 (i : grid0.Coords) (x0 : Vec F S4096x128 .f32) (x1 : Vec F S4096x1 .f32) (x2 : Vec F S64x64 .f32) (x3 : Vec F S1x64 .f32)
    (x4 : Vec F S64x64 .f32) (x5 : Vec F S1x64 .f32) : Vec F S4096x128 .f32 :=
  View.canon [⟨r0_0, k0_pay1 (k0_pay2 (F := F) i) (k0_pay9 (View.ld x0 r0_0) (View.ld x4 r0_2) (View.ld x5 r0_3))
    (k0_pay10 i (View.ld x0 r0_0) (View.ld x1 r0_1) (View.ld x2 r0_2) (View.ld x4 r0_2) (View.ld x3 r0_3) (View.ld x5 r0_3))
    (k0_pay11 (View.ld x0 r0_0) (View.ld x1 r0_1) (View.ld x2 r0_2) (View.ld x3 r0_3))⟩]

/-- The store tiles the buffer, so it covers it. -/
theorem cover0_6 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 4000000 in
/-- The kernel body at grid coordinate `i` on whole staging memrefs, the inputs' at read contents `xW` and the output's
    at anything, runs to the continuation holding the inputs' as they were and the output's at `out0_6 i` of the inputs'. -/
theorem sound_kernel0 (c : Dev nD) (E : Set ℕ) (i : grid0.Coords)
    (arg1 : Memref sig .tc .vmem S4096x128 .f32) (harg1 : arg1.IsWhole) (arg2 : Memref sig .tc .vmem S4096x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x128 .f32) (harg7 : arg7.IsWhole)
    (x0 : Vec F S4096x128 .f32) (x1 : Vec F S4096x1 .f32) (x2 : Vec F S64x64 .f32) (x3 : Vec F S1x64 .f32)
    (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (out0_6 i x0 x1 x2 x3 x4 x5)) -∗ K ⟨⟩))
      ⊢ wp frame (wpE (defs₀ (F := F)) Variants.none c none) E (cc0__edge_message_kernel i arg1 harg1 arg2 harg2 arg3 harg3 arg4 harg4 arg5 harg5 arg6 harg6 arg7 harg7) K := by
  simp only [cc0__edge_message_kernel_eq_skeleton]; unfold cc0__edge_message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks at the point's coordinate; the
    invariant the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (grid0.coords t) (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies at the point's
    coordinate; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BEpiRegion1.lean ====
/- Region 1 of @main (the row-normalising epilogue, custom_call 1): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s (`hA`) and whose body leaves the block in place (`hafter`): the window is fetched at every point, uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000 × 64 block as a rectangle. -/
abbrev r1_0 : Rect S2000x64 := Rect.unit (s := S2000x64) ![0, 0] S2000x64.size inb_S2000x64_S2000x64_0_0

/-! ## What the body leaves in the output window's buffer -/

/-- The output staging buffer after the body, from the input block: its one store, of the payload of the block. -/
def out1_1 (x0 : Vec F S2000x64 .f32) : Vec F S2000x64 .f32 :=
  View.canon [⟨r1_0, k1_pay1 (View.ld x0 r1_0)⟩]

/-- The store's rectangle is the whole buffer, so it covers it. -/
theorem cover1_1 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-! ## The body's triple -/

set_option maxHeartbeats 1000000 in
/-- The kernel body on whole staging memrefs, the input's at read contents `x0` and the output's at anything, runs
    to the continuation holding the input's as it was and the output's at `out1_1 x0`, at any grid coordinate. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__epilogue_kernel i arg1 harg1 arg2 harg2) K := by
  simp only [cc1__epilogue_kernel_eq_skeleton]; unfold cc1__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at point
    `t` the input's buffer at its block and the output's at `out1_1` of the input block; the invariant keeps the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BEpiRegion2.lean ====
/- Region 2 of @main (the row-normalising epilogue, custom_call 2): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s (`hA`) and whose body leaves the block in place (`hafter`): the window is fetched at every point, uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 × 64 block as a rectangle. -/
abbrev r2_0 : Rect S2000x64 := Rect.unit (s := S2000x64) ![0, 0] S2000x64.size inb_S2000x64_S2000x64_0_0

/-! ## What the body leaves in the output window's buffer -/

/-- The output staging buffer after the body, from the input block: its one store, of the payload of the block. -/
def out2_1 (x0 : Vec F S2000x64 .f32) : Vec F S2000x64 .f32 :=
  View.canon [⟨r2_0, k2_pay1 (View.ld x0 r2_0)⟩]

/-- The store's rectangle is the whole buffer, so it covers it. -/
theorem cover2_1 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging memrefs, the input's at read contents `x0` and the output's at anything, runs
    to the continuation holding the input's as it was and the output's at `out2_1 x0`, at any grid coordinate. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__epilogue_kernel i arg1 harg1 arg2 harg2) K := by
  simp only [cc2__epilogue_kernel_eq_skeleton]; unfold cc2__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at point
    `t` the input's buffer at its block and the output's at `out2_1` of the input block; the invariant keeps the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block (`before2_0`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BEdgeRegion3.lean ====
/- The edge-message region 3 of @main (custom_call 3, pipeline 3), at a parameter `V`: the TensorCore's buffer
   contents when the region is entered. Each window's block at a grid point, what the kernel body leaves in the
   output window's staging buffer as a function of the six input blocks and the grid coordinate, the body's
   triple, the pipeline's proof data and its body obligation. Windows 2..5 (the two weight matrices and the two
   bias rows) have a constant block index: they are fetched at the first point only and found unchanged at every
   later one. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4096x128 := Rect.unit (s := S4096x128) ![0, 0] S4096x128.size inb_S4096x128_S4096x128_0_0
abbrev r3_1 : Rect S4096x1 := Rect.unit (s := S4096x1) ![0, 0] S4096x1.size inb_S4096x1_S4096x1_0_0
abbrev r3_2 : Rect S64x64 := Rect.unit (s := S64x64) ![0, 0] S64x64.size inb_S64x64_S64x64_0_0
abbrev r3_3 : Rect S1x64 := Rect.unit (s := S1x64) ![0, 0] S1x64.size inb_S1x64_S1x64_0_0

/-! ## What the body leaves in the output window's buffer -/

/-- Window 6's staging buffer after the body at grid coordinate `i`, from the input windows' blocks: its one
    store, of the whole block. -/
def out3_6 (i : grid3.Coords) (x0 : Vec F S4096x128 .f32) (x1 : Vec F S4096x1 .f32) (x2 : Vec F S64x64 .f32) (x3 : Vec F S1x64 .f32)
    (x4 : Vec F S64x64 .f32) (x5 : Vec F S1x64 .f32) : Vec F S4096x128 .f32 :=
  View.canon [⟨r3_0, k3_pay1 (k3_pay2 (F := F) i) (k3_pay9 (View.ld x0 r3_0) (View.ld x4 r3_2) (View.ld x5 r3_3))
    (k3_pay10 i (View.ld x0 r3_0) (View.ld x1 r3_1) (View.ld x2 r3_2) (View.ld x4 r3_2) (View.ld x3 r3_3) (View.ld x5 r3_3))
    (k3_pay11 (View.ld x0 r3_0) (View.ld x1 r3_1) (View.ld x2 r3_2) (View.ld x3 r3_3))⟩]

/-- The store tiles the buffer, so it covers it. -/
theorem cover3_6 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 4000000 in
/-- The kernel body at grid coordinate `i` on whole staging memrefs, the inputs' at read contents `xW` and the output's
    at anything, runs to the continuation holding the inputs' as they were and the output's at `out3_6 i` of the inputs'. -/
theorem sound_kernel3 (c : Dev nD) (E : Set ℕ) (i : grid3.Coords)
    (arg1 : Memref sig .tc .vmem S4096x128 .f32) (harg1 : arg1.IsWhole) (arg2 : Memref sig .tc .vmem S4096x1 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x128 .f32) (harg7 : arg7.IsWhole)
    (x0 : Vec F S4096x128 .f32) (x1 : Vec F S4096x1 .f32) (x2 : Vec F S64x64 .f32) (x3 : Vec F S1x64 .f32)
    (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (out3_6 i x0 x1 x2 x3 x4 x5)) -∗ K ⟨⟩))
      ⊢ wp frame (wpE (defs₀ (F := F)) Variants.none c none) E (cc3__edge_message_kernel i arg1 harg1 arg2 harg2 arg3 harg3 arg4 harg4 arg5 harg5 arg6 harg6 arg7 harg7) K := by
  simp only [cc3__edge_message_kernel_eq_skeleton]; unfold cc3__edge_message_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and the output's at `out3_6` of the input blocks at the point's coordinate; the
    invariant the class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (grid3.coords t) (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (grid3.coords t) (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies at the point's
    coordinate; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BEpiRegion4.lean ====
/- Region 4 of @main (the row-normalising epilogue, custom_call 4): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s (`hA`) and whose body leaves the block in place (`hafter`): the window is fetched at every point, uncut
    and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000 × 64 block as a rectangle. -/
abbrev r4_0 : Rect S2000x64 := Rect.unit (s := S2000x64) ![0, 0] S2000x64.size inb_S2000x64_S2000x64_0_0

/-! ## What the body leaves in the output window's buffer -/

/-- The output staging buffer after the body, from the input block: its one store, of the payload of the block. -/
def out4_1 (x0 : Vec F S2000x64 .f32) : Vec F S2000x64 .f32 :=
  View.canon [⟨r4_0, k4_pay1 (View.ld x0 r4_0)⟩]

/-- The store's rectangle is the whole buffer, so it covers it. -/
theorem cover4_1 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 1000000 in
/-- The kernel body on whole staging memrefs, the input's at read contents `x0` and the output's at anything, runs
    to the continuation holding the input's as it was and the output's at `out4_1 x0`, at any grid coordinate. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__epilogue_kernel i arg1 harg1 arg2 harg2) K := by
  simp only [cc4__epilogue_kernel_eq_skeleton]; unfold cc4__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The pipeline's proof data -/

/-- The proof data of pipeline 4 on core `c`: the arrays as the region finds them (`V`); after the body at point
    `t` the input's buffer at its block and the output's at `out4_1` of the input block; the invariant keeps the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block (`before4_0`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BEpiRegion5.lean ====
/- Region 5 of @main (the row-normalising epilogue, custom_call 5): the kernel body's effect on whole staging
   buffers, the pipeline's proof data at arbitrary region-entry contents `V`, and the body obligation at every grid
   point. The body reads the input block, computes one pure value from it and stores it over the whole output block;
   it also reads the output block before overwriting it, and that value is unused. -/
import proofs.«155537_j65712999628849_1_alg».proof.Proof.Gen.Kernel.Launch
import proofs.«155537_j65712999628849_1_alg».proof.Proof.Gen.Kernel.Skeleton
import proofs.«155537_j65712999628849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 64 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose array is
    `V`'s (`hA`) and whose body leaves the block in place (`hafter`): the window is fetched at every point, uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 × 64 block as a rectangle. -/
abbrev r5_0 : Rect S2000x64 := Rect.unit (s := S2000x64) ![0, 0] S2000x64.size inb_S2000x64_S2000x64_0_0

/-! ## What the body leaves in the output window's buffer -/

/-- The output staging buffer after the body, from the input block: its one store, of the payload of the block. -/
def out5_1 (x0 : Vec F S2000x64 .f32) : Vec F S2000x64 .f32 :=
  View.canon [⟨r5_0, k5_pay1 (View.ld x0 r5_0)⟩]

/-- The store's rectangle is the whole buffer, so it covers it. -/
theorem cover5_1 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- The kernel body on whole staging memrefs, the input's at read contents `x0` and the output's at anything, runs
    to the continuation holding the input's as it was and the output's at `out5_1 x0`, at any grid coordinate. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__epilogue_kernel i arg1 harg1 arg2 harg2) K := by
  simp only [cc5__epilogue_kernel_eq_skeleton]; unfold cc5__epilogue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-! ## The pipeline's proof data -/

/-- The proof data of pipeline 5 on core `c`: the arrays as the region finds them (`V`); after the body at point
    `t` the input's buffer at its block and the output's at `out5_1` of the input block; the invariant keeps the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

/-- The input's current staging buffer holds its block at every point. -/
theorem before5_0 (c : Dev nD) (t : Fin cfg5.N) (d) : (dat5 V c).before 0 t d = iblk5 V c 0 t :=
  before5_0_of V (dat5 V c) (A_eq5 V c 0) (after5_0 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's memref holds its block (`before5_0`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ _ _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BAssembly.lean ====
import proofs.«155537_j65712999628849_1_alg».proof.Proof.BEdgeRegion0
import proofs.«155537_j65712999628849_1_alg».proof.Proof.BEpiRegion1
import proofs.«155537_j65712999628849_1_alg».proof.Proof.BEpiRegion2
import proofs.«155537_j65712999628849_1_alg».proof.Proof.BEdgeRegion3
import proofs.«155537_j65712999628849_1_alg».proof.Proof.BEpiRegion4
import proofs.«155537_j65712999628849_1_alg».proof.Proof.BEpiRegion5
import proofs.«155537_j65712999628849_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: six kernel regions among host stretches

Each region's proof data is stated at the contents of the unscoped buffers when the region is entered. The contents a
region leaves in its output array are what its write-backs fold to (`Dat.arrAt … N`); they are collected, region after
region, into one family `outs`, over which the boundary valuations `V0 … V17` are written. With one segment record per
region the launch lemma gives the run with every unscoped buffer named at the end (`run_all`) and the frame (`frame`). -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, stage by stage

`oJ c` is the output array of the region at item J−1 after its last write-back, the region entered at the contents
`E(J−1) c`; `EJ c` is every unscoped buffer after item J−1. None of these mentions `outs`. -/

def o8 (c : Dev nD) : Buf (Elt F) ((c : Thread nD τ).loc main_v49) := (dat0 (fun c b => V7 m c b) c).arrAt 6 cfg0.N
abbrev E8 (c : Dev nD) : Valuation τ sig (Elt F) := Function.update (V7 m c) main_v49 (o8 m c)
abbrev E9 (c : Dev nD) : Valuation τ sig (Elt F) := StableHlo.after hostOps1 (E8 m c)
def o10 (c : Dev nD) : Buf (Elt F) ((c : Thread nD τ).loc main_v58) := (dat1 (fun c b => E9 m c b) c).arrAt 1 cfg1.N
abbrev E10 (c : Dev nD) : Valuation τ sig (Elt F) := Function.update (E9 m c) main_v58 (o10 m c)
def o11 (c : Dev nD) : Buf (Elt F) ((c : Thread nD τ).loc main_v59) := (dat2 (fun c b => E10 m c b) c).arrAt 1 cfg2.N
abbrev E11 (c : Dev nD) : Valuation τ sig (Elt F) := Function.update (E10 m c) main_v59 (o11 m c)
abbrev E12 (c : Dev nD) : Valuation τ sig (Elt F) := StableHlo.after hostOps3 (E11 m c)
def o13 (c : Dev nD) : Buf (Elt F) ((c : Thread nD τ).loc main_v77) := (dat3 (fun c b => E12 m c b) c).arrAt 6 cfg3.N
abbrev E13 (c : Dev nD) : Valuation τ sig (Elt F) := Function.update (E12 m c) main_v77 (o13 m c)
abbrev E14 (c : Dev nD) : Valuation τ sig (Elt F) := StableHlo.after hostOps4 (E13 m c)
def o15 (c : Dev nD) : Buf (Elt F) ((c : Thread nD τ).loc main_v86) := (dat4 (fun c b => E14 m c b) c).arrAt 1 cfg4.N
abbrev E15 (c : Dev nD) : Valuation τ sig (Elt F) := Function.update (E14 m c) main_v86 (o15 m c)
def o16 (c : Dev nD) : Buf (Elt F) ((c : Thread nD τ).loc main_v87) := (dat5 (fun c b => E15 m c b) c).arrAt 1 cfg5.N
abbrev E16 (c : Dev nD) : Valuation τ sig (Elt F) := Function.update (E15 m c) main_v87 (o16 m c)

/-- What the regions leave: at a region's output reference the staged contents above, at any other reference the launch
    contents (never read there). The item number is not looked at: the six references are distinct. -/
def outs : Outs (F := F) := fun _ r c =>
  if h49 : r = main_v49 then h49 ▸ o8 m c
  else if h58 : r = main_v58 then h58 ▸ o10 m c
  else if h59 : r = main_v59 then h59 ▸ o11 m c
  else if h77 : r = main_v77 then h77 ▸ o13 m c
  else if h86 : r = main_v86 then h86 ▸ o15 m c
  else if h87 : r = main_v87 then h87 ▸ o16 m c
  else m ((c : Thread nD τ).loc r)

theorem outs_o8 (j : ℕ) (c : Dev nD) : outs m j main_v49 c = o8 m c := by
  unfold outs; rw [dif_pos rfl]
theorem outs_o10 (j : ℕ) (c : Dev nD) : outs m j main_v58 c = o10 m c := by
  unfold outs; rw [dif_neg (show ¬ main_v58 = main_v49 by decide), dif_pos rfl]
theorem outs_o11 (j : ℕ) (c : Dev nD) : outs m j main_v59 c = o11 m c := by
  unfold outs; rw [dif_neg (show ¬ main_v59 = main_v49 by decide), dif_neg (show ¬ main_v59 = main_v58 by decide), dif_pos rfl]
theorem outs_o13 (j : ℕ) (c : Dev nD) : outs m j main_v77 c = o13 m c := by
  unfold outs; rw [dif_neg (show ¬ main_v77 = main_v49 by decide), dif_neg (show ¬ main_v77 = main_v58 by decide), dif_neg (show ¬ main_v77 = main_v59 by decide), dif_pos rfl]
theorem outs_o15 (j : ℕ) (c : Dev nD) : outs m j main_v86 c = o15 m c := by
  unfold outs; rw [dif_neg (show ¬ main_v86 = main_v49 by decide), dif_neg (show ¬ main_v86 = main_v58 by decide), dif_neg (show ¬ main_v86 = main_v59 by decide), dif_neg (show ¬ main_v86 = main_v77 by decide), dif_pos rfl]
theorem outs_o16 (j : ℕ) (c : Dev nD) : outs m j main_v87 c = o16 m c := by
  unfold outs; rw [dif_neg (show ¬ main_v87 = main_v49 by decide), dif_neg (show ¬ main_v87 = main_v58 by decide), dif_neg (show ¬ main_v87 = main_v59 by decide), dif_neg (show ¬ main_v87 = main_v77 by decide), dif_neg (show ¬ main_v87 = main_v86 by decide), dif_pos rfl]

/-! ## The boundary valuations over `outs` are the staged ones -/

theorem V8_eq (c : Dev nD) : V8 m (outs m) c = E8 m c := by rw [V8, outs_o8]
theorem V9_eq (c : Dev nD) : V9 m (outs m) c = E9 m c := by rw [V9, V8_eq]
theorem V10_eq (c : Dev nD) : V10 m (outs m) c = E10 m c := by rw [V10, V9_eq, outs_o10]
theorem V11_eq (c : Dev nD) : V11 m (outs m) c = E11 m c := by rw [V11, V10_eq, outs_o11]
theorem V12_eq (c : Dev nD) : V12 m (outs m) c = E12 m c := by rw [V12, V11_eq]
theorem V13_eq (c : Dev nD) : V13 m (outs m) c = E13 m c := by rw [V13, V12_eq, outs_o13]
theorem V14_eq (c : Dev nD) : V14 m (outs m) c = E14 m c := by rw [V14, V13_eq]
theorem V15_eq (c : Dev nD) : V15 m (outs m) c = E15 m c := by rw [V15, V14_eq, outs_o15]
theorem V16_eq (c : Dev nD) : V16 m (outs m) c = E16 m c := by rw [V16, V15_eq, outs_o16]

/-! ## What each region leaves, at its true entry contents -/

theorem outs_v49 (c : Dev nD) : outs m 8 main_v49 c = (dat0 (fun c b => V7 m c b) c).arrAt 6 cfg0.N := outs_o8 m 8 c
theorem outs_v58 (c : Dev nD) : outs m 10 main_v58 c = (dat1 (fun c b => V9 m (outs m) c b) c).arrAt 1 cfg1.N := by
  rw [show (fun (c : Dev nD) (b : Ref sig .tc) => V9 m (outs m) c b) = fun (c : Dev nD) (b : Ref sig .tc) => E9 m c b from
    funext fun c => funext fun b => congrFun (V9_eq m c) _]
  exact outs_o10 m 10 c
theorem outs_v59 (c : Dev nD) : outs m 11 main_v59 c = (dat2 (fun c b => V10 m (outs m) c b) c).arrAt 1 cfg2.N := by
  rw [show (fun (c : Dev nD) (b : Ref sig .tc) => V10 m (outs m) c b) = fun (c : Dev nD) (b : Ref sig .tc) => E10 m c b from
    funext fun c => funext fun b => congrFun (V10_eq m c) _]
  exact outs_o11 m 11 c
theorem outs_v77 (c : Dev nD) : outs m 13 main_v77 c = (dat3 (fun c b => V12 m (outs m) c b) c).arrAt 6 cfg3.N := by
  rw [show (fun (c : Dev nD) (b : Ref sig .tc) => V12 m (outs m) c b) = fun (c : Dev nD) (b : Ref sig .tc) => E12 m c b from
    funext fun c => funext fun b => congrFun (V12_eq m c) _]
  exact outs_o13 m 13 c
theorem outs_v86 (c : Dev nD) : outs m 15 main_v86 c = (dat4 (fun c b => V14 m (outs m) c b) c).arrAt 1 cfg4.N := by
  rw [show (fun (c : Dev nD) (b : Ref sig .tc) => V14 m (outs m) c b) = fun (c : Dev nD) (b : Ref sig .tc) => E14 m c b from
    funext fun c => funext fun b => congrFun (V14_eq m c) _]
  exact outs_o15 m 15 c
theorem outs_v87 (c : Dev nD) : outs m 16 main_v87 c = (dat5 (fun c b => V15 m (outs m) c b) c).arrAt 1 cfg5.N := by
  rw [show (fun (c : Dev nD) (b : Ref sig .tc) => V15 m (outs m) c b) = fun (c : Dev nD) (b : Ref sig .tc) => E15 m c b from
    funext fun c => funext fun b => congrFun (V15_eq m c) _]
  exact outs_o16 m 16 c

/-! ## A region's exit: its arrays at what the pipeline leaves, every other buffer as entered -/

theorem hF0 (c : Dev nD) (w : Fin cfg0.W) :
    (dat0 (fun c b => V7 m c b) c).arrAt w cfg0.N = V8 m (outs m) c (Pipeline.arrRef spec0 w) := by
  by_cases hw : w = 6
  · subst hw
    have h : V8 m (outs m) c (Proc.devRef .tc main_v49) = (dat0 (fun c b => V7 m c b) c).arrAt 6 cfg0.N := by
      rw [V8, Function.update_self]; exact outs_v49 m c
    exact h.symm
  · have hin : (cfg0.win w).isOut = false :=
      (by decide : ∀ w : Fin 7, w ≠ 6 → (cfg0.win w).isOut = false) w hw
    have hne : Pipeline.arrRef spec0 w ∉ ([main_v49] : List (Ref sig .tc)) :=
      (by decide : ∀ w : Fin 7, w ≠ 6 → Pipeline.arrRef spec0 w ∉ ([main_v49] : List (Ref sig .tc))) w hw
    exact ((dat0 _ c).arrAt_in w hin _).trans ((A_eq0 _ c w).trans (V8_of m (outs m) c _ hne).symm)
theorem hrest0 (c : Dev nD) (b : Ref sig .tc) (hb : b ∉ Finset.univ.image (Pipeline.arrRef spec0)) :
    V8 m (outs m) c b = V7 m c b :=
  V8_of m (outs m) c b fun hmem => by
    rw [List.mem_singleton] at hmem; subst hmem
    exact hb (Finset.mem_image.mpr ⟨6, Finset.mem_univ _, rfl⟩)

theorem hF1 (c : Dev nD) (w : Fin cfg1.W) :
    (dat1 (fun c b => V9 m (outs m) c b) c).arrAt w cfg1.N = V10 m (outs m) c (Pipeline.arrRef spec1 w) := by
  by_cases hw : w = 1
  · subst hw
    have h : V10 m (outs m) c (Proc.devRef .tc main_v58) = (dat1 (fun c b => V9 m (outs m) c b) c).arrAt 1 cfg1.N := by
      rw [V10, Function.update_self]; exact outs_v58 m c
    exact h.symm
  · have hin : (cfg1.win w).isOut = false :=
      (by decide : ∀ w : Fin 2, w ≠ 1 → (cfg1.win w).isOut = false) w hw
    have hne : Pipeline.arrRef spec1 w ∉ ([main_v58] : List (Ref sig .tc)) :=
      (by decide : ∀ w : Fin 2, w ≠ 1 → Pipeline.arrRef spec1 w ∉ ([main_v58] : List (Ref sig .tc))) w hw
    exact ((dat1 _ c).arrAt_in w hin _).trans ((A_eq1 _ c w).trans (V10_of m (outs m) c _ hne).symm)
theorem hrest1 (c : Dev nD) (b : Ref sig .tc) (hb : b ∉ Finset.univ.image (Pipeline.arrRef spec1)) :
    V10 m (outs m) c b = V9 m (outs m) c b :=
  V10_of m (outs m) c b fun hmem => by
    rw [List.mem_singleton] at hmem; subst hmem
    exact hb (Finset.mem_image.mpr ⟨1, Finset.mem_univ _, rfl⟩)

theorem hF2 (c : Dev nD) (w : Fin cfg2.W) :
    (dat2 (fun c b => V10 m (outs m) c b) c).arrAt w cfg2.N = V11 m (outs m) c (Pipeline.arrRef spec2 w) := by
  by_cases hw : w = 1
  · subst hw
    have h : V11 m (outs m) c (Proc.devRef .tc main_v59) = (dat2 (fun c b => V10 m (outs m) c b) c).arrAt 1 cfg2.N := by
      rw [V11, Function.update_self]; exact outs_v59 m c
    exact h.symm
  · have hin : (cfg2.win w).isOut = false :=
      (by decide : ∀ w : Fin 2, w ≠ 1 → (cfg2.win w).isOut = false) w hw
    have hne : Pipeline.arrRef spec2 w ∉ ([main_v59] : List (Ref sig .tc)) :=
      (by decide : ∀ w : Fin 2, w ≠ 1 → Pipeline.arrRef spec2 w ∉ ([main_v59] : List (Ref sig .tc))) w hw
    exact ((dat2 _ c).arrAt_in w hin _).trans ((A_eq2 _ c w).trans (V11_of m (outs m) c _ hne).symm)
theorem hrest2 (c : Dev nD) (b : Ref sig .tc) (hb : b ∉ Finset.univ.image (Pipeline.arrRef spec2)) :
    V11 m (outs m) c b = V10 m (outs m) c b :=
  V11_of m (outs m) c b fun hmem => by
    rw [List.mem_singleton] at hmem; subst hmem
    exact hb (Finset.mem_image.mpr ⟨1, Finset.mem_univ _, rfl⟩)

theorem hF3 (c : Dev nD) (w : Fin cfg3.W) :
    (dat3 (fun c b => V12 m (outs m) c b) c).arrAt w cfg3.N = V13 m (outs m) c (Pipeline.arrRef spec3 w) := by
  by_cases hw : w = 6
  · subst hw
    have h : V13 m (outs m) c (Proc.devRef .tc main_v77) = (dat3 (fun c b => V12 m (outs m) c b) c).arrAt 6 cfg3.N := by
      rw [V13, Function.update_self]; exact outs_v77 m c
    exact h.symm
  · have hin : (cfg3.win w).isOut = false :=
      (by decide : ∀ w : Fin 7, w ≠ 6 → (cfg3.win w).isOut = false) w hw
    have hne : Pipeline.arrRef spec3 w ∉ ([main_v77] : List (Ref sig .tc)) :=
      (by decide : ∀ w : Fin 7, w ≠ 6 → Pipeline.arrRef spec3 w ∉ ([main_v77] : List (Ref sig .tc))) w hw
    exact ((dat3 _ c).arrAt_in w hin _).trans ((A_eq3 _ c w).trans (V13_of m (outs m) c _ hne).symm)
theorem hrest3 (c : Dev nD) (b : Ref sig .tc) (hb : b ∉ Finset.univ.image (Pipeline.arrRef spec3)) :
    V13 m (outs m) c b = V12 m (outs m) c b :=
  V13_of m (outs m) c b fun hmem => by
    rw [List.mem_singleton] at hmem; subst hmem
    exact hb (Finset.mem_image.mpr ⟨6, Finset.mem_univ _, rfl⟩)

theorem hF4 (c : Dev nD) (w : Fin cfg4.W) :
    (dat4 (fun c b => V14 m (outs m) c b) c).arrAt w cfg4.N = V15 m (outs m) c (Pipeline.arrRef spec4 w) := by
  by_cases hw : w = 1
  · subst hw
    have h : V15 m (outs m) c (Proc.devRef .tc main_v86) = (dat4 (fun c b => V14 m (outs m) c b) c).arrAt 1 cfg4.N := by
      rw [V15, Function.update_self]; exact outs_v86 m c
    exact h.symm
  · have hin : (cfg4.win w).isOut = false :=
      (by decide : ∀ w : Fin 2, w ≠ 1 → (cfg4.win w).isOut = false) w hw
    have hne : Pipeline.arrRef spec4 w ∉ ([main_v86] : List (Ref sig .tc)) :=
      (by decide : ∀ w : Fin 2, w ≠ 1 → Pipeline.arrRef spec4 w ∉ ([main_v86] : List (Ref sig .tc))) w hw
    exact ((dat4 _ c).arrAt_in w hin _).trans ((A_eq4 _ c w).trans (V15_of m (outs m) c _ hne).symm)
theorem hrest4 (c : Dev nD) (b : Ref sig .tc) (hb : b ∉ Finset.univ.image (Pipeline.arrRef spec4)) :
    V15 m (outs m) c b = V14 m (outs m) c b :=
  V15_of m (outs m) c b fun hmem => by
    rw [List.mem_singleton] at hmem; subst hmem
    exact hb (Finset.mem_image.mpr ⟨1, Finset.mem_univ _, rfl⟩)

theorem hF5 (c : Dev nD) (w : Fin cfg5.W) :
    (dat5 (fun c b => V15 m (outs m) c b) c).arrAt w cfg5.N = V16 m (outs m) c (Pipeline.arrRef spec5 w) := by
  by_cases hw : w = 1
  · subst hw
    have h : V16 m (outs m) c (Proc.devRef .tc main_v87) = (dat5 (fun c b => V15 m (outs m) c b) c).arrAt 1 cfg5.N := by
      rw [V16, Function.update_self]; exact outs_v87 m c
    exact h.symm
  · have hin : (cfg5.win w).isOut = false :=
      (by decide : ∀ w : Fin 2, w ≠ 1 → (cfg5.win w).isOut = false) w hw
    have hne : Pipeline.arrRef spec5 w ∉ ([main_v87] : List (Ref sig .tc)) :=
      (by decide : ∀ w : Fin 2, w ≠ 1 → Pipeline.arrRef spec5 w ∉ ([main_v87] : List (Ref sig .tc))) w hw
    exact ((dat5 _ c).arrAt_in w hin _).trans ((A_eq5 _ c w).trans (V16_of m (outs m) c _ hne).symm)
theorem hrest5 (c : Dev nD) (b : Ref sig .tc) (hb : b ∉ Finset.univ.image (Pipeline.arrRef spec5)) :
    V16 m (outs m) c b = V15 m (outs m) c b :=
  V16_of m (outs m) c b fun hmem => by
    rw [List.mem_singleton] at hmem; subst hmem
    exact hb (Finset.mem_image.mpr ⟨1, Finset.mem_univ _, rfl⟩)

/-! ## The proof data family and the thread state -/

/-- Every pipeline's proof data, each at its region's entry contents: a literal match, so that the launch lemma's
    pinned configuration at a numeral reduces to the printed one. -/
def pdats : (p : Fin 6) → (c : Dev nD) → Dat τ (Elt F) Unit ℕ (UR sig nD τ) ℕ (cfgs p) c
  | ⟨0, _⟩ => fun c => dat0 (fun c b => V7 m c b) c
  | ⟨1, _⟩ => fun c => dat1 (fun c b => V9 m (outs m) c b) c
  | ⟨2, _⟩ => fun c => dat2 (fun c b => V10 m (outs m) c b) c
  | ⟨3, _⟩ => fun c => dat3 (fun c b => V12 m (outs m) c b) c
  | ⟨4, _⟩ => fun c => dat4 (fun c b => V14 m (outs m) c b) c
  | ⟨5, _⟩ => fun c => dat5 (fun c b => V15 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `V7`, left at `V8`. Its arrays are
    split out of the unscoped buffers and put back at the exit contents; the generator register goes into the class
    invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V7 m c b) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V7 m c b) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V9`, left at `V10`. Its arrays are
    split out of the unscoped buffers and put back at the exit contents; the generator register goes into the class
    invariant and comes out; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V9 m (outs m) c b) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V9 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V9 m (outs m) c b) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V10`, left at `V11`. Its arrays are
    split out of the unscoped buffers and put back at the exit contents; the generator register goes into the class
    invariant and comes out; nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V10 m (outs m) c b) c).loose
  hwaits := Pipeline.hwaits_of_owed_zero _ _ _ _ L lv 2 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V10 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V10 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V10 m (outs m) c b) (fun b => V11 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V12`, left at `V13`. Its arrays are
    split out of the unscoped buffers and put back at the exit contents; the generator register goes into the class
    invariant and comes out; nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V12 m (outs m) c b) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V12 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V12 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V12 m (outs m) c b) (fun b => V13 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `V14`, left at `V15`. Its arrays are
    split out of the unscoped buffers and put back at the exit contents; the generator register goes into the class
    invariant and comes out; nothing is owed; the kernel has no semaphore of its own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V14 m (outs m) c b) c).loose
  hwaits := Pipeline.hwaits_of_owed_zero _ _ _ _ L lv 4 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V14 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V14 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V14 m (outs m) c b) (fun b => V15 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `V15`, left at `V16`. Its arrays are
    split out of the unscoped buffers and put back at the exit contents; the generator register goes into the class
    invariant and comes out; nothing is owed; the kernel has no semaphore of its own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V15 m (outs m) c b) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V15 m (outs m) c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V15 m (outs m) c b) (fun b => V16 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's at every pipeline's staging cells; no ghost resource beside it. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes the rest of its first thread state from what the launch deals it: its generator register, and its
    `owes` at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- The rest of the last thread state owes nothing. -/
theorem hE6 (c : Dev nD) : R (F := F) c ⊢ (iprop(∃ W, owes (c : Thread nD τ) (0 : CellTallies nD τ sig Unit) W) : sProp 𝕄) := by
  iintro ⟨-, H⟩; iexact H

/-! ## The run -/

set_option backward.isDefEq.respectTransparency.types false in
/-- THE RUN with every unscoped buffer named: from any memory with zero counters every weakly fair execution of @main
    terminates, and every final memory holds each unscoped buffer at the last boundary's contents `V17`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V17 m (outs m) c b) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m) (reg3 m) (reg4 m) (reg5 m))
    (fun c Q => by
      rewrite [main_chain c, Seg.run_eq_chain,
        show (segs m (outs m) Variants.none L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      exact .rfl)
    (fun c => by simp only [segs, Seg.pipes_host, Seg.pipes_region, Seg.pipes_nil]; decide) 0 (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl, sep_mono .rfl (hE6 c)⟩)
    (hinit := ?_) (QY := fun c s => ∀ b ∈ Pipeline.ucRefs τ sig, s.mem ((c : Thread nD τ).1, b) = V17 m (outs m) c b)
    (hfin := fun c s' => ?_) (hQ := fun _ h => h)
  · -- the launch: the unscoped buffers are held at `V0`; the rest makes `R` on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact h
    · iexact HSI

set_option backward.isDefEq.respectTransparency.types false in
/-- THE FRAME: from any memory with zero counters every weakly fair execution of @main terminates and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m) 0 (fun _ => (BI.emp : sProp 𝕄)) u₀ hu₀
    (fun _ c => R c) (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  The two array functions the kernels of a two-layer neighbourhood-aggregation network compute, on the extended reals.

  `edgeOut` is the per-edge message block: row `e` of the input holds the source node's 64 features followed by the
  target node's 64 features; with `x` the first half, `y` the second half, `c` the row's normalisation factor and
  `v e` the indicator of a true (unpadded) edge, columns `q < 64` of the result hold
  `v e · (c · (x W1 + b1)(q) + ((x ∘ y) W2 + b2)(q))` and columns `64 + q` hold the same with `y` in place of the first `x`.
  `epi` is the node epilogue: a leaky rectifier with slope the given constant, then each row divided by the larger of
  its Euclidean norm and a floor.
-/
import proofs.«155537_j65712999628849_1_alg».proof.Proof.LibDense

noncomputable section

open scoped BigOperators

namespace Cert.Ngcf

open Idealize.ShloMosaic Idealize.ShloMosaic.ValueIdx Cert.Dense

/-- The number of true edges and the padded number of rows. -/
abbrev nE : ℕ := 1000000
abbrev nP : ℕ := 1003520

/-- `1` on the rows of true edges, `0` on the padding rows. -/
def valid (e : Fin nP) : EReal := if e.val < nE then 1 else 0

/-- Column `k` of the first half and of the second half of a 128-column row. -/
abbrev lo (k : Fin 64) : Fin 128 := ⟨k.val, by omega⟩
abbrev hi (k : Fin 64) : Fin 128 := ⟨64 + k.val, by omega⟩

/-- The projection `(x W + b)(q)` of the half of row `e` selected by `h`. -/
def proj (comb : Mat nP 128) (h : Fin 64 → Fin 128) (w : Mat 64 64) (b : Mat 1 64) (e : Fin nP) (q : Fin 64) : EReal :=
  (∑ k : Fin 64, comb (ix2 e (h k)) * w (ix2 k q)) + b (ix2 (0 : Fin 1) q)

/-- The cross projection `((x ∘ y) W + b)(q)` of row `e`. -/
def cross (comb : Mat nP 128) (w : Mat 64 64) (b : Mat 1 64) (e : Fin nP) (q : Fin 64) : EReal :=
  (∑ k : Fin 64, (comb (ix2 e (lo k)) * comb (ix2 e (hi k))) * w (ix2 k q)) + b (ix2 (0 : Fin 1) q)

/-- One message entry: `v e · (c e · proj + cross)`. -/
def msg (comb : Mat nP 128) (nrm : Mat nP 1) (w1 : Mat 64 64) (b1 : Mat 1 64) (w2 : Mat 64 64) (b2 : Mat 1 64)
    (h : Fin 64 → Fin 128) (e : Fin nP) (q : Fin 64) : EReal :=
  valid e * (nrm (ix2 e (0 : Fin 1)) * proj comb h w1 b1 e q + cross comb w2 b2 e q)

/-- The per-edge message block: columns `q < 64` from the first half's projection, columns `64 + q` from the second's. -/
def edgeOut (comb : Mat nP 128) (nrm : Mat nP 1) (w1 : Mat 64 64) (b1 : Mat 1 64) (w2 : Mat 64 64) (b2 : Mat 1 64) :
    Mat nP 128 := fun i =>
  if hq : (c1 i).val < 64 then msg comb nrm w1 b1 w2 b2 lo (c0 i) ⟨(c1 i).val, hq⟩
  else msg comb nrm w1 b1 w2 b2 hi (c0 i) ⟨(c1 i).val - 64, by have := (c1 i).isLt; omega⟩

theorem edgeOut_lo (comb : Mat nP 128) (nrm : Mat nP 1) (w1 : Mat 64 64) (b1 : Mat 1 64) (w2 : Mat 64 64) (b2 : Mat 1 64)
    (e : Fin nP) (q : Fin 64) :
    edgeOut comb nrm w1 b1 w2 b2 (ix2 e (lo q)) = msg comb nrm w1 b1 w2 b2 lo e q := by
  unfold edgeOut
  have hq : (c1 (ix2 e (lo q))).val < 64 := q.isLt
  rw [dif_pos hq]

theorem edgeOut_hi (comb : Mat nP 128) (nrm : Mat nP 1) (w1 : Mat 64 64) (b1 : Mat 1 64) (w2 : Mat 64 64) (b2 : Mat 1 64)
    (e : Fin nP) (q : Fin 64) :
    edgeOut comb nrm w1 b1 w2 b2 (ix2 e (hi q)) = msg comb nrm w1 b1 w2 b2 hi e q := by
  unfold edgeOut
  have hq : ¬ (c1 (ix2 e (hi q))).val < 64 := by show ¬ (64 + q.val < 64); omega
  rw [dif_neg hq]
  have : (⟨(c1 (ix2 e (hi q))).val - 64, by have := (c1 (ix2 e (hi q))).isLt; omega⟩ : Fin 64) = q :=
    Fin.ext (by show 64 + q.val - 64 = q.val; omega)
  rw [this]

/-- The leaky rectifier with slope `s`. -/
def leaky (s x : EReal) : EReal := if 0 ≤ x then x else s * x

/-- The node epilogue on an `n`-row array: rectify, then divide each row by `max (‖row‖₂) fl`. -/
def epi {n : ℕ} (s fl : EReal) (X : Mat n 64) : Mat n 64 := fun i =>
  Ideal.div (leaky s (X i))
    (max (Ideal.sqrt ((0 : EReal) + ∑ k : Fin 64, leaky s (X (ix2 (c0 i) k)) * leaky s (X (ix2 (c0 i) k)))) fl)

theorem epi_apply {n : ℕ} (s fl : EReal) (X : Mat n 64) (p : Fin n) (q : Fin 64) :
    epi s fl X (ix2 p q) = Ideal.div (leaky s (X (ix2 p q)))
      (max (Ideal.sqrt ((0 : EReal) + ∑ k : Fin 64, leaky s (X (ix2 p k)) * leaky s (X (ix2 p k)))) fl) := rfl

end Cert.Ngcf

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«155537_j65712999628849_1_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«155537_j65712999628849_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.LibGcnHost.lean ====
/-
  One graph-convolution layer in two host spellings, on the extended reals, read at an index.

  Nodes are numbered `0 … N-1`; an edge `e` carries a source entry, a destination entry and a weight `w e`; `d` is a
  per-node factor. The layer maps an `[N, C]` array `X` to

      out (p, q) = Σ over the edges e that arrive at p of  d (src e) · w e · d (dst e) · X (src e, q)   +   b q .

  The first spelling (`kLayer`) scales the rows of `X` by `d` before gathering them along the edges, multiplies by the
  weight, sums per destination and scales the rows of the sum by `d` once more. The second (`rLayer`) gathers the
  plain rows and multiplies each by the edge's whole coefficient `d (src e) · w e · d (dst e)` before summing. On the
  edges that arrive at `p` the factor `d (dst e)` is the one number `d p`, and a nonnegative finite factor
  distributes over a sum of extended reals whatever the summands are, so the two spellings agree wherever `d` is
  nonnegative and finite; nothing is asked of `X`, `w` or `b`.

  Integer entries are read as the host reads them: a gather clamps its (already wrapped) index into `0 … N-1`
  (`node`), a negative index counts from the end (`wrap`), and the accumulating scatter takes exactly the edges whose
  destination entry, read signed, is the row.
-/
import Idealize.ShloMosaic.PureOps.Ideal.Laws
import Idealize.ShloMosaic.Lib.ValueIdx
import proofs.«155537_j65712999628849_1_alg».proof.Proof.LibGatherRows
import proofs.«155537_j65712999628849_1_alg».proof.Proof.LibSegmentSum
import proofs.«155537_j65712999628849_1_alg».proof.Proof.LibHostLayout
import proofs.«155537_j65712999628849_1_alg».proof.Proof.LibGcnFold

open scoped BigOperators

noncomputable section

namespace Cert.GcnHost

open Idealize.ShloMosaic Idealize.ShloMosaic.ValueIdx

variable {N C M : ℕ}

/-- The node an integer entry names to a gather: read signed, clamped into `0 … N-1`. -/
def node (hN : 0 < N) (v : BitVec 32) : Fin N := ⟨min v.toInt.toNat (N - 1), by omega⟩

/-- A negative entry counts from the end: `nn` (the node count) is added to it. -/
def wrap (nn : BitVec 32) (h0 : (⟨0, ![]⟩ : Shape).BroadcastsInDim ⟨1, ![M]⟩ ![]) (r : IVec ⟨1, ![M]⟩ 32) :
    IVec ⟨1, ![M]⟩ 32 :=
  select (cmpi .slt r (broadcastInDim ⟨1, ![M]⟩ ![] h0 (constantI ⟨0, ![]⟩ 32 0#32)))
    (addi r (broadcastInDim ⟨1, ![M]⟩ ![] h0 (constantI ⟨0, ![]⟩ 32 nn))) r

/-- An entry that reads as a node number is not negative, so wrapping leaves it, and the gather's clamp finds that node. -/
theorem node_wrap (hN : 0 < N) (nn : BitVec 32) (h0 : (⟨0, ![]⟩ : Shape).BroadcastsInDim ⟨1, ![M]⟩ ![])
    (r : IVec ⟨1, ![M]⟩ 32) (e : Fin M) (p : Fin N) (h : (r (ix1 e)).toInt = (p.val : Int)) :
    node hN (wrap nn h0 r (ix1 e)) = p := by
  have hns : (r (ix1 e)).slt 0#32 = false := by
    rw [BitVec.slt, h]; simp
  have hw : wrap nn h0 r (ix1 e) = r (ix1 e) := by
    unfold wrap
    rw [select_apply]
    show Scalar.select (IntOp.cmpi .slt (r (ix1 e)) _) _ _ = _
    have : IntOp.cmpi .slt (r (ix1 e)) (broadcastInDim ⟨1, ![M]⟩ ![] h0 (constantI ⟨0, ![]⟩ 32 0#32) (ix1 e)) = 0#1 := by
      show BitVec.ofBool ((r (ix1 e)).slt 0#32) = 0#1
      rw [hns]; rfl
    rw [this, select_zero]
  rw [hw]
  apply Fin.ext
  show min (r (ix1 e)).toInt.toNat (N - 1) = p.val
  rw [h]
  have := p.isLt
  simp only [Int.toNat_natCast]
  omega

/-- A gather of rows reads row `node` of its index entry. -/
theorem gather_rows_node (hN : 0 < N) {α : Type} (gd : GatherDims ⟨2, ![N, C]⟩ ⟨2, ![M, 1]⟩ ⟨2, ![M, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C]) (x : (⟨2, ![N, C]⟩ : Shape).Idx → α) (idx : IVec ⟨2, ![M, 1]⟩ 32) (s : Fin M) (q : Fin C) :
    Host.gather gd x idx (ix2 s q) = x (ix2 (node hN (idx (ix2 s (0 : Fin 1)))) q) :=
  GatherRows.gather_rows_apply hN gd g1 g2 g3 g4 g5 g6 g7 x idx s q

/-- A gather from a vector reads entry `node` of its index entry. -/
theorem gather_vec_node (hN : 0 < N) {α : Type} (gv : GatherDims ⟨1, ![N]⟩ ⟨2, ![M, 1]⟩ ⟨1, ![M]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1]) (x : (⟨1, ![N]⟩ : Shape).Idx → α) (idx : IVec ⟨2, ![M, 1]⟩ 32) (s : Fin M) :
    Host.gather gv x idx (ix1 s) = x (ix1 (node hN (idx (ix2 s (0 : Fin 1))))) :=
  GatherRows.gather_vec_apply' hN gv v1 v2 v3 v4 v5 v6 v7 x idx s

section Layers

variable (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])
  (d : FVec Ideal ⟨1, ![N]⟩ .f32) (rw cw col : IVec ⟨1, ![M]⟩ 32) (w : FVec Ideal ⟨1, ![M]⟩ .f32)
  (X : FVec Ideal ⟨2, ![N, C]⟩ .f32) (b : FVec Ideal ⟨1, ![C]⟩ .f32)

/-- The first spelling: rows scaled by `d`, gathered along the edges (`rw`: the source entries, wrapped), weighted,
    summed per destination (`col`) into a zero array, rows scaled by `d` again, the bias row added. -/
def kLayer : FVec Ideal ⟨2, ![N, C]⟩ .f32 :=
  addf (mulf (broadcastInDim ⟨2, ![N, C]⟩ ![0, 1] hc (broadcastInDim ⟨2, ![N, 1]⟩ ![0] hv d))
      (Host.scatterAdd sd (broadcastInDim ⟨2, ![N, C]⟩ ![] hz (constant ⟨0, ![]⟩ .f32 0x00000000#32))
        (broadcastInDim ⟨2, ![M, 1]⟩ ![0] hi col)
        (mulf (Host.gather gd (mulf (broadcastInDim ⟨2, ![N, C]⟩ ![0, 1] hc (broadcastInDim ⟨2, ![N, 1]⟩ ![0] hv d)) X)
            (broadcastInDim ⟨2, ![M, 1]⟩ ![0] hi rw))
          (broadcastInDim ⟨2, ![M, C]⟩ ![0, 1] hwc (broadcastInDim ⟨2, ![M, 1]⟩ ![0] hi w)))))
    (broadcastInDim ⟨2, ![N, C]⟩ ![0, 1] hb2 (broadcastInDim ⟨2, ![1, C]⟩ ![1] hb1 b))

/-- The edge coefficient of the second spelling: `d` at the source, the weight, `d` at the destination (`cw`: the
    destination entries, wrapped). -/
def coef : FVec Ideal ⟨1, ![M]⟩ .f32 :=
  mulf (mulf (Host.gather gv d (broadcastInDim ⟨2, ![M, 1]⟩ ![0] hi rw)) w)
    (Host.gather gv d (broadcastInDim ⟨2, ![M, 1]⟩ ![0] hi cw))

/-- The second spelling: plain rows gathered along the edges, each times its edge's coefficient `nrm`, summed per
    destination into a zero array, the bias row added. -/
def rLayer (nrm : FVec Ideal ⟨1, ![M]⟩ .f32) : FVec Ideal ⟨2, ![N, C]⟩ .f32 :=
  addf (Host.scatterAdd sd (broadcastInDim ⟨2, ![N, C]⟩ ![] hz (constant ⟨0, ![]⟩ .f32 0x00000000#32))
      (broadcastInDim ⟨2, ![M, 1]⟩ ![0] hi col)
      (mulf (Host.gather gd X (broadcastInDim ⟨2, ![M, 1]⟩ ![0] hi rw))
        (broadcastInDim ⟨2, ![M, C]⟩ ![0, 1] hwc (broadcastInDim ⟨2, ![M, 1]⟩ ![0] hi nrm))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

/-- The edges that arrive at node `p`: the destination entry, read signed, is `p`. -/
def arriving (col : IVec ⟨1, ![M]⟩ 32) (p : Fin N) : Finset (Fin M) :=
  Finset.univ.filter fun e : Fin M => (col (ix1 e)).toInt = (p.val : Int)

include g1 g2 g3 g4 g5 g6 g7 s1 s2 s3 s4 in
/-- The first spelling at `(p, q)`. -/
theorem kLayer_apply (p : Fin N) (q : Fin C) :
    kLayer gd sd hv hc hi hwc hz hb1 hb2 d rw col w X b (ix2 p q)
      = d (ix1 p) * (0 + ∑ e ∈ arriving col p,
          (d (ix1 (node hN (rw (ix1 e)))) * X (ix2 (node hN (rw (ix1 e))) q)) * w (ix1 e)) + b (ix1 q) := by
  unfold kLayer arriving
  rw [addf_apply, mulf_apply, HostLayout.bcast_col_mat, HostLayout.bcast_vec_col, HostLayout.bcast_vec_mat,
    SegmentSum.segSumRows_apply sd s1 s2 s3 s4, HostLayout.bcast_scalar_mat, constant_apply, Ideal.ofBits_zero_f32]
  congr 3
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, mulf_apply, HostLayout.bcast_col_mat,
      HostLayout.bcast_vec_col, HostLayout.bcast_col_mat, HostLayout.bcast_vec_col, HostLayout.bcast_vec_col]

include v1 v2 v3 v4 v5 v6 v7 in
/-- The edge coefficient at edge `e`. -/
theorem coef_apply (e : Fin M) :
    coef gv hi d rw cw w (ix1 e)
      = (d (ix1 (node hN (rw (ix1 e)))) * w (ix1 e)) * d (ix1 (node hN (cw (ix1 e)))) := by
  unfold coef
  rw [mulf_apply, mulf_apply, gather_vec_node hN gv v1 v2 v3 v4 v5 v6 v7,
    gather_vec_node hN gv v1 v2 v3 v4 v5 v6 v7, HostLayout.bcast_vec_col, HostLayout.bcast_vec_col]

include g1 g2 g3 g4 g5 g6 g7 s1 s2 s3 s4 in
/-- The second spelling at `(p, q)`. -/
theorem rLayer_apply (nrm : FVec Ideal ⟨1, ![M]⟩ .f32) (p : Fin N) (q : Fin C) :
    rLayer gd sd hi hwc hz hb1 hb2 rw col X b nrm (ix2 p q)
      = (0 + ∑ e ∈ arriving col p, X (ix2 (node hN (rw (ix1 e))) q) * nrm (ix1 e)) + b (ix1 q) := by
  unfold rLayer arriving
  rw [addf_apply, HostLayout.bcast_vec_mat, SegmentSum.segSumRows_apply sd s1 s2 s3 s4, HostLayout.bcast_scalar_mat,
    constant_apply, Ideal.ofBits_zero_f32]
  congr 2
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat,
      HostLayout.bcast_vec_col, HostLayout.bcast_vec_col]

end Layers

/-! ## The two spellings agree -/

/-- THE BRIDGE. The first spelling at width `C'`, read at a column `emb q`, is the second spelling at width `C` read at
    column `q`, when the first's array and bias row restricted to the columns `emb ·` are the second's, the per-node
    factor is nonnegative and finite, and the wrapped destination entry of an edge that arrives at `p` names `p`:
    on those edges the destination factor is the one number `d p`, which distributes over the sum. -/
theorem layer_bridge {C' : ℕ} (hN : 0 < N)
    (gd' : GatherDims ⟨2, ![N, C']⟩ ⟨2, ![M, 1]⟩ ⟨2, ![M, C']⟩) (sd' : ScatterDims ⟨2, ![N, C']⟩ ⟨2, ![M, 1]⟩ ⟨2, ![M, C']⟩)
    (gd : GatherDims ⟨2, ![N, C]⟩ ⟨2, ![M, 1]⟩ ⟨2, ![M, C]⟩) (sd : ScatterDims ⟨2, ![N, C]⟩ ⟨2, ![M, 1]⟩ ⟨2, ![M, C]⟩)
    (gv : GatherDims ⟨1, ![N]⟩ ⟨2, ![M, 1]⟩ ⟨1, ![M]⟩)
    (hv : (⟨1, ![N]⟩ : Shape).BroadcastsInDim ⟨2, ![N, 1]⟩ ![0])
    (hc' : (⟨2, ![N, 1]⟩ : Shape).BroadcastsInDim ⟨2, ![N, C']⟩ ![0, 1])
    (hi hi' : (⟨1, ![M]⟩ : Shape).BroadcastsInDim ⟨2, ![M, 1]⟩ ![0])
    (hwc' : (⟨2, ![M, 1]⟩ : Shape).BroadcastsInDim ⟨2, ![M, C']⟩ ![0, 1])
    (hwc : (⟨2, ![M, 1]⟩ : Shape).BroadcastsInDim ⟨2, ![M, C]⟩ ![0, 1])
    (hz' : (⟨0, ![]⟩ : Shape).BroadcastsInDim ⟨2, ![N, C']⟩ ![])
    (hz : (⟨0, ![]⟩ : Shape).BroadcastsInDim ⟨2, ![N, C]⟩ ![])
    (hb1' : (⟨1, ![C']⟩ : Shape).BroadcastsInDim ⟨2, ![1, C']⟩ ![1])
    (hb2' : (⟨2, ![1, C']⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C'])
    (s1' : sd'.updateWindowDims = [1]) (s2' : sd'.insertedWindowDims = [0]) (s3' : sd'.scatterDimsToOperandDims = [0])
    (s4' : sd'.indexVectorDim = 1)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (s1 : sd.updateWindowDims = [1]) (s2 : sd.insertedWindowDims = [0]) (s3 : sd.scatterDimsToOperandDims = [0])
    (s4 : sd.indexVectorDim = 1)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (d : FVec Ideal ⟨1, ![N]⟩ .f32) (rw cw col : IVec ⟨1, ![M]⟩ 32) (w : FVec Ideal ⟨1, ![M]⟩ .f32)
    (X' : FVec Ideal ⟨2, ![N, C']⟩ .f32) (b' : FVec Ideal ⟨1, ![C']⟩ .f32)
    (X : FVec Ideal ⟨2, ![N, C]⟩ .f32) (b : FVec Ideal ⟨1, ![C]⟩ .f32)
    (hd : ∀ i, 0 ≤ d i ∧ d i ≠ ⊤)
    (hcw : ∀ (e : Fin M) (p : Fin N), (col (ix1 e)).toInt = (p.val : Int) → node hN (cw (ix1 e)) = p)
    (emb : Fin C → Fin C') (hX : ∀ j q, X' (ix2 j (emb q)) = X (ix2 j q)) (hb : ∀ q, b' (ix1 (emb q)) = b (ix1 q))
    (p : Fin N) (q : Fin C) :
    kLayer gd' sd' hv hc' hi' hwc' hz' hb1' hb2' d rw col w X' b' (ix2 p (emb q))
      = rLayer gd sd hi hwc hz hb1 hb2 rw col X b (coef gv hi d rw cw w) (ix2 p q) := by
  rw [kLayer_apply gd' sd' hv hc' hi' hwc' hz' hb1' hb2' d rw col w X' b' hN g1' g2' g3' g4' g5' g6' g7' s1' s2' s3' s4',
    rLayer_apply gd sd hi hwc hz hb1 hb2 rw col X b hN g1 g2 g3 g4 g5 g6 g7 s1 s2 s3 s4, hb]
  congr 1
  have e1 : ∀ e ∈ arriving col p,
      (d (ix1 (node hN (rw (ix1 e)))) * X' (ix2 (node hN (rw (ix1 e))) (emb q))) * w (ix1 e)
        = X (ix2 (node hN (rw (ix1 e))) q) * (d (ix1 (node hN (rw (ix1 e)))) * w (ix1 e)) := by
    intro e _
    rw [hX, mul_comm (d _) (X _), mul_assoc]
  have e2 : ∀ e ∈ arriving col p,
      X (ix2 (node hN (rw (ix1 e))) q) * coef gv hi d rw cw w (ix1 e)
        = X (ix2 (node hN (rw (ix1 e))) q) * ((d (ix1 (node hN (rw (ix1 e)))) * w (ix1 e)) * d (ix1 (node hN (cw (ix1 e))))) := by
    intro e _
    rw [coef_apply gv hi d rw cw w hN v1 v2 v3 v4 v5 v6 v7]
  rw [Finset.sum_congr rfl e1, Finset.sum_congr rfl e2]
  exact GcnFold.fold_out (arriving col p) (d (ix1 p)) (hd _).1 (hd _).2
    (fun e => X (ix2 (node hN (rw (ix1 e))) q)) (fun e => d (ix1 (node hN (rw (ix1 e)))) * w (ix1 e))
    (fun e => d (ix1 (node hN (cw (ix1 e)))))
    (fun e he => by rw [hcw e p (Finset.mem_filter.mp he).2])

end Cert.GcnHost

end
-- ==== Proof.LibHalves.lean ====
/-
  Two arrays laid side by side, and a band of columns cut out again, read at an index.

  A concatenation of an `[K, C₁]` and an `[K, C₂]` array along the columns reads, at column `q' < C₁`, the first array
  at that column and, at column `C₁ + q`, the second at column `q`; likewise two vectors laid end to end. A slice of an
  `[N, C']` array that keeps every row and the columns `o … o + C - 1` reads, at column `q`, the array at column `o + q`.
  The target extent `C'` is a free parameter, so that a printed numeral (`256` for `128 + 128`) fits.
-/
import Idealize.ShloMosaic.Lib.ValueIdx
import Idealize.ShloMosaic.Lib.Pipeline.Value

namespace Cert.Halves

open Idealize.ShloMosaic Idealize.ShloMosaic.ValueIdx

variable {α : Type}

/-- Columns: a column of the left piece. -/
theorem concat_cols_left {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C1) (q' : Fin C')
    (hq : q'.val = q.val) :
    concatenate ⟨2, ![K, C']⟩ 1 [⟨⟨2, ![K, C1]⟩, x₁⟩, ⟨⟨2, ![K, C2]⟩, x₂⟩] h (ix2 k q') = x₁ (ix2 k q) :=
  concatenate_pair_apply_left 1 x₁ x₂ h (ix2 k q') rfl (ix2 k q)
    (fun b => match b with | ⟨0, _⟩ => rfl | ⟨1, _⟩ => hq.symm)

/-- Columns: a column of the right piece. -/
theorem concat_cols_right {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C2) (q' : Fin C')
    (hq : q'.val = C1 + q.val) :
    concatenate ⟨2, ![K, C']⟩ 1 [⟨⟨2, ![K, C1]⟩, x₁⟩, ⟨⟨2, ![K, C2]⟩, x₂⟩] h (ix2 k q') = x₂ (ix2 k q) :=
  concatenate_pair_apply_right 1 x₁ x₂ h (ix2 k q') rfl rfl (ix2 k q)
    (fun b => match b with | ⟨0, _⟩ => fun _ => rfl | ⟨1, _⟩ => fun hne => absurd rfl hne)
    (by show q.val + C1 = q'.val; omega)

/-- Vectors: an entry of the left piece. -/
theorem concat_vec_left {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C1) (q' : Fin C') (hq : q'.val = q.val) :
    concatenate ⟨1, ![C']⟩ 0 [⟨⟨1, ![C1]⟩, x₁⟩, ⟨⟨1, ![C2]⟩, x₂⟩] h (ix1 q') = x₁ (ix1 q) :=
  concatenate_pair_apply_left 0 x₁ x₂ h (ix1 q') rfl (ix1 q) (fun b => match b with | ⟨0, _⟩ => hq.symm)

/-- Vectors: an entry of the right piece. -/
theorem concat_vec_right {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C2) (q' : Fin C') (hq : q'.val = C1 + q.val) :
    concatenate ⟨1, ![C']⟩ 0 [⟨⟨1, ![C1]⟩, x₁⟩, ⟨⟨1, ![C2]⟩, x₂⟩] h (ix1 q') = x₂ (ix1 q) :=
  concatenate_pair_apply_right 0 x₁ x₂ h (ix1 q') rfl rfl (ix1 q)
    (fun b => match b with | ⟨0, _⟩ => fun hne => absurd rfl hne)
    (by show q.val + C1 = q'.val; omega)

/-- A band of columns: every row kept, the columns from `o` on. -/
theorem slice_cols {N C C' : ℕ} (o : ℕ) (A : (⟨2, ![N, C']⟩ : Shape).Idx → α)
    (h : (⟨2, ![N, C']⟩ : Shape).Slices ![0, o] ⟨2, ![N, C]⟩) (p : Fin N) (q : Fin C) (q' : Fin C')
    (hq : q'.val = o + q.val) :
    extractStridedSlice ⟨2, ![N, C]⟩ ![0, o] A h (ix2 p q) = A (ix2 p q') :=
  extractStridedSlice_apply ![0, o] A h (ix2 p q) (ix2 p q')
    (fun a => match a with
      | ⟨0, _⟩ => by show p.val = 0 + p.val; omega
      | ⟨1, _⟩ => hq)

end Cert.Halves
-- ==== Proof.KHost.lean ====
/-
  The host operations the kernel's program places around its six kernel regions, as functions of the arrays they read,
  and what they hold at an index, on the extended reals.

  `kWrap nn r` is an index vector with its negative entries counted from the end (`nn` added) laid out as a column;
  `kComb u it sp dp` is the [rows, 128] block whose row `e` holds row `node (sp e)` of `u` followed by row `node (dp e)`
  of `it`; `kAggI K dp` adds, for every target entry `p`, the rows `e` of the first 64 columns of `K` whose entry `dp e`
  is `p` into a zero [50000, 64] array, and `kAggU K sp` does the same with the last 64 columns into [100000, 64].
-/
import proofs.«155537_j65712999628849_1_alg».proof.KernelIdeal
import proofs.«155537_j65712999628849_1_alg».proof.Proof.Gen.KernelIdeal
import proofs.«155537_j65712999628849_1_alg».proof.Proof.Spec
import proofs.«155537_j65712999628849_1_alg».proof.Proof.LibGcnHost
import proofs.«155537_j65712999628849_1_alg».proof.Proof.LibHalves
import proofs.«155537_j65712999628849_1_alg».proof.Proof.LibSegmentSum
import proofs.«155537_j65712999628849_1_alg».proof.Proof.LibHostLayout
import Idealize.ShloMosaic.Lib.ValueIdx
import Idealize.ShloMosaic.Lib.KernelVsHost

set_option maxRecDepth 16384

noncomputable section

open scoped BigOperators

namespace Cert.KernelIdeal.Hand

open Idealize.ShloMosaic Idealize.ShloMosaic.ValueIdx Cert.KernelIdeal Cert.KernelIdeal.Gen Cert.Dense Cert.Ngcf

theorem nU_pos : 0 < 100000 := by norm_num
theorem nI_pos : 0 < 50000 := by norm_num

/-- An index vector with negative entries counted from the end, as a column. -/
def kWrap (nn : BitVec 32) (r : IVec S1003520 32) : IVec S1003520x1 32 :=
  broadcastInDim S1003520x1 ![0] bcast_S1003520_S1003520x1_0
    (select (cmpi .slt r (broadcastInDim S1003520 ![] bcast_S_S1003520 (constantI S_ 32 0#32)))
      (addi r (broadcastInDim S1003520 ![] bcast_S_S1003520 (constantI S_ 32 nn))) r)

/-- Row `e`: the gathered row of `u` followed by the gathered row of `it`. -/
def kComb (u : FVec Ideal S100000x64 .f32) (it : FVec Ideal S50000x64 .f32) (sp dp : IVec S1003520 32) :
    FVec Ideal S1003520x128 .f32 :=
  concatenate S1003520x128 1
    [⟨S1003520x64, Host.gather gather_S100000x64_S1003520x1_S1003520x64_1_0_n_n_0_1_164 u (kWrap 100000#32 sp)⟩,
     ⟨S1003520x64, Host.gather gather_S50000x64_S1003520x1_S1003520x64_1_0_n_n_0_1_164 it (kWrap 50000#32 dp)⟩]
    concatenates_S1003520x64_S1003520x64_S1003520x128_d1

/-- The first 64 columns of `K` summed per target entry of `dp` into a zero array. -/
def kAggI (K : FVec Ideal S1003520x128 .f32) (dp : IVec S1003520 32) : FVec Ideal S50000x64 .f32 :=
  Host.scatterAdd (F := Ideal) scatter_S50000x64_S1003520x1_S1003520x64_1_0_0_1
    (broadcastInDim S50000x64 ![] bcast_S_S50000x64 (constant (F := Ideal) S_ .f32 0x00000000#32))
    (broadcastInDim S1003520x1 ![0] bcast_S1003520_S1003520x1_0 dp)
    (extractStridedSlice S1003520x64 ![0, 0] K slices_S1003520x128_S1003520x64_0_0)

/-- The last 64 columns of `K` summed per target entry of `sp` into a zero array. -/
def kAggU (K : FVec Ideal S1003520x128 .f32) (sp : IVec S1003520 32) : FVec Ideal S100000x64 .f32 :=
  Host.scatterAdd (F := Ideal) scatter_S100000x64_S1003520x1_S1003520x64_1_0_0_1
    (broadcastInDim S100000x64 ![] bcast_S_S100000x64 (constant (F := Ideal) S_ .f32 0x00000000#32))
    (broadcastInDim S1003520x1 ![0] bcast_S1003520_S1003520x1_0 sp)
    (extractStridedSlice S1003520x64 ![0, 64] K slices_S1003520x128_S1003520x64_0_64)

/-- The wrapped column at row `e` is the wrapped entry `e`. -/
theorem kWrap_apply (nn : BitVec 32) (r : IVec S1003520 32) (e : Fin nP) :
    kWrap nn r (ix2 e (0 : Fin 1))
      = Scalar.select (IntOp.cmpi .slt (r (ix1 e)) 0#32) (r (ix1 e) + nn) (r (ix1 e)) := by
  unfold kWrap
  rw [HostLayout.bcast_vec_col]
  rfl

theorem kComb_lo (u : FVec Ideal S100000x64 .f32) (it : FVec Ideal S50000x64 .f32) (sp dp : IVec S1003520 32)
    (e : Fin nP) (k : Fin 64) :
    kComb u it sp dp (ix2 e (lo k)) = u (ix2 (GcnHost.node nU_pos (kWrap 100000#32 sp (ix2 e (0 : Fin 1)))) k) := by
  unfold kComb
  rw [Halves.concat_cols_left _ _ _ e k (lo k) rfl]
  exact GcnHost.gather_rows_node nU_pos _ rfl rfl rfl rfl rfl rfl rfl u _ e k

theorem kComb_hi (u : FVec Ideal S100000x64 .f32) (it : FVec Ideal S50000x64 .f32) (sp dp : IVec S1003520 32)
    (e : Fin nP) (k : Fin 64) :
    kComb u it sp dp (ix2 e (hi k)) = it (ix2 (GcnHost.node nI_pos (kWrap 50000#32 dp (ix2 e (0 : Fin 1)))) k) := by
  unfold kComb
  rw [Halves.concat_cols_right _ _ _ e k (hi k) rfl]
  exact GcnHost.gather_rows_node nI_pos _ rfl rfl rfl rfl rfl rfl rfl it _ e k

/-- The item-side aggregate at `(p, q)`: the sum over the rows whose target entry is `p` of column `q` of `K`. -/
theorem kAggI_apply (K : FVec Ideal S1003520x128 .f32) (xp : IVec S1003520 32) (p : Fin 50000) (q : Fin 64) :
    kAggI K xp (ix2 p q)
      = 0 + ∑ e ∈ Finset.univ.filter (fun e : Fin nP => (xp (ix1 e)).toInt = (p.val : Int)), K (ix2 e (lo q)) := by
  unfold kAggI
  refine (SegmentSum.segSumRows_apply (N := 50000) (C := 64) (M := 1003520) _ rfl rfl rfl rfl _ _ _ p q).trans ?_
  have hz : broadcastInDim S50000x64 ![] bcast_S_S50000x64 (constant (F := Ideal) S_ .f32 0x00000000#32) (ix2 p q) = (0 : EReal) :=
    (HostLayout.bcast_scalar_mat _ _ p q).trans (by rw [constant_apply, Ideal.ofBits_zero_f32])
  refine congrArg₂ (· + ·) hz ?_
  refine Finset.sum_congr (Finset.filter_congr fun e _ => ?_) fun e _ => ?_
  · rw [HostLayout.bcast_vec_col]
  · exact Halves.slice_cols 0 K _ e q (lo q) (by show q.val = 0 + q.val; omega)

/-- The user-side aggregate at `(p, q)`: the sum over the rows whose target entry is `p` of column `64 + q` of `K`. -/
theorem kAggU_apply (K : FVec Ideal S1003520x128 .f32) (xp : IVec S1003520 32) (p : Fin 100000) (q : Fin 64) :
    kAggU K xp (ix2 p q)
      = 0 + ∑ e ∈ Finset.univ.filter (fun e : Fin nP => (xp (ix1 e)).toInt = (p.val : Int)), K (ix2 e (hi q)) := by
  unfold kAggU
  refine (SegmentSum.segSumRows_apply (N := 100000) (C := 64) (M := 1003520) _ rfl rfl rfl rfl _ _ _ p q).trans ?_
  have hz : broadcastInDim S100000x64 ![] bcast_S_S100000x64 (constant (F := Ideal) S_ .f32 0x00000000#32) (ix2 p q) = (0 : EReal) :=
    (HostLayout.bcast_scalar_mat _ _ p q).trans (by rw [constant_apply, Ideal.ofBits_zero_f32])
  refine congrArg₂ (· + ·) hz ?_
  refine Finset.sum_congr (Finset.filter_congr fun e _ => ?_) fun e _ => ?_
  · rw [HostLayout.bcast_vec_col]
  · exact Halves.slice_cols 64 K _ e q (hi q) rfl

end Cert.KernelIdeal.Hand

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«155537_j65712999628849_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.EdgeValue0.lean ====
/- The value of the edge-message region 0 at the ideal values: whatever the TensorCore's buffers hold when the
   region is entered, its output array ends holding the per-edge message block `Cert.Ngcf.edgeOut` of the six input
   arrays. First the kernel's payload read at an index of a block — the two column slices, the three matrix products
   into a zero accumulator, the bias rows and the normalisation column broadcast, the indicator of a true edge from the
   grid coordinate and the row counter, the two halves concatenated —, then what a grid point writes back as a block of
   `edgeOut`, then the cover of the array by the blocks. -/
import proofs.«155537_j65712999628849_1_alg».proof.Proof.EdgeRegion0
import proofs.«155537_j65712999628849_1_alg».proof.Proof.Spec
import proofs.«155537_j65712999628849_1_alg».proof.Proof.LibDense
import proofs.«155537_j65712999628849_1_alg».proof.Proof.LibRowBlocks
import proofs.«155537_j65712999628849_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.Ngcf

/-! ## The indicator of a true edge -/

/-- The signed comparison of the row counter `a · 4096 + r` with the number of true edges, widened to 32 bits and read
    as a signed integer: `1` below it, `0` from it on. The counter stays below `2 ^ 31`. -/
theorem edgeFlag0_toInt (a r : ℕ) (ha : a < 245) (hr : r < 4096) :
    ((BitVec.ofBool ((BitVec.ofNat 32 a * 4096#32 + BitVec.ofNat 32 r).slt 1000000#32)).setWidth 32).toInt
      = if a * 4096 + r < 1000000 then 1 else 0 := by
  have e : BitVec.ofNat 32 a * 4096#32 + BitVec.ofNat 32 r = BitVec.ofNat 32 (a * 4096 + r) := by
    apply BitVec.eq_of_toNat_eq
    simp only [BitVec.toNat_add, BitVec.toNat_mul, BitVec.toNat_ofNat]
    omega
  have hx : (BitVec.ofNat 32 (a * 4096 + r)).toInt = ((a * 4096 + r : ℕ) : ℤ) := by
    have h2 : 2 * (BitVec.ofNat 32 (a * 4096 + r)).toNat < 2 ^ 32 := by rw [BitVec.toNat_ofNat]; omega
    rw [BitVec.toInt_eq_toNat_of_lt h2, BitVec.toNat_ofNat]
    omega
  have hy : (1000000#32 : BitVec 32).toInt = 1000000 := by decide
  have hs : (BitVec.ofNat 32 (a * 4096 + r)).slt 1000000#32 = decide (a * 4096 + r < 1000000) := by
    rw [BitVec.slt_eq_decide, hx, hy]
    exact decide_eq_decide.mpr (by omega)
  rw [e, hs]
  by_cases h : a * 4096 + r < 1000000
  · rw [if_pos h, decide_eq_true h]; decide
  · rw [if_neg h, decide_eq_false h]; decide

/-- The indicator payload at row `r` of the block of grid coordinate `i`. -/
theorem pay2_0_at (i : grid0.Coords) (r : Fin 4096) :
    k0_pay2 (F := Ideal) i (ix2 r (0 : Fin 1))
      = if (i 0).val * 4096 + r.val < 1000000 then (1 : EReal) else 0 := by
  have ha : (i 0).val < 245 := (i 0).isLt
  unfold k0_pay2
  show ((((BitVec.ofBool ((BitVec.ofNat 32 (i 0).val * 4096#32
      + iota .tc S4096x1 32 [0] iota_S4096x1_d0_w32 (ix2 r (0 : Fin 1))).slt 1000000#32)).setWidth 32).toInt : ℝ) : EReal) = _
  rw [iota_single_apply]
  show ((((BitVec.ofBool ((BitVec.ofNat 32 (i 0).val * 4096#32 + BitVec.ofNat 32 r.val).slt 1000000#32)).setWidth 32).toInt : ℝ) : EReal) = _
  rw [edgeFlag0_toInt _ _ ha r.isLt]
  by_cases h : (i 0).val * 4096 + r.val < 1000000
  · rw [if_pos h, if_pos h]; simp
  · rw [if_neg h, if_neg h]; simp

/-! ## The payloads at an index -/

/-- The first column slice. -/
theorem pay4_0_at (x0 : FVec Ideal S4096x128 .f32) (r : Fin 4096) (k : Fin 64) :
    k0_pay4 (F := Ideal) x0 (ix2 r k) = x0 (ix2 r (lo k)) := by
  unfold k0_pay4 k0_pay3
  show extractStridedSlice S4096x64 ![0, 0] (shapeCast S4096x128 x0 shapeCasts_S4096x128_S4096x128) slices_S4096x128_o0_0_S4096x64 (ix2 r k) = _
  rw [shapeCast_self]
  exact slice2_axis1_apply 0 x0 _ r k (lo k) (by show k.val = 0 + k.val; omega)

/-- The second column slice. -/
theorem pay5_0_at (x0 : FVec Ideal S4096x128 .f32) (r : Fin 4096) (k : Fin 64) :
    k0_pay5 (F := Ideal) x0 (ix2 r k) = x0 (ix2 r (hi k)) := by
  unfold k0_pay5 k0_pay3
  show extractStridedSlice S4096x64 ![0, 64] (shapeCast S4096x128 x0 shapeCasts_S4096x128_S4096x128) slices_S4096x128_o0_64_S4096x64 (ix2 r k) = _
  rw [shapeCast_self]
  exact slice2_axis1_apply 64 x0 _ r k (hi k) rfl

/-- The cross projection of a row: the product of its halves through the second weight matrix, plus the second bias. -/
theorem pay9_0_at (x0 : FVec Ideal S4096x128 .f32) (x4 : FVec Ideal S64x64 .f32) (x5 : FVec Ideal S1x64 .f32) (r : Fin 4096) (q : Fin 64) :
    k0_pay9 (F := Ideal) x0 x4 x5 (ix2 r q)
      = (∑ k : Fin 64, (x0 (ix2 r (lo k)) * x0 (ix2 r (hi k))) * x4 (ix2 k q)) + x5 (ix2 (0 : Fin 1) q) := by
  unfold k0_pay9
  show matmul (F := Ideal) dot_S4096x64_S64x64_S4096x64_1_0_0_1_n_n none
        (truncf .bf16 (mulf (k0_pay4 (F := Ideal) x0) (k0_pay5 (F := Ideal) x0)) bitsLt_bf16_f32) (truncf .bf16 x4 bitsLt_bf16_f32)
        (constant S4096x64 .f32 0x00000000#32) (ix2 r q)
      + broadcastTo S4096x64 (shapeCast S1x64 x5 shapeCasts_S1x64_S1x64) broadcasts_S1x64_S4096x64 (ix2 r q) = _
  rw [matmul_zero_eq_mm _ rfl rfl rfl rfl rfl rfl, mm_apply, broadcastTo_1b_ab_apply, shapeCast_self]
  refine congrArg (· + _) (Finset.sum_congr rfl fun k _ => ?_)
  show (k0_pay4 (F := Ideal) x0 (ix2 r k) * k0_pay5 (F := Ideal) x0 (ix2 r k)) * x4 (ix2 k q) = _
  rw [pay4_0_at, pay5_0_at]

/-- The first half's message: the indicator times the normalised projection plus the cross projection. -/
theorem pay10_0_at (i : grid0.Coords) (x0 : FVec Ideal S4096x128 .f32) (x1 : FVec Ideal S4096x1 .f32) (x2 : FVec Ideal S64x64 .f32) (x3 : FVec Ideal S1x64 .f32) (x4 : FVec Ideal S64x64 .f32)
    (x5 : FVec Ideal S1x64 .f32) (r : Fin 4096) (q : Fin 64) :
    k0_pay10 (F := Ideal) i x0 x1 x2 x4 x3 x5 (ix2 r q)
      = k0_pay2 (F := Ideal) i (ix2 r (0 : Fin 1))
        * (x1 (ix2 r (0 : Fin 1)) * ((∑ k : Fin 64, x0 (ix2 r (lo k)) * x2 (ix2 k q)) + x3 (ix2 (0 : Fin 1) q))
          + k0_pay9 (F := Ideal) x0 x4 x5 (ix2 r q)) := by
  unfold k0_pay10 k0_pay6 k0_pay7 k0_pay8
  show broadcastTo S4096x64 (k0_pay2 (F := Ideal) i) broadcasts_S4096x1_S4096x64 (ix2 r q)
      * (broadcastTo S4096x64 (shapeCast S4096x1 x1 shapeCasts_S4096x1_S4096x1) broadcasts_S4096x1_S4096x64 (ix2 r q)
          * (matmul (F := Ideal) dot_S4096x64_S64x64_S4096x64_1_0_0_1_n_n none
                (truncf .bf16 (k0_pay4 (F := Ideal) x0) bitsLt_bf16_f32) (truncf .bf16 x2 bitsLt_bf16_f32)
                (constant S4096x64 .f32 0x00000000#32) (ix2 r q)
              + broadcastTo S4096x64 (shapeCast S1x64 x3 shapeCasts_S1x64_S1x64) broadcasts_S1x64_S4096x64 (ix2 r q))
        + k0_pay9 (F := Ideal) x0 x4 x5 (ix2 r q)) = _
  rw [Cert.RowBlocks.broadcastTo_col_apply, Cert.RowBlocks.broadcastTo_col_apply, matmul_zero_eq_mm _ rfl rfl rfl rfl rfl rfl, mm_apply,
    broadcastTo_1b_ab_apply, shapeCast_self, shapeCast_self]
  refine congrArg (fun s => _ * (_ * (s + _) + _)) (Finset.sum_congr rfl fun k _ => ?_)
  show k0_pay4 (F := Ideal) x0 (ix2 r k) * x2 (ix2 k q) = _
  rw [pay4_0_at]

/-- The second half's normalised projection. -/
theorem pay11_0_at (x0 : FVec Ideal S4096x128 .f32) (x1 : FVec Ideal S4096x1 .f32) (x2 : FVec Ideal S64x64 .f32) (x3 : FVec Ideal S1x64 .f32) (r : Fin 4096) (q : Fin 64) :
    k0_pay11 (F := Ideal) x0 x1 x2 x3 (ix2 r q)
      = x1 (ix2 r (0 : Fin 1)) * ((∑ k : Fin 64, x0 (ix2 r (hi k)) * x2 (ix2 k q)) + x3 (ix2 (0 : Fin 1) q)) := by
  unfold k0_pay11 k0_pay6 k0_pay7 k0_pay8
  show broadcastTo S4096x64 (shapeCast S4096x1 x1 shapeCasts_S4096x1_S4096x1) broadcasts_S4096x1_S4096x64 (ix2 r q)
      * (matmul (F := Ideal) dot_S4096x64_S64x64_S4096x64_1_0_0_1_n_n none
            (truncf .bf16 (k0_pay5 (F := Ideal) x0) bitsLt_bf16_f32) (truncf .bf16 x2 bitsLt_bf16_f32)
            (constant S4096x64 .f32 0x00000000#32) (ix2 r q)
          + broadcastTo S4096x64 (shapeCast S1x64 x3 shapeCasts_S1x64_S1x64) broadcasts_S1x64_S4096x64 (ix2 r q)) = _
  rw [Cert.RowBlocks.broadcastTo_col_apply, matmul_zero_eq_mm _ rfl rfl rfl rfl rfl rfl, mm_apply,
    broadcastTo_1b_ab_apply, shapeCast_self, shapeCast_self]
  refine congrArg (fun s => _ * (s + _)) (Finset.sum_congr rfl fun k _ => ?_)
  show k0_pay5 (F := Ideal) x0 (ix2 r k) * x2 (ix2 k q) = _
  rw [pay5_0_at]

/-- The stored block at a column of its first half: the first half's message. -/
theorem pay1_0_lo (v7 : FVec Ideal S4096x1 .f32) (v34 v39 v41 : FVec Ideal S4096x64 .f32) (r : Fin 4096) (q : Fin 64) :
    k0_pay1 (F := Ideal) v7 v34 v39 v41 (ix2 r (lo q)) = v39 (ix2 r q) := by
  unfold k0_pay1
  exact concatenate_pair_apply_left (1 : Fin 2) v39 _ concatenates_S4096x64_S4096x64_S4096x128_d1 (ix2 r (lo q)) rfl (ix2 r q)
    (fun b => by
      match b with
      | ⟨0, _⟩ => rfl
      | ⟨1, _⟩ => rfl)

/-- The stored block at a column of its second half: the indicator times the second half's normalised projection plus
    the cross projection. -/
theorem pay1_0_hi (v7 : FVec Ideal S4096x1 .f32) (v34 v39 v41 : FVec Ideal S4096x64 .f32) (r : Fin 4096) (q : Fin 64) :
    k0_pay1 (F := Ideal) v7 v34 v39 v41 (ix2 r (hi q)) = v7 (ix2 r (0 : Fin 1)) * (v41 (ix2 r q) + v34 (ix2 r q)) := by
  unfold k0_pay1
  refine (concatenate_pair_apply_right (s₂ := S4096x64) (1 : Fin 2) v39 _ concatenates_S4096x64_S4096x64_S4096x128_d1 (ix2 r (hi q)) rfl rfl (ix2 r q)
    (fun b hb => by
      match b with
      | ⟨0, _⟩ => rfl
      | ⟨1, _⟩ => exact absurd rfl hb)
    (by show q.val + 64 = 64 + q.val; omega)).trans ?_
  show broadcastTo S4096x64 v7 broadcasts_S4096x1_S4096x64 (ix2 r q) * (v41 (ix2 r q) + v34 (ix2 r q)) = _
  rw [Cert.RowBlocks.broadcastTo_col_apply]

/-! ## A block of the message array -/

/-- Row `r` of the block of grid point `n`, as a row of the padded array. -/
abbrev blkRow0 (n : ℕ) (hn : n < 245) (r : Fin 4096) : Fin nP := ⟨n * 4096 + r.val, by have := r.isLt; show n * 4096 + r.val < 1003520; omega⟩

/-- The body's result on the blocks a grid point `n` is handed — rows `n · 4096 + r` of the combined array and of the
    normalisation column, the weight matrices and bias rows whole — is, entry by entry, that block of `edgeOut`. -/
theorem block0_eq (i : grid0.Coords) (n : ℕ) (hin : (i 0).val = n) (hn : n < 245)
    (x0 : FVec Ideal S4096x128 .f32) (x1 : FVec Ideal S4096x1 .f32) (x2 : FVec Ideal S64x64 .f32) (x3 : FVec Ideal S1x64 .f32) (x4 : FVec Ideal S64x64 .f32) (x5 : FVec Ideal S1x64 .f32)
    (A0 : Mat nP 128) (A1 : Mat nP 1) (A2 : Mat 64 64) (A3 : Mat 1 64) (A4 : Mat 64 64) (A5 : Mat 1 64)
    (h0 : ∀ (r : Fin 4096) (k : Fin 128), x0 (ix2 r k) = A0 (ix2 (blkRow0 n hn r) k))
    (h1 : ∀ r : Fin 4096, x1 (ix2 r (0 : Fin 1)) = A1 (ix2 (blkRow0 n hn r) (0 : Fin 1)))
    (h2 : x2 = A2) (h3 : x3 = A3) (h4 : x4 = A4) (h5 : x5 = A5) (r : Fin 4096) (cc : Fin 128) :
    k0_pay1 (F := Ideal) (k0_pay2 (F := Ideal) i) (k0_pay9 (F := Ideal) x0 x4 x5) (k0_pay10 (F := Ideal) i x0 x1 x2 x4 x3 x5)
        (k0_pay11 (F := Ideal) x0 x1 x2 x3) (ix2 r cc)
      = edgeOut A0 A1 A2 A3 A4 A5 (ix2 (blkRow0 n hn r) cc) := by
  subst h2 h3 h4 h5
  have hv : k0_pay2 (F := Ideal) i (ix2 r (0 : Fin 1)) = valid (blkRow0 n hn r) := by
    rw [pay2_0_at, hin]; rfl
  by_cases hc : cc.val < 64
  · have ec : cc = lo ⟨cc.val, hc⟩ := Fin.ext rfl
    rw [ec, pay1_0_lo, pay10_0_at, pay9_0_at, edgeOut_lo, hv]
    unfold msg proj cross
    simp only [h0, h1]
  · have hc' : cc.val - 64 < 64 := by have := cc.isLt; omega
    have ec : cc = hi ⟨cc.val - 64, hc'⟩ := Fin.ext (by show cc.val = 64 + (cc.val - 64); omega)
    rw [ec, pay1_0_hi, pay11_0_at, pay9_0_at, edgeOut_hi, hv]
    unfold msg proj cross
    simp only [h0, h1]

/-! ## From blocks to the array -/

theorem zeroOff0 : (![0, 0] : Fin 2 → Nat) = fun _ => 0 := funext fun a => by fin_cases a <;> rfl

/-- The printed index maps, decided over the grid: the combined array's, the normalisation column's and the output's
    blocks are at the point's number along the rows; the weight matrices and bias rows are whole; the point's coordinate
    is its number. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ (grid0.coords t (0 : Fin 1)).val = t.val :=
  (by decide +kernel : ∀ t : Fin grid0.N, _)

theorem N0_eq : cfg0.N = 245 := N_0

variable (V : (c : Dev nD) → (b : Ref sig .tc) → Buf (Elt Ideal) ((c : Thread nD τ).loc b))

set_option maxHeartbeats 4000000 in
/-- What point `t` writes back is block `t` of `edgeOut` of the six arrays as the region finds them. -/
theorem flushed0_eq (c : Dev nD) (t : Fin cfg0.N) :
    (dat0 (F := Ideal) V c).flushed 6 t = ((cfg0.win 6).blk t).view.read (Elt Ideal)
      (edgeOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero zeroOff0]
  simp only [View.ld_unit_zero (S := S4096x128) zeroOff0, View.ld_unit_zero (S := S4096x1) zeroOff0,
    View.ld_unit_zero (S := S64x64) zeroOff0, View.ld_unit_zero (S := S1x64) zeroOff0]
  obtain ⟨e00, e01, e10, e11, e20, e21, e30, e31, e40, e41, e50, e51, e60, e61, eg⟩ := idx_facts0 t
  have ht : t.val < 245 := lt_of_lt_of_eq t.isLt N0_eq
  funext j
  obtain ⟨r, cc, rfl⟩ : ∃ (r : Fin 4096) (cc : Fin 128), j = ix2 r cc := ⟨j 0, j 1, eq_ix2 j⟩
  refine (block0_eq (grid0.coords t) t.val eg ht (iblk0 V c 0 t) (iblk0 V c 1 t) (iblk0 V c 2 t) (iblk0 V c 3 t)
    (iblk0 V c 4 t) (iblk0 V c 5 t) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) ?_ ?_ ?_ ?_ ?_ ?_ r cc).trans ?_
  · intro r k
    show V c (Pipeline.arrRef spec0 0) (((cfg0.win 0).blk t).view.emb (ix2 r k)) = _
    refine congrArg _ (funext fun a => Fin.ext ?_)
    match a with
    | ⟨0, _⟩ => show win0_0.index t (0 : Fin 2) * 4096 + 1 * r.val = t.val * 4096 + r.val; omega
    | ⟨1, _⟩ => show win0_0.index t (1 : Fin 2) * 128 + 1 * k.val = k.val; omega
  · intro r
    show V c (Pipeline.arrRef spec0 1) (((cfg0.win 1).blk t).view.emb (ix2 r (0 : Fin 1))) = _
    refine congrArg _ (funext fun a => Fin.ext ?_)
    match a with
    | ⟨0, _⟩ => show win0_1.index t (0 : Fin 2) * 4096 + 1 * r.val = t.val * 4096 + r.val; omega
    | ⟨1, _⟩ => show win0_1.index t (1 : Fin 2) * 1 + 1 * 0 = 0; omega
  · funext y
    show V c (Pipeline.arrRef spec0 2) (((cfg0.win 2).blk t).view.emb y) = _
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c (Pipeline.arrRef spec0 3) (((cfg0.win 3).blk t).view.emb y) = _
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · funext y
    show V c (Pipeline.arrRef spec0 4) (((cfg0.win 4).blk t).view.emb y) = _
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c (Pipeline.arrRef spec0 5) (((cfg0.win 5).blk t).view.emb y) = _
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 64 + 1 * (y 1).val = (y 1).val; omega
  · show _ = edgeOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 r cc))
    refine congrArg _ (funext fun a => Fin.ext ?_)
    match a with
    | ⟨0, _⟩ => show t.val * 4096 + r.val = win0_6.index t (0 : Fin 2) * 4096 + 1 * r.val; omega
    | ⟨1, _⟩ => show cc.val = win0_6.index t (1 : Fin 2) * 128 + 1 * cc.val; omega

/-- An index of the output array is in point `t`'s block iff each coordinate is in the block's range on its axis. -/
theorem mem_blk0 (t : Fin cfg0.N) (i : S1003520x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v49).slice (win0_6.rect t)).set ↔ _
  rw [View.set_slice_whole, Rect.mem_set_unit]
  exact Iff.rfl

/-- Every row of the output array is in the block of the point its number divided by the block height names. -/
theorem cover0 (i : S1003520x128.Idx) : ∃ t : Fin cfg0.N, (cfg0.win 6).flush t = true ∧ i ∈ ((cfg0.win 6).blk t).view.set := by
  have hi0 : (i 0).val < 1003520 := (i 0).isLt
  have hi1 : (i 1).val < 128 := (i 1).isLt
  have hq : (i 0).val / 4096 < cfg0.N := by rw [N0_eq]; omega
  refine ⟨⟨(i 0).val / 4096, hq⟩, flush0_6 _, ?_⟩
  rw [mem_blk0]
  obtain ⟨-, -, -, -, -, -, -, -, -, -, -, -, e60, e61, -⟩ := idx_facts0 ⟨(i 0).val / 4096, hq⟩
  have e60' : win0_6.index ⟨(i 0).val / 4096, hq⟩ (0 : Fin 2) = (i 0).val / 4096 := e60
  intro a
  match a with
  | ⟨0, _⟩ =>
    show win0_6.index ⟨(i 0).val / 4096, hq⟩ (0 : Fin 2) * 4096 ≤ (i 0).val ∧ (i 0).val < win0_6.index ⟨(i 0).val / 4096, hq⟩ (0 : Fin 2) * 4096 + 4096
    omega
  | ⟨1, _⟩ =>
    show win0_6.index ⟨(i 0).val / 4096, hq⟩ (1 : Fin 2) * 128 ≤ (i 1).val ∧ (i 1).val < win0_6.index ⟨(i 0).val / 4096, hq⟩ (1 : Fin 2) * 128 + 128
    omega

/-- The output array after the region: the per-edge message block of the six arrays as the region finds them. -/
theorem final0 (c : Dev nD) :
    (dat0 (F := Ideal) V c).arrAt 6 cfg0.N
      = edgeOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 6 _ (fun t _ => flushed0_eq V c t) cover0

end Cert.KernelIdeal.Hand

end
-- ==== Proof.EdgeValue3.lean ====
/- The value of the edge-message region 3 at the ideal values: whatever the TensorCore's buffers hold when the
   region is entered, its output array ends holding the per-edge message block `Cert.Ngcf.edgeOut` of the six input
   arrays. First the kernel's payload read at an index of a block — the two column slices, the three matrix products
   into a zero accumulator, the bias rows and the normalisation column broadcast, the indicator of a true edge from the
   grid coordinate and the row counter, the two halves concatenated —, then what a grid point writes back as a block of
   `edgeOut`, then the cover of the array by the blocks. -/
import proofs.«155537_j65712999628849_1_alg».proof.Proof.EdgeRegion3
import proofs.«155537_j65712999628849_1_alg».proof.Proof.Spec
import proofs.«155537_j65712999628849_1_alg».proof.Proof.LibDense
import proofs.«155537_j65712999628849_1_alg».proof.Proof.LibRowBlocks
import proofs.«155537_j65712999628849_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.Ngcf

/-! ## The indicator of a true edge -/

/-- The signed comparison of the row counter `a · 4096 + r` with the number of true edges, widened to 32 bits and read
    as a signed integer: `1` below it, `0` from it on. The counter stays below `2 ^ 31`. -/
theorem edgeFlag3_toInt (a r : ℕ) (ha : a < 245) (hr : r < 4096) :
    ((BitVec.ofBool ((BitVec.ofNat 32 a * 4096#32 + BitVec.ofNat 32 r).slt 1000000#32)).setWidth 32).toInt
      = if a * 4096 + r < 1000000 then 1 else 0 := by
  have e : BitVec.ofNat 32 a * 4096#32 + BitVec.ofNat 32 r = BitVec.ofNat 32 (a * 4096 + r) := by
    apply BitVec.eq_of_toNat_eq
    simp only [BitVec.toNat_add, BitVec.toNat_mul, BitVec.toNat_ofNat]
    omega
  have hx : (BitVec.ofNat 32 (a * 4096 + r)).toInt = ((a * 4096 + r : ℕ) : ℤ) := by
    have h2 : 2 * (BitVec.ofNat 32 (a * 4096 + r)).toNat < 2 ^ 32 := by rw [BitVec.toNat_ofNat]; omega
    rw [BitVec.toInt_eq_toNat_of_lt h2, BitVec.toNat_ofNat]
    omega
  have hy : (1000000#32 : BitVec 32).toInt = 1000000 := by decide
  have hs : (BitVec.ofNat 32 (a * 4096 + r)).slt 1000000#32 = decide (a * 4096 + r < 1000000) := by
    rw [BitVec.slt_eq_decide, hx, hy]
    exact decide_eq_decide.mpr (by omega)
  rw [e, hs]
  by_cases h : a * 4096 + r < 1000000
  · rw [if_pos h, decide_eq_true h]; decide
  · rw [if_neg h, decide_eq_false h]; decide

/-- The indicator payload at row `r` of the block of grid coordinate `i`. -/
theorem pay2_3_at (i : grid3.Coords) (r : Fin 4096) :
    k3_pay2 (F := Ideal) i (ix2 r (0 : Fin 1))
      = if (i 0).val * 4096 + r.val < 1000000 then (1 : EReal) else 0 := by
  have ha : (i 0).val < 245 := (i 0).isLt
  unfold k3_pay2
  show ((((BitVec.ofBool ((BitVec.ofNat 32 (i 0).val * 4096#32
      + iota .tc S4096x1 32 [0] iota_S4096x1_d0_w32 (ix2 r (0 : Fin 1))).slt 1000000#32)).setWidth 32).toInt : ℝ) : EReal) = _
  rw [iota_single_apply]
  show ((((BitVec.ofBool ((BitVec.ofNat 32 (i 0).val * 4096#32 + BitVec.ofNat 32 r.val).slt 1000000#32)).setWidth 32).toInt : ℝ) : EReal) = _
  rw [edgeFlag3_toInt _ _ ha r.isLt]
  by_cases h : (i 0).val * 4096 + r.val < 1000000
  · rw [if_pos h, if_pos h]; simp
  · rw [if_neg h, if_neg h]; simp

/-! ## The payloads at an index -/

/-- The first column slice. -/
theorem pay4_3_at (x0 : FVec Ideal S4096x128 .f32) (r : Fin 4096) (k : Fin 64) :
    k3_pay4 (F := Ideal) x0 (ix2 r k) = x0 (ix2 r (lo k)) := by
  unfold k3_pay4 k3_pay3
  show extractStridedSlice S4096x64 ![0, 0] (shapeCast S4096x128 x0 shapeCasts_S4096x128_S4096x128) slices_S4096x128_o0_0_S4096x64 (ix2 r k) = _
  rw [shapeCast_self]
  exact slice2_axis1_apply 0 x0 _ r k (lo k) (by show k.val = 0 + k.val; omega)

/-- The second column slice. -/
theorem pay5_3_at (x0 : FVec Ideal S4096x128 .f32) (r : Fin 4096) (k : Fin 64) :
    k3_pay5 (F := Ideal) x0 (ix2 r k) = x0 (ix2 r (hi k)) := by
  unfold k3_pay5 k3_pay3
  show extractStridedSlice S4096x64 ![0, 64] (shapeCast S4096x128 x0 shapeCasts_S4096x128_S4096x128) slices_S4096x128_o0_64_S4096x64 (ix2 r k) = _
  rw [shapeCast_self]
  exact slice2_axis1_apply 64 x0 _ r k (hi k) rfl

/-- The cross projection of a row: the product of its halves through the second weight matrix, plus the second bias. -/
theorem pay9_3_at (x0 : FVec Ideal S4096x128 .f32) (x4 : FVec Ideal S64x64 .f32) (x5 : FVec Ideal S1x64 .f32) (r : Fin 4096) (q : Fin 64) :
    k3_pay9 (F := Ideal) x0 x4 x5 (ix2 r q)
      = (∑ k : Fin 64, (x0 (ix2 r (lo k)) * x0 (ix2 r (hi k))) * x4 (ix2 k q)) + x5 (ix2 (0 : Fin 1) q) := by
  unfold k3_pay9
  show matmul (F := Ideal) dot_S4096x64_S64x64_S4096x64_1_0_0_1_n_n none
        (truncf .bf16 (mulf (k3_pay4 (F := Ideal) x0) (k3_pay5 (F := Ideal) x0)) bitsLt_bf16_f32) (truncf .bf16 x4 bitsLt_bf16_f32)
        (constant S4096x64 .f32 0x00000000#32) (ix2 r q)
      + broadcastTo S4096x64 (shapeCast S1x64 x5 shapeCasts_S1x64_S1x64) broadcasts_S1x64_S4096x64 (ix2 r q) = _
  rw [matmul_zero_eq_mm _ rfl rfl rfl rfl rfl rfl, mm_apply, broadcastTo_1b_ab_apply, shapeCast_self]
  refine congrArg (· + _) (Finset.sum_congr rfl fun k _ => ?_)
  show (k3_pay4 (F := Ideal) x0 (ix2 r k) * k3_pay5 (F := Ideal) x0 (ix2 r k)) * x4 (ix2 k q) = _
  rw [pay4_3_at, pay5_3_at]

/-- The first half's message: the indicator times the normalised projection plus the cross projection. -/
theorem pay10_3_at (i : grid3.Coords) (x0 : FVec Ideal S4096x128 .f32) (x1 : FVec Ideal S4096x1 .f32) (x2 : FVec Ideal S64x64 .f32) (x3 : FVec Ideal S1x64 .f32) (x4 : FVec Ideal S64x64 .f32)
    (x5 : FVec Ideal S1x64 .f32) (r : Fin 4096) (q : Fin 64) :
    k3_pay10 (F := Ideal) i x0 x1 x2 x4 x3 x5 (ix2 r q)
      = k3_pay2 (F := Ideal) i (ix2 r (0 : Fin 1))
        * (x1 (ix2 r (0 : Fin 1)) * ((∑ k : Fin 64, x0 (ix2 r (lo k)) * x2 (ix2 k q)) + x3 (ix2 (0 : Fin 1) q))
          + k3_pay9 (F := Ideal) x0 x4 x5 (ix2 r q)) := by
  unfold k3_pay10 k3_pay6 k3_pay7 k3_pay8
  show broadcastTo S4096x64 (k3_pay2 (F := Ideal) i) broadcasts_S4096x1_S4096x64 (ix2 r q)
      * (broadcastTo S4096x64 (shapeCast S4096x1 x1 shapeCasts_S4096x1_S4096x1) broadcasts_S4096x1_S4096x64 (ix2 r q)
          * (matmul (F := Ideal) dot_S4096x64_S64x64_S4096x64_1_0_0_1_n_n none
                (truncf .bf16 (k3_pay4 (F := Ideal) x0) bitsLt_bf16_f32) (truncf .bf16 x2 bitsLt_bf16_f32)
                (constant S4096x64 .f32 0x00000000#32) (ix2 r q)
              + broadcastTo S4096x64 (shapeCast S1x64 x3 shapeCasts_S1x64_S1x64) broadcasts_S1x64_S4096x64 (ix2 r q))
        + k3_pay9 (F := Ideal) x0 x4 x5 (ix2 r q)) = _
  rw [Cert.RowBlocks.broadcastTo_col_apply, Cert.RowBlocks.broadcastTo_col_apply, matmul_zero_eq_mm _ rfl rfl rfl rfl rfl rfl, mm_apply,
    broadcastTo_1b_ab_apply, shapeCast_self, shapeCast_self]
  refine congrArg (fun s => _ * (_ * (s + _) + _)) (Finset.sum_congr rfl fun k _ => ?_)
  show k3_pay4 (F := Ideal) x0 (ix2 r k) * x2 (ix2 k q) = _
  rw [pay4_3_at]

/-- The second half's normalised projection. -/
theorem pay11_3_at (x0 : FVec Ideal S4096x128 .f32) (x1 : FVec Ideal S4096x1 .f32) (x2 : FVec Ideal S64x64 .f32) (x3 : FVec Ideal S1x64 .f32) (r : Fin 4096) (q : Fin 64) :
    k3_pay11 (F := Ideal) x0 x1 x2 x3 (ix2 r q)
      = x1 (ix2 r (0 : Fin 1)) * ((∑ k : Fin 64, x0 (ix2 r (hi k)) * x2 (ix2 k q)) + x3 (ix2 (0 : Fin 1) q)) := by
  unfold k3_pay11 k3_pay6 k3_pay7 k3_pay8
  show broadcastTo S4096x64 (shapeCast S4096x1 x1 shapeCasts_S4096x1_S4096x1) broadcasts_S4096x1_S4096x64 (ix2 r q)
      * (matmul (F := Ideal) dot_S4096x64_S64x64_S4096x64_1_0_0_1_n_n none
            (truncf .bf16 (k3_pay5 (F := Ideal) x0) bitsLt_bf16_f32) (truncf .bf16 x2 bitsLt_bf16_f32)
            (constant S4096x64 .f32 0x00000000#32) (ix2 r q)
          + broadcastTo S4096x64 (shapeCast S1x64 x3 shapeCasts_S1x64_S1x64) broadcasts_S1x64_S4096x64 (ix2 r q)) = _
  rw [Cert.RowBlocks.broadcastTo_col_apply, matmul_zero_eq_mm _ rfl rfl rfl rfl rfl rfl, mm_apply,
    broadcastTo_1b_ab_apply, shapeCast_self, shapeCast_self]
  refine congrArg (fun s => _ * (s + _)) (Finset.sum_congr rfl fun k _ => ?_)
  show k3_pay5 (F := Ideal) x0 (ix2 r k) * x2 (ix2 k q) = _
  rw [pay5_3_at]

/-- The stored block at a column of its first half: the first half's message. -/
theorem pay1_3_lo (v7 : FVec Ideal S4096x1 .f32) (v34 v39 v41 : FVec Ideal S4096x64 .f32) (r : Fin 4096) (q : Fin 64) :
    k3_pay1 (F := Ideal) v7 v34 v39 v41 (ix2 r (lo q)) = v39 (ix2 r q) := by
  unfold k3_pay1
  exact concatenate_pair_apply_left (1 : Fin 2) v39 _ concatenates_S4096x64_S4096x64_S4096x128_d1 (ix2 r (lo q)) rfl (ix2 r q)
    (fun b => by
      match b with
      | ⟨0, _⟩ => rfl
      | ⟨1, _⟩ => rfl)

/-- The stored block at a column of its second half: the indicator times the second half's normalised projection plus
    the cross projection. -/
theorem pay1_3_hi (v7 : FVec Ideal S4096x1 .f32) (v34 v39 v41 : FVec Ideal S4096x64 .f32) (r : Fin 4096) (q : Fin 64) :
    k3_pay1 (F := Ideal) v7 v34 v39 v41 (ix2 r (hi q)) = v7 (ix2 r (0 : Fin 1)) * (v41 (ix2 r q) + v34 (ix2 r q)) := by
  unfold k3_pay1
  refine (concatenate_pair_apply_right (s₂ := S4096x64) (1 : Fin 2) v39 _ concatenates_S4096x64_S4096x64_S4096x128_d1 (ix2 r (hi q)) rfl rfl (ix2 r q)
    (fun b hb => by
      match b with
      | ⟨0, _⟩ => rfl
      | ⟨1, _⟩ => exact absurd rfl hb)
    (by show q.val + 64 = 64 + q.val; omega)).trans ?_
  show broadcastTo S4096x64 v7 broadcasts_S4096x1_S4096x64 (ix2 r q) * (v41 (ix2 r q) + v34 (ix2 r q)) = _
  rw [Cert.RowBlocks.broadcastTo_col_apply]

/-! ## A block of the message array -/

/-- Row `r` of the block of grid point `n`, as a row of the padded array. -/
abbrev blkRow3 (n : ℕ) (hn : n < 245) (r : Fin 4096) : Fin nP := ⟨n * 4096 + r.val, by have := r.isLt; show n * 4096 + r.val < 1003520; omega⟩

/-- The body's result on the blocks a grid point `n` is handed — rows `n · 4096 + r` of the combined array and of the
    normalisation column, the weight matrices and bias rows whole — is, entry by entry, that block of `edgeOut`. -/
theorem block3_eq (i : grid3.Coords) (n : ℕ) (hin : (i 0).val = n) (hn : n < 245)
    (x0 : FVec Ideal S4096x128 .f32) (x1 : FVec Ideal S4096x1 .f32) (x2 : FVec Ideal S64x64 .f32) (x3 : FVec Ideal S1x64 .f32) (x4 : FVec Ideal S64x64 .f32) (x5 : FVec Ideal S1x64 .f32)
    (A0 : Mat nP 128) (A1 : Mat nP 1) (A2 : Mat 64 64) (A3 : Mat 1 64) (A4 : Mat 64 64) (A5 : Mat 1 64)
    (h0 : ∀ (r : Fin 4096) (k : Fin 128), x0 (ix2 r k) = A0 (ix2 (blkRow3 n hn r) k))
    (h1 : ∀ r : Fin 4096, x1 (ix2 r (0 : Fin 1)) = A1 (ix2 (blkRow3 n hn r) (0 : Fin 1)))
    (h2 : x2 = A2) (h3 : x3 = A3) (h4 : x4 = A4) (h5 : x5 = A5) (r : Fin 4096) (cc : Fin 128) :
    k3_pay1 (F := Ideal) (k3_pay2 (F := Ideal) i) (k3_pay9 (F := Ideal) x0 x4 x5) (k3_pay10 (F := Ideal) i x0 x1 x2 x4 x3 x5)
        (k3_pay11 (F := Ideal) x0 x1 x2 x3) (ix2 r cc)
      = edgeOut A0 A1 A2 A3 A4 A5 (ix2 (blkRow3 n hn r) cc) := by
  subst h2 h3 h4 h5
  have hv : k3_pay2 (F := Ideal) i (ix2 r (0 : Fin 1)) = valid (blkRow3 n hn r) := by
    rw [pay2_3_at, hin]; rfl
  by_cases hc : cc.val < 64
  · have ec : cc = lo ⟨cc.val, hc⟩ := Fin.ext rfl
    rw [ec, pay1_3_lo, pay10_3_at, pay9_3_at, edgeOut_lo, hv]
    unfold msg proj cross
    simp only [h0, h1]
  · have hc' : cc.val - 64 < 64 := by have := cc.isLt; omega
    have ec : cc = hi ⟨cc.val - 64, hc'⟩ := Fin.ext (by show cc.val = 64 + (cc.val - 64); omega)
    rw [ec, pay1_3_hi, pay11_3_at, pay9_3_at, edgeOut_hi, hv]
    unfold msg proj cross
    simp only [h0, h1]

/-! ## From blocks to the array -/

theorem zeroOff3 : (![0, 0] : Fin 2 → Nat) = fun _ => 0 := funext fun a => by fin_cases a <;> rfl

/-- The printed index maps, decided over the grid: the combined array's, the normalisation column's and the output's
    blocks are at the point's number along the rows; the weight matrices and bias rows are whole; the point's coordinate
    is its number. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ (grid3.coords t (0 : Fin 1)).val = t.val :=
  (by decide +kernel : ∀ t : Fin grid3.N, _)

theorem N3_eq : cfg3.N = 245 := N_3

variable (V : (c : Dev nD) → (b : Ref sig .tc) → Buf (Elt Ideal) ((c : Thread nD τ).loc b))

set_option maxHeartbeats 4000000 in
/-- What point `t` writes back is block `t` of `edgeOut` of the six arrays as the region finds them. -/
theorem flushed3_eq (c : Dev nD) (t : Fin cfg3.N) :
    (dat3 (F := Ideal) V c).flushed 6 t = ((cfg3.win 6).blk t).view.read (Elt Ideal)
      (edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zeroOff3]
  simp only [View.ld_unit_zero (S := S4096x128) zeroOff3, View.ld_unit_zero (S := S4096x1) zeroOff3,
    View.ld_unit_zero (S := S64x64) zeroOff3, View.ld_unit_zero (S := S1x64) zeroOff3]
  obtain ⟨e00, e01, e10, e11, e20, e21, e30, e31, e40, e41, e50, e51, e60, e61, eg⟩ := idx_facts3 t
  have ht : t.val < 245 := lt_of_lt_of_eq t.isLt N3_eq
  funext j
  obtain ⟨r, cc, rfl⟩ : ∃ (r : Fin 4096) (cc : Fin 128), j = ix2 r cc := ⟨j 0, j 1, eq_ix2 j⟩
  refine (block3_eq (grid3.coords t) t.val eg ht (iblk3 V c 0 t) (iblk3 V c 1 t) (iblk3 V c 2 t) (iblk3 V c 3 t)
    (iblk3 V c 4 t) (iblk3 V c 5 t) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) ?_ ?_ ?_ ?_ ?_ ?_ r cc).trans ?_
  · intro r k
    show V c (Pipeline.arrRef spec3 0) (((cfg3.win 0).blk t).view.emb (ix2 r k)) = _
    refine congrArg _ (funext fun a => Fin.ext ?_)
    match a with
    | ⟨0, _⟩ => show win3_0.index t (0 : Fin 2) * 4096 + 1 * r.val = t.val * 4096 + r.val; omega
    | ⟨1, _⟩ => show win3_0.index t (1 : Fin 2) * 128 + 1 * k.val = k.val; omega
  · intro r
    show V c (Pipeline.arrRef spec3 1) (((cfg3.win 1).blk t).view.emb (ix2 r (0 : Fin 1))) = _
    refine congrArg _ (funext fun a => Fin.ext ?_)
    match a with
    | ⟨0, _⟩ => show win3_1.index t (0 : Fin 2) * 4096 + 1 * r.val = t.val * 4096 + r.val; omega
    | ⟨1, _⟩ => show win3_1.index t (1 : Fin 2) * 1 + 1 * 0 = 0; omega
  · funext y
    show V c (Pipeline.arrRef spec3 2) (((cfg3.win 2).blk t).view.emb y) = _
    refine congrArg _ (funext fun a => Fin.ext ?_)
    match a with
    | ⟨0, _⟩ => show win3_2.index t (0 : Fin 2) * 64 + 1 * (y 0).val = (y 0).val; omega
    | ⟨1, _⟩ => show win3_2.index t (1 : Fin 2) * 64 + 1 * (y 1).val = (y 1).val; omega
  · funext y
    show V c (Pipeline.arrRef spec3 3) (((cfg3.win 3).blk t).view.emb y) = _
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 64 + 1 * (y 1).val = (y 1).val; omega
  · funext y
    show V c (Pipeline.arrRef spec3 4) (((cfg3.win 4).blk t).view.emb y) = _
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · funext y
    show V c (Pipeline.arrRef spec3 5) (((cfg3.win 5).blk t).view.emb y) = _
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 64 + 1 * (y 1).val = (y 1).val; omega
  · show _ = edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix2 r cc))
    refine congrArg _ (funext fun a => Fin.ext ?_)
    match a with
    | ⟨0, _⟩ => show t.val * 4096 + r.val = win3_6.index t (0 : Fin 2) * 4096 + 1 * r.val; omega
    | ⟨1, _⟩ => show cc.val = win3_6.index t (1 : Fin 2) * 128 + 1 * cc.val; omega

/-- An index of the output array is in point `t`'s block iff each coordinate is in the block's range on its axis. -/
theorem mem_blk3 (t : Fin cfg3.N) (i : S1003520x128.Idx) :
    i ∈ ((cfg3.win 6).blk t).view.set ↔ ∀ a : Fin 2, win3_6.index t a * S4096x128.size a ≤ (i a).val ∧ (i a).val < win3_6.index t a * S4096x128.size a + S4096x128.size a := by
  show i ∈ ((View.whole main_v77).slice (win3_6.rect t)).set ↔ _
  rw [View.set_slice_whole, Rect.mem_set_unit]
  exact Iff.rfl

/-- Every row of the output array is in the block of the point its number divided by the block height names. -/
theorem cover3 (i : S1003520x128.Idx) : ∃ t : Fin cfg3.N, (cfg3.win 6).flush t = true ∧ i ∈ ((cfg3.win 6).blk t).view.set := by
  have hi0 : (i 0).val < 1003520 := (i 0).isLt
  have hi1 : (i 1).val < 128 := (i 1).isLt
  have hq : (i 0).val / 4096 < cfg3.N := by rw [N3_eq]; omega
  refine ⟨⟨(i 0).val / 4096, hq⟩, flush3_6 _, ?_⟩
  rw [mem_blk3]
  obtain ⟨-, -, -, -, -, -, -, -, -, -, -, -, e60, e61, -⟩ := idx_facts3 ⟨(i 0).val / 4096, hq⟩
  have e60' : win3_6.index ⟨(i 0).val / 4096, hq⟩ (0 : Fin 2) = (i 0).val / 4096 := e60
  intro a
  match a with
  | ⟨0, _⟩ =>
    show win3_6.index ⟨(i 0).val / 4096, hq⟩ (0 : Fin 2) * 4096 ≤ (i 0).val ∧ (i 0).val < win3_6.index ⟨(i 0).val / 4096, hq⟩ (0 : Fin 2) * 4096 + 4096
    omega
  | ⟨1, _⟩ =>
    show win3_6.index ⟨(i 0).val / 4096, hq⟩ (1 : Fin 2) * 128 ≤ (i 1).val ∧ (i 1).val < win3_6.index ⟨(i 0).val / 4096, hq⟩ (1 : Fin 2) * 128 + 128
    omega

/-- The output array after the region: the per-edge message block of the six arrays as the region finds them. -/
theorem final3 (c : Dev nD) :
    (dat3 (F := Ideal) V c).arrAt 6 cfg3.N
      = edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3_eq V c t) cover3

end Cert.KernelIdeal.Hand

end
-- ==== Proof.EpiLeaky.lean ====
/- The leaky rectifier as the select both programs print: a comparison bit of `0 ≤ x` choosing between `x` and `s · x`. -/
import proofs.«155537_j65712999628849_1_alg».proof.Proof.Spec
import Idealize.ShloMosaic.PureOps.Ideal.Laws
import Idealize.ShloMosaic.Lib.ValueIdx

noncomputable section

namespace Cert.Ngcf

open Idealize.ShloMosaic Idealize.ShloMosaic.ValueIdx Cert.Dense

/-- A select on the bit of `0 ≤ x` between `x` and `s · x` is the leaky rectifier. -/
theorem select_oge_zero (s x : EReal) :
    Scalar.select (Ideal.cmp .oge x 0) x (s * x) = leaky s x := by
  unfold Scalar.select Ideal.cmp leaky
  by_cases h : (0 : EReal) ≤ x
  · simp [h]
  · simp [h]

/-- Rows of the epilogue depend on the same rows of the input only. -/
theorem epi_rows {n n' : ℕ} (s fl : EReal) (X : Mat n 64) (X' : Mat n' 64) (p : Fin n) (p' : Fin n')
    (h : ∀ k, X' (ix2 p' k) = X (ix2 p k)) (q : Fin 64) :
    epi s fl X' (ix2 p' q) = epi s fl X (ix2 p q) := by
  simp only [epi_apply, h]

end Cert.Ngcf

end
-- ==== Proof.EpiPayload.lean ====
/- The epilogue kernels' payload read at an index: a leaky rectifier of the block, each row divided by the larger of
   its Euclidean norm and a floor. The four epilogue kernels print the same payload, so one reading serves them all. -/
import proofs.«155537_j65712999628849_1_alg».proof.Proof.Gen.KernelIdeal.Skeleton
import proofs.«155537_j65712999628849_1_alg».proof.Proof.Spec
import proofs.«155537_j65712999628849_1_alg».proof.Proof.EpiLeaky
import proofs.«155537_j65712999628849_1_alg».proof.Proof.LibRowBlocks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.Dense Cert.Ngcf

/-- The rectified block of the payload, read at an index. -/
theorem rect_apply (x : FVec Ideal S2000x64 .f32) (i : S2000x64.Idx) :
    select (cmpf .oge x (broadcast S2000x64 (Scalar.ofBits (F := Ideal) .f32 0x00000000#32))) x
        (mulf (broadcast S2000x64 (Scalar.ofBits (F := Ideal) .f32 0x3E4CCCCD#32)) x) i
      = leaky (Ideal.ofBits .f32 0x3E4CCCCD#32) (x i) := by
  show Scalar.select (Ideal.cmp .oge (x i) (Ideal.ofBits .f32 0x00000000#32)) (x i) (Ideal.ofBits .f32 0x3E4CCCCD#32 * x i) = _
  rw [Ideal.ofBits_zero_f32, select_oge_zero]

/-- The payload of region 1's kernel at row `r`, column `q` of the block. -/
theorem k1_pay1_apply (x0 : Vec Ideal S2000x64 .f32) (r : Fin 2000) (q : Fin 64) :
    k1_pay1 (F := Ideal) x0 (ix2 r q)
      = epi (Ideal.ofBits .f32 0x3E4CCCCD#32) (Ideal.ofBits .f32 0x2B8CBCCC#32) x0 (ix2 r q) := by
  rw [epi_apply]
  unfold k1_pay1
  simp only [shapeCast_self]
  rw [divf_apply, Cert.RowBlocks.broadcastTo_col_apply, maximumf_apply, broadcast_apply, rect_apply]
  show Ideal.div _ (max (Ideal.sqrt (shapeCast S2000x1 _ shapeCasts_S2000_S2000x1 (ix2 r (0 : Fin 1)))) (Ideal.ofBits .f32 0x2B8CBCCC#32)) = _
  rw [Cert.RowBlocks.shapeCast_col_apply, Cert.RowBlocks.rowSum_apply, zero_add]
  simp only [mulf_apply, rect_apply]

/-- The other epilogue kernels print the same payload. -/
theorem k2_pay1_eq : k2_pay1 (F := Ideal) = k1_pay1 (F := Ideal) := rfl
theorem k4_pay1_eq : k4_pay1 (F := Ideal) = k1_pay1 (F := Ideal) := rfl
theorem k5_pay1_eq : k5_pay1 (F := Ideal) = k1_pay1 (F := Ideal) := rfl

end Cert.KernelIdeal.Hand

end
-- ==== Proof.EpiValue1.lean ====
/- Region 1 of @main at the ideal values: the array its output window leaves after the whole grid is the node epilogue
   of the array its input window reads, whatever the region-entry contents. Each grid point writes back the epilogue
   of its own block of rows, a row's result depends on that row alone, and the 50 blocks of 2000 rows cover the 100000 rows. -/
import proofs.«155537_j65712999628849_1_alg».proof.Proof.EpiRegion1
import proofs.«155537_j65712999628849_1_alg».proof.Proof.EpiPayload
import proofs.«155537_j65712999628849_1_alg».proof.Proof.EpiLeaky
import proofs.«155537_j65712999628849_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx Cert.Dense Cert.Ngcf
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The printed index maps, decided over the grid: at point `t` both windows are on block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of the block at point `t` is row `2000 t + r` of the array. -/
theorem blockRow1_lt (t : Fin cfg1.N) (r : Fin 2000) : t.val * 2000 + r.val < 100000 := by
  have ht : t.val < 50 := t.isLt
  have hr := r.isLt
  omega

/-- The input window's block at point `t`, read at `(r, k)`, is the array at row `2000 t + r`. -/
theorem iblk1_0_apply (c : Dev nD) (t : Fin cfg1.N) (r : Fin 2000) (k : Fin 64) :
    iblk1 V c 0 t (ix2 r k) = V c (Pipeline.arrRef spec1 0) (ix2 ⟨t.val * 2000 + r.val, blockRow1_lt t r⟩ k) := by
  show V c (Pipeline.arrRef spec1 0) (((cfg1.win 0).blk t).view.emb (ix2 r k)) = _
  refine congrArg (V c (Pipeline.arrRef spec1 0)) (funext fun a => Fin.ext ?_)
  obtain ⟨e0, e1, -, -⟩ := idx_facts1 t
  match a with
  | ⟨0, _⟩ => show win1_0.index t (0 : Fin 2) * 2000 + 1 * r.val = t.val * 2000 + r.val; omega
  | ⟨1, _⟩ => show win1_0.index t (1 : Fin 2) * 64 + 1 * k.val = k.val; omega

/-- The output window's block at point `t` embeds `(r, q)` at row `2000 t + r`, column `q`. -/
theorem oemb1 (t : Fin cfg1.N) (r : Fin 2000) (q : Fin 64) :
    ((cfg1.win 1).blk t).view.emb (ix2 r q) = ix2 ⟨t.val * 2000 + r.val, blockRow1_lt t r⟩ q := by
  refine funext fun a => Fin.ext ?_
  obtain ⟨-, -, e2, e3⟩ := idx_facts1 t
  match a with
  | ⟨0, _⟩ => show win1_1.index t (0 : Fin 2) * 2000 + 1 * r.val = t.val * 2000 + r.val; omega
  | ⟨1, _⟩ => show win1_1.index t (1 : Fin 2) * 64 + 1 * q.val = q.val; omega

/-- What point `t` writes back is block `t` of the epilogue of the input array as the region finds it. -/
theorem flushed1_eq (c : Dev nD) (t : Fin cfg1.N) :
    (dat1 (F := Ideal) V c).flushed 1 t = ((cfg1.win 1).blk t).view.read (Elt Ideal)
      (epi (Ideal.ofBits .f32 0x3E4CCCCD#32) (Ideal.ofBits .f32 0x2B8CBCCC#32) (V c (Pipeline.arrRef spec1 0))) := by
  show (cfg1.win 1).cut (grid1.coords t) ((dat1 V c).after 1 t) = _
  rw [after1_1]
  unfold out1_1
  rw [View.canon_unit_zero zeroOff1]
  simp only [View.ld_unit_zero (S := S2000x64) zeroOff1]
  funext j
  obtain ⟨r, q, rfl⟩ : ∃ (r : Fin 2000) (q : Fin 64), j = ix2 r q := ⟨j 0, j 1, eq_ix2 j⟩
  show k1_pay1 (F := Ideal) (iblk1 V c 0 t) (ix2 r q)
    = epi (Ideal.ofBits .f32 0x3E4CCCCD#32) (Ideal.ofBits .f32 0x2B8CBCCC#32) (V c (Pipeline.arrRef spec1 0))
        (((cfg1.win 1).blk t).view.emb (ix2 r q))
  rw [oemb1]
  refine (k1_pay1_apply _ r q).trans ?_
  exact epi_rows _ _ _ _ _ _ (fun k => iblk1_0_apply V c t r k) q

/-- An index of the array is in point `t`'s block iff each coordinate is in the block's range on its axis. -/
theorem mem_blk1 (t : Fin cfg1.N) (i : S100000x64.Idx) :
    i ∈ ((cfg1.win 1).blk t).view.set ↔ ∀ a : Fin 2, win1_1.index t a * S2000x64.size a ≤ (i a).val ∧ (i a).val < win1_1.index t a * S2000x64.size a + S2000x64.size a := by
  show i ∈ ((View.whole main_v58).slice (win1_1.rect t)).set ↔ _
  rw [View.set_slice_whole, Rect.mem_set_unit]
  exact Iff.rfl

/-- Every index of the array is in the block of the point that holds its row: row `p` is in block `p / 2000`. -/
theorem cover1 (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have ht : (i 0).val / 2000 < cfg1.N := by show (i 0).val / 2000 < 50; omega
  have e2 : win1_1.index ⟨(i 0).val / 2000, ht⟩ (0 : Fin 2) = (i 0).val / 2000 := (idx_facts1 ⟨_, ht⟩).2.2.1
  have e3 : win1_1.index ⟨(i 0).val / 2000, ht⟩ (1 : Fin 2) = 0 := (idx_facts1 ⟨_, ht⟩).2.2.2
  refine ⟨⟨(i 0).val / 2000, ht⟩, flush1_1 _, ?_⟩
  rw [mem_blk1]
  intro a
  match a with
  | ⟨0, _⟩ =>
    show win1_1.index ⟨(i 0).val / 2000, ht⟩ (0 : Fin 2) * 2000 ≤ (i 0).val
      ∧ (i 0).val < win1_1.index ⟨(i 0).val / 2000, ht⟩ (0 : Fin 2) * 2000 + 2000
    omega
  | ⟨1, _⟩ =>
    show win1_1.index ⟨(i 0).val / 2000, ht⟩ (1 : Fin 2) * 64 ≤ (i 1).val
      ∧ (i 1).val < win1_1.index ⟨(i 0).val / 2000, ht⟩ (1 : Fin 2) * 64 + 64
    omega

/-- The output array after the region: the epilogue of the input array as the region finds it. -/
theorem final1 (c : Dev nD) :
    (dat1 (F := Ideal) V c).arrAt 1 cfg1.N
      = epi (Ideal.ofBits .f32 0x3E4CCCCD#32) (Ideal.ofBits .f32 0x2B8CBCCC#32) (V c (Pipeline.arrRef spec1 0)) :=
  (dat1 (F := Ideal) V c).arrAt_eq_of_cover 1 _ (fun t _ => flushed1_eq V c t) cover1

end Cert.KernelIdeal.Hand

end
-- ==== Proof.EpiValue2.lean ====
/- Region 2 of @main at the ideal values: the array its output window leaves after the whole grid is the node epilogue
   of the array its input window reads, whatever the region-entry contents. Each grid point writes back the epilogue
   of its own block of rows, a row's result depends on that row alone, and the 25 blocks of 2000 rows cover the 50000 rows. -/
import proofs.«155537_j65712999628849_1_alg».proof.Proof.EpiRegion2
import proofs.«155537_j65712999628849_1_alg».proof.Proof.EpiPayload
import proofs.«155537_j65712999628849_1_alg».proof.Proof.EpiLeaky
import proofs.«155537_j65712999628849_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx Cert.Dense Cert.Ngcf
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The printed index maps, decided over the grid: at point `t` both windows are on block row `t`, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `r` of the block at point `t` is row `2000 t + r` of the array. -/
theorem blockRow2_lt (t : Fin cfg2.N) (r : Fin 2000) : t.val * 2000 + r.val < 50000 := by
  have ht : t.val < 25 := t.isLt
  have hr := r.isLt
  omega

/-- The input window's block at point `t`, read at `(r, k)`, is the array at row `2000 t + r`. -/
theorem iblk2_0_apply (c : Dev nD) (t : Fin cfg2.N) (r : Fin 2000) (k : Fin 64) :
    iblk2 V c 0 t (ix2 r k) = V c (Pipeline.arrRef spec2 0) (ix2 ⟨t.val * 2000 + r.val, blockRow2_lt t r⟩ k) := by
  show V c (Pipeline.arrRef spec2 0) (((cfg2.win 0).blk t).view.emb (ix2 r k)) = _
  refine congrArg (V c (Pipeline.arrRef spec2 0)) (funext fun a => Fin.ext ?_)
  obtain ⟨e0, e1, -, -⟩ := idx_facts2 t
  match a with
  | ⟨0, _⟩ => show win2_0.index t (0 : Fin 2) * 2000 + 1 * r.val = t.val * 2000 + r.val; omega
  | ⟨1, _⟩ => show win2_0.index t (1 : Fin 2) * 64 + 1 * k.val = k.val; omega

/-- The output window's block at point `t` embeds `(r, q)` at row `2000 t + r`, column `q`. -/
theorem oemb2 (t : Fin cfg2.N) (r : Fin 2000) (q : Fin 64) :
    ((cfg2.win 1).blk t).view.emb (ix2 r q) = ix2 ⟨t.val * 2000 + r.val, blockRow2_lt t r⟩ q := by
  refine funext fun a => Fin.ext ?_
  obtain ⟨-, -, e2, e3⟩ := idx_facts2 t
  match a with
  | ⟨0, _⟩ => show win2_1.index t (0 : Fin 2) * 2000 + 1 * r.val = t.val * 2000 + r.val; omega
  | ⟨1, _⟩ => show win2_1.index t (1 : Fin 2) * 64 + 1 * q.val = q.val; omega

/-- What point `t` writes back is block `t` of the epilogue of the input array as the region finds it. -/
theorem flushed2_eq (c : Dev nD) (t : Fin cfg2.N) :
    (dat2 (F := Ideal) V c).flushed 1 t = ((cfg2.win 1).blk t).view.read (Elt Ideal)
      (epi (Ideal.ofBits .f32 0x3E4CCCCD#32) (Ideal.ofBits .f32 0x2B8CBCCC#32) (V c (Pipeline.arrRef spec2 0))) := by
  show (cfg2.win 1).cut (grid2.coords t) ((dat2 V c).after 1 t) = _
  rw [after2_1]
  unfold out2_1
  rw [View.canon_unit_zero zeroOff2]
  simp only [View.ld_unit_zero (S := S2000x64) zeroOff2]
  rw [k2_pay1_eq]
  funext j
  obtain ⟨r, q, rfl⟩ : ∃ (r : Fin 2000) (q : Fin 64), j = ix2 r q := ⟨j 0, j 1, eq_ix2 j⟩
  show k1_pay1 (F := Ideal) (iblk2 V c 0 t) (ix2 r q)
    = epi (Ideal.ofBits .f32 0x3E4CCCCD#32) (Ideal.ofBits .f32 0x2B8CBCCC#32) (V c (Pipeline.arrRef spec2 0))
        (((cfg2.win 1).blk t).view.emb (ix2 r q))
  rw [oemb2]
  refine (k1_pay1_apply _ r q).trans ?_
  exact epi_rows _ _ _ _ _ _ (fun k => iblk2_0_apply V c t r k) q

/-- An index of the array is in point `t`'s block iff each coordinate is in the block's range on its axis. -/
theorem mem_blk2 (t : Fin cfg2.N) (i : S50000x64.Idx) :
    i ∈ ((cfg2.win 1).blk t).view.set ↔ ∀ a : Fin 2, win2_1.index t a * S2000x64.size a ≤ (i a).val ∧ (i a).val < win2_1.index t a * S2000x64.size a + S2000x64.size a := by
  show i ∈ ((View.whole main_v59).slice (win2_1.rect t)).set ↔ _
  rw [View.set_slice_whole, Rect.mem_set_unit]
  exact Iff.rfl

/-- Every index of the array is in the block of the point that holds its row: row `p` is in block `p / 2000`. -/
theorem cover2 (i : S50000x64.Idx) :
    ∃ t : Fin cfg2.N, (cfg2.win 1).flush t = true ∧ i ∈ ((cfg2.win 1).blk t).view.set := by
  have hi0 : (i 0).val < 50000 := (i 0).isLt
  have hi1 : (i 1).val < 64 := (i 1).isLt
  have ht : (i 0).val / 2000 < cfg2.N := by show (i 0).val / 2000 < 25; omega
  have e2 : win2_1.index ⟨(i 0).val / 2000, ht⟩ (0 : Fin 2) = (i 0).val / 2000 := (idx_facts2 ⟨_, ht⟩).2.2.1
  have e3 : win2_1.index ⟨(i 0).val / 2000, ht⟩ (1 : Fin 2) = 0 := (idx_facts2 ⟨_, ht⟩).2.2.2
  refine ⟨⟨(i 0).val / 2000, ht⟩, flush2_1 _, ?_⟩
  rw [mem_blk2]
  intro a
  match a with
  | ⟨0, _⟩ =>
    show win2_1.index ⟨(i 0).val / 2000, ht⟩ (0 : Fin 2) * 2000 ≤ (i 0).val
      ∧ (i 0).val < win2_1.index ⟨(i 0).val / 2000, ht⟩ (0 : Fin 2) * 2000 + 2000
    omega
  | ⟨1, _⟩ =>
    show win2_1.index ⟨(i 0).val / 2000, ht⟩ (1 : Fin 2) * 64 ≤ (i 1).val
      ∧ (i 1).val < win2_1.index ⟨(i 0).val / 2000, ht⟩ (1 : Fin 2) * 64 + 64
    omega

/-- The output array after the region: the epilogue of the input array as the region finds it. -/
theorem final2 (c : Dev nD) :
    (dat2 (F := Ideal) V c).arrAt 1 cfg2.N
      = epi (Ideal.ofBits .f32 0x3E4CCCCD#32) (Ideal.ofBits .f32 0x2B8CBCCC#32) (V c (Pipeline.arrRef spec2 0)) :=
  (dat2 (F := Ideal) V c).arrAt_eq_of_cover 1 _ (fun t _ => flushed2_eq V c t) cover2

end Cert.KernelIdeal.Hand

end
-- ==== Proof.EpiValue4.lean ====
/- Region 4 of @main at the ideal values: the array its output window leaves after the whole grid is the node epilogue
   of the array its input window reads, whatever the region-entry contents. Each grid point writes back the epilogue
   of its own block of rows, a row's result depends on that row alone, and the 50 blocks of 2000 rows cover the 100000 rows. -/
import proofs.«155537_j65712999628849_1_alg».proof.Proof.EpiRegion4
import proofs.«155537_j65712999628849_1_alg».proof.Proof.EpiPayload
import proofs.«155537_j65712999628849_1_alg».proof.Proof.EpiLeaky
import proofs.«155537_j65712999628849_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx Cert.Dense Cert.Ngcf
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The printed index maps, decided over the grid: at point `t` both windows are on block row `t`, block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row `r` of the block at point `t` is row `2000 t + r` of the array. -/
theorem blockRow4_lt (t : Fin cfg4.N) (r : Fin 2000) : t.val * 2000 + r.val < 100000 := by
  have ht : t.val < 50 := t.isLt
  have hr := r.isLt
  omega

/-- The input window's block at point `t`, read at `(r, k)`, is the array at row `2000 t + r`. -/
theorem iblk4_0_apply (c : Dev nD) (t : Fin cfg4.N) (r : Fin 2000) (k : Fin 64) :
    iblk4 V c 0 t (ix2 r k) = V c (Pipeline.arrRef spec4 0) (ix2 ⟨t.val * 2000 + r.val, blockRow4_lt t r⟩ k) := by
  show V c (Pipeline.arrRef spec4 0) (((cfg4.win 0).blk t).view.emb (ix2 r k)) = _
  refine congrArg (V c (Pipeline.arrRef spec4 0)) (funext fun a => Fin.ext ?_)
  obtain ⟨e0, e1, -, -⟩ := idx_facts4 t
  match a with
  | ⟨0, _⟩ => show win4_0.index t (0 : Fin 2) * 2000 + 1 * r.val = t.val * 2000 + r.val; omega
  | ⟨1, _⟩ => show win4_0.index t (1 : Fin 2) * 64 + 1 * k.val = k.val; omega

/-- The output window's block at point `t` embeds `(r, q)` at row `2000 t + r`, column `q`. -/
theorem oemb4 (t : Fin cfg4.N) (r : Fin 2000) (q : Fin 64) :
    ((cfg4.win 1).blk t).view.emb (ix2 r q) = ix2 ⟨t.val * 2000 + r.val, blockRow4_lt t r⟩ q := by
  refine funext fun a => Fin.ext ?_
  obtain ⟨-, -, e2, e3⟩ := idx_facts4 t
  match a with
  | ⟨0, _⟩ => show win4_1.index t (0 : Fin 2) * 2000 + 1 * r.val = t.val * 2000 + r.val; omega
  | ⟨1, _⟩ => show win4_1.index t (1 : Fin 2) * 64 + 1 * q.val = q.val; omega

/-- What point `t` writes back is block `t` of the epilogue of the input array as the region finds it. -/
theorem flushed4_eq (c : Dev nD) (t : Fin cfg4.N) :
    (dat4 (F := Ideal) V c).flushed 1 t = ((cfg4.win 1).blk t).view.read (Elt Ideal)
      (epi (Ideal.ofBits .f32 0x3E4CCCCD#32) (Ideal.ofBits .f32 0x2B8CBCCC#32) (V c (Pipeline.arrRef spec4 0))) := by
  show (cfg4.win 1).cut (grid4.coords t) ((dat4 V c).after 1 t) = _
  rw [after4_1]
  unfold out4_1
  rw [View.canon_unit_zero zeroOff4]
  simp only [View.ld_unit_zero (S := S2000x64) zeroOff4]
  rw [k4_pay1_eq]
  funext j
  obtain ⟨r, q, rfl⟩ : ∃ (r : Fin 2000) (q : Fin 64), j = ix2 r q := ⟨j 0, j 1, eq_ix2 j⟩
  show k1_pay1 (F := Ideal) (iblk4 V c 0 t) (ix2 r q)
    = epi (Ideal.ofBits .f32 0x3E4CCCCD#32) (Ideal.ofBits .f32 0x2B8CBCCC#32) (V c (Pipeline.arrRef spec4 0))
        (((cfg4.win 1).blk t).view.emb (ix2 r q))
  rw [oemb4]
  refine (k1_pay1_apply _ r q).trans ?_
  exact epi_rows _ _ _ _ _ _ (fun k => iblk4_0_apply V c t r k) q

/-- An index of the array is in point `t`'s block iff each coordinate is in the block's range on its axis. -/
theorem mem_blk4 (t : Fin cfg4.N) (i : S100000x64.Idx) :
    i ∈ ((cfg4.win 1).blk t).view.set ↔ ∀ a : Fin 2, win4_1.index t a * S2000x64.size a ≤ (i a).val ∧ (i a).val < win4_1.index t a * S2000x64.size a + S2000x64.size a := by
  show i ∈ ((View.whole main_v86).slice (win4_1.rect t)).set ↔ _
  rw [View.set_slice_whole, Rect.mem_set_unit]
  exact Iff.rfl

/-- Every index of the array is in the block of the point that holds its row: row `p` is in block `p / 2000`. -/
theorem cover4 (i : S100000x64.Idx) :
    ∃ t : Fin cfg4.N, (cfg4.win 1).flush t = true ∧ i ∈ ((cfg4.win 1).blk t).view.set := by
  have hi0 : (i 0).val < 100000 := (i 0).isLt
  have hi1 : (i 1).val < 64 := (i 1).isLt
  have ht : (i 0).val / 2000 < cfg4.N := by show (i 0).val / 2000 < 50; omega
  have e2 : win4_1.index ⟨(i 0).val / 2000, ht⟩ (0 : Fin 2) = (i 0).val / 2000 := (idx_facts4 ⟨_, ht⟩).2.2.1
  have e3 : win4_1.index ⟨(i 0).val / 2000, ht⟩ (1 : Fin 2) = 0 := (idx_facts4 ⟨_, ht⟩).2.2.2
  refine ⟨⟨(i 0).val / 2000, ht⟩, flush4_1 _, ?_⟩
  rw [mem_blk4]
  intro a
  match a with
  | ⟨0, _⟩ =>
    show win4_1.index ⟨(i 0).val / 2000, ht⟩ (0 : Fin 2) * 2000 ≤ (i 0).val
      ∧ (i 0).val < win4_1.index ⟨(i 0).val / 2000, ht⟩ (0 : Fin 2) * 2000 + 2000
    omega
  | ⟨1, _⟩ =>
    show win4_1.index ⟨(i 0).val / 2000, ht⟩ (1 : Fin 2) * 64 ≤ (i 1).val
      ∧ (i 1).val < win4_1.index ⟨(i 0).val / 2000, ht⟩ (1 : Fin 2) * 64 + 64
    omega

/-- The output array after the region: the epilogue of the input array as the region finds it. -/
theorem final4 (c : Dev nD) :
    (dat4 (F := Ideal) V c).arrAt 1 cfg4.N
      = epi (Ideal.ofBits .f32 0x3E4CCCCD#32) (Ideal.ofBits .f32 0x2B8CBCCC#32) (V c (Pipeline.arrRef spec4 0)) :=
  (dat4 (F := Ideal) V c).arrAt_eq_of_cover 1 _ (fun t _ => flushed4_eq V c t) cover4

end Cert.KernelIdeal.Hand

end
-- ==== Proof.EpiValue5.lean ====
/- Region 5 of @main at the ideal values: the array its output window leaves after the whole grid is the node epilogue
   of the array its input window reads, whatever the region-entry contents. Each grid point writes back the epilogue
   of its own block of rows, a row's result depends on that row alone, and the 25 blocks of 2000 rows cover the 50000 rows. -/
import proofs.«155537_j65712999628849_1_alg».proof.Proof.EpiRegion5
import proofs.«155537_j65712999628849_1_alg».proof.Proof.EpiPayload
import proofs.«155537_j65712999628849_1_alg».proof.Proof.EpiLeaky
import proofs.«155537_j65712999628849_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx Cert.Dense Cert.Ngcf
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The printed index maps, decided over the grid: at point `t` both windows are on block row `t`, block column 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- Row `r` of the block at point `t` is row `2000 t + r` of the array. -/
theorem blockRow5_lt (t : Fin cfg5.N) (r : Fin 2000) : t.val * 2000 + r.val < 50000 := by
  have ht : t.val < 25 := t.isLt
  have hr := r.isLt
  omega

/-- The input window's block at point `t`, read at `(r, k)`, is the array at row `2000 t + r`. -/
theorem iblk5_0_apply (c : Dev nD) (t : Fin cfg5.N) (r : Fin 2000) (k : Fin 64) :
    iblk5 V c 0 t (ix2 r k) = V c (Pipeline.arrRef spec5 0) (ix2 ⟨t.val * 2000 + r.val, blockRow5_lt t r⟩ k) := by
  show V c (Pipeline.arrRef spec5 0) (((cfg5.win 0).blk t).view.emb (ix2 r k)) = _
  refine congrArg (V c (Pipeline.arrRef spec5 0)) (funext fun a => Fin.ext ?_)
  obtain ⟨e0, e1, -, -⟩ := idx_facts5 t
  match a with
  | ⟨0, _⟩ => show win5_0.index t (0 : Fin 2) * 2000 + 1 * r.val = t.val * 2000 + r.val; omega
  | ⟨1, _⟩ => show win5_0.index t (1 : Fin 2) * 64 + 1 * k.val = k.val; omega

/-- The output window's block at point `t` embeds `(r, q)` at row `2000 t + r`, column `q`. -/
theorem oemb5 (t : Fin cfg5.N) (r : Fin 2000) (q : Fin 64) :
    ((cfg5.win 1).blk t).view.emb (ix2 r q) = ix2 ⟨t.val * 2000 + r.val, blockRow5_lt t r⟩ q := by
  refine funext fun a => Fin.ext ?_
  obtain ⟨-, -, e2, e3⟩ := idx_facts5 t
  match a with
  | ⟨0, _⟩ => show win5_1.index t (0 : Fin 2) * 2000 + 1 * r.val = t.val * 2000 + r.val; omega
  | ⟨1, _⟩ => show win5_1.index t (1 : Fin 2) * 64 + 1 * q.val = q.val; omega

/-- What point `t` writes back is block `t` of the epilogue of the input array as the region finds it. -/
theorem flushed5_eq (c : Dev nD) (t : Fin cfg5.N) :
    (dat5 (F := Ideal) V c).flushed 1 t = ((cfg5.win 1).blk t).view.read (Elt Ideal)
      (epi (Ideal.ofBits .f32 0x3E4CCCCD#32) (Ideal.ofBits .f32 0x2B8CBCCC#32) (V c (Pipeline.arrRef spec5 0))) := by
  show (cfg5.win 1).cut (grid5.coords t) ((dat5 V c).after 1 t) = _
  rw [after5_1]
  unfold out5_1
  rw [View.canon_unit_zero zeroOff5]
  simp only [View.ld_unit_zero (S := S2000x64) zeroOff5]
  rw [k5_pay1_eq]
  funext j
  obtain ⟨r, q, rfl⟩ : ∃ (r : Fin 2000) (q : Fin 64), j = ix2 r q := ⟨j 0, j 1, eq_ix2 j⟩
  show k1_pay1 (F := Ideal) (iblk5 V c 0 t) (ix2 r q)
    = epi (Ideal.ofBits .f32 0x3E4CCCCD#32) (Ideal.ofBits .f32 0x2B8CBCCC#32) (V c (Pipeline.arrRef spec5 0))
        (((cfg5.win 1).blk t).view.emb (ix2 r q))
  rw [oemb5]
  refine (k1_pay1_apply _ r q).trans ?_
  exact epi_rows _ _ _ _ _ _ (fun k => iblk5_0_apply V c t r k) q

/-- An index of the array is in point `t`'s block iff each coordinate is in the block's range on its axis. -/
theorem mem_blk5 (t : Fin cfg5.N) (i : S50000x64.Idx) :
    i ∈ ((cfg5.win 1).blk t).view.set ↔ ∀ a : Fin 2, win5_1.index t a * S2000x64.size a ≤ (i a).val ∧ (i a).val < win5_1.index t a * S2000x64.size a + S2000x64.size a := by
  show i ∈ ((View.whole main_v87).slice (win5_1.rect t)).set ↔ _
  rw [View.set_slice_whole, Rect.mem_set_unit]
  exact Iff.rfl

/-- Every index of the array is in the block of the point that holds its row: row `p` is in block `p / 2000`. -/
theorem cover5 (i : S50000x64.Idx) :
    ∃ t : Fin cfg5.N, (cfg5.win 1).flush t = true ∧ i ∈ ((cfg5.win 1).blk t).view.set := by
  have hi0 : (i 0).val < 50000 := (i 0).isLt
  have hi1 : (i 1).val < 64 := (i 1).isLt
  have ht : (i 0).val / 2000 < cfg5.N := by show (i 0).val / 2000 < 25; omega
  have e2 : win5_1.index ⟨(i 0).val / 2000, ht⟩ (0 : Fin 2) = (i 0).val / 2000 := (idx_facts5 ⟨_, ht⟩).2.2.1
  have e3 : win5_1.index ⟨(i 0).val / 2000, ht⟩ (1 : Fin 2) = 0 := (idx_facts5 ⟨_, ht⟩).2.2.2
  refine ⟨⟨(i 0).val / 2000, ht⟩, flush5_1 _, ?_⟩
  rw [mem_blk5]
  intro a
  match a with
  | ⟨0, _⟩ =>
    show win5_1.index ⟨(i 0).val / 2000, ht⟩ (0 : Fin 2) * 2000 ≤ (i 0).val
      ∧ (i 0).val < win5_1.index ⟨(i 0).val / 2000, ht⟩ (0 : Fin 2) * 2000 + 2000
    omega
  | ⟨1, _⟩ =>
    show win5_1.index ⟨(i 0).val / 2000, ht⟩ (1 : Fin 2) * 64 ≤ (i 1).val
      ∧ (i 1).val < win5_1.index ⟨(i 0).val / 2000, ht⟩ (1 : Fin 2) * 64 + 64
    omega

/-- The output array after the region: the epilogue of the input array as the region finds it. -/
theorem final5 (c : Dev nD) :
    (dat5 (F := Ideal) V c).arrAt 1 cfg5.N
      = epi (Ideal.ofBits .f32 0x3E4CCCCD#32) (Ideal.ofBits .f32 0x2B8CBCCC#32) (V c (Pipeline.arrRef spec5 0)) :=
  (dat5 (F := Ideal) V c).arrAt_eq_of_cover 1 _ (fun t _ => flushed5_eq V c t) cover5

end Cert.KernelIdeal.Hand

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KRead.lean ====
/-
  The values the kernel's program leaves in its three result arrays, read back through @main on the extended reals.

  The host operations between the kernel regions are spelled as functions of the arrays they read (`kSrc`, `kDst`: the two
  rows of the edge array; `kDegU`, `kDegI`: the number of edges at each edge's source and target node; `kNv27`, `kNvCol`:
  the edge normalisation `(deg_src · deg_dst) ^ (-1/2)` as a vector and as a column; `kPadI`, `kPadN`: an index vector and
  a column padded with zeros to the kernels' row count; `kRow`: a bias as a one-row array; `kFinalU`, `kFinalI`: three
  tables side by side looked up at a batch of node numbers). Each stretch of host operations is read once, at any
  contents of the buffers (`a…_…`); the contents are then followed item by item from the launch memory to the three
  results (`kv…`), a region's output being its kernel's array function of the region's inputs.
-/
import proofs.«155537_j65712999628849_1_alg».proof.Proof.Assembly
import proofs.«155537_j65712999628849_1_alg».proof.Proof.KHost
import proofs.«155537_j65712999628849_1_alg».proof.Proof.EdgeValue0
import proofs.«155537_j65712999628849_1_alg».proof.Proof.EdgeValue3
import proofs.«155537_j65712999628849_1_alg».proof.Proof.EpiValue1
import proofs.«155537_j65712999628849_1_alg».proof.Proof.EpiValue2
import proofs.«155537_j65712999628849_1_alg».proof.Proof.EpiValue4
import proofs.«155537_j65712999628849_1_alg».proof.Proof.EpiValue5
import proofs.«155537_j65712999628849_1_alg».proof.Proof.LibTypedRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.ValueIdx Cert.Dense Cert.Ngcf

/-! ## The host operations as functions -/

/-- An index vector over the true edges with negative entries counted from the end, as a column. -/
def kWrapE (nn : BitVec 32) (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 nn))) r)

/-- Row `0` (the source entries) and row `1` (the target entries) of the edge array, as vectors. -/
def kSrc (a10 : IVec S2x1000000 32) : IVec S1000000 32 :=
  shapeCast S1000000 (extractStridedSlice S1x1000000 ![0, 0] a10 slices_S2x1000000_S1x1000000_0_0) shapeCasts_S1x1000000_S1000000
def kDst (a10 : IVec S2x1000000 32) : IVec S1000000 32 :=
  shapeCast S1000000 (extractStridedSlice S1x1000000 ![1, 0] a10 slices_S2x1000000_S1x1000000_1_0) shapeCasts_S1x1000000_S1000000

/-- The number of edges at each edge's source node, and at each edge's target node. -/
def kDegU (r : IVec S1000000 32) : FVec Ideal S1000000 .f32 :=
  Host.gather gather_S100000_S1000000x1_S1000000_n_0_n_n_0_1_1
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 r)
      (broadcastInDim S1000000 ![] bcast_S_S1000000 (constant (F := Ideal) S_ .f32 0x3F800000#32)))
    (kWrapE 100000#32 r)
def kDegI (r : IVec S1000000 32) : FVec Ideal S1000000 .f32 :=
  Host.gather gather_S50000_S1000000x1_S1000000_n_0_n_n_0_1_1
    (Host.scatterAdd (F := Ideal) scatter_S50000_S1000000x1_S1000000_n_0_0_1
      (broadcastInDim S50000 ![] bcast_S_S50000 (constant (F := Ideal) S_ .f32 0x00000000#32))
      (broadcastInDim S1000000x1 ![0] bcast_S1000000_S1000000x1_0 r)
      (broadcastInDim S1000000 ![] bcast_S_S1000000 (constant (F := Ideal) S_ .f32 0x3F800000#32)))
    (kWrapE 50000#32 r)

/-- The edge normalisation `(deg_src · deg_dst) ^ (-1/2)` as a vector, and as a column. -/
def kNv27 (a10 : IVec S2x1000000 32) : FVec Ideal S1000000 .f32 :=
  Host.powf (F := Ideal) (mulf (kDegU (kSrc a10)) (kDegI (kDst a10)))
    (broadcastInDim S1000000 ![] bcast_S_S1000000 (constant (F := Ideal) S_ .f32 0xBF000000#32))
def kNvCol (a10 : IVec S2x1000000 32) : FVec Ideal S1000000x1 .f32 :=
  shapeCast S1000000x1 (kNv27 a10) shapeCasts_S1000000_S1000000x1

/-- An index vector padded with zeros to the kernels' row count. -/
def kPadI (r : IVec S1000000 32) : IVec S1003520 32 :=
  pad S1003520 ![0] ![3520] ![0] r (constantI S_ 32 0#32) pads_S1000000_S1003520_035200 h_S_
/-- A column padded with zeros to the kernels' row count. -/
def kPadN (x : FVec Ideal S1000000x1 .f32) : FVec Ideal S1003520x1 .f32 :=
  pad S1003520x1 ![0, 0] ![3520, 0] ![0, 0] x (sitofp (F := Ideal) .f32 (constantI S_ 32 0#32)) pads_S1000000x1_S1003520x1_035200_000 h_S_
/-- A bias vector as a one-row array. -/
def kRow (b : FVec Ideal S64 .f32) : FVec Ideal S1x64 .f32 := shapeCast S1x64 b shapeCasts_S64_S1x64

/-- A batch of node numbers with negative entries counted from the end, as a column. -/
def kWrapB (nn : BitVec 32) (r : IVec S16384 32) : IVec S16384x1 32 :=
  broadcastInDim S16384x1 ![0] bcast_S16384_S16384x1_0
    (select (cmpi .slt r (broadcastInDim S16384 ![] bcast_S_S16384 (constantI S_ 32 0#32)))
      (addi r (broadcastInDim S16384 ![] bcast_S_S16384 (constantI S_ 32 nn))) r)

/-- The rows of the three tables side by side, looked up at a batch of users. -/
def kFinalU (A B C : FVec Ideal S100000x64 .f32) (idx : IVec S16384 32) : FVec Ideal S16384x192 .f32 :=
  Host.gather gather_S100000x192_S16384x1_S16384x192_1_0_n_n_0_1_1192
    (concatenate S100000x192 1 [⟨S100000x64, A⟩, ⟨S100000x64, B⟩, ⟨S100000x64, C⟩]
      concatenates_S100000x64_S100000x64_S100000x64_S100000x192_d1)
    (kWrapB 100000#32 idx)
/-- The rows of the three tables side by side, looked up at a batch of items. -/
def kFinalI (A B C : FVec Ideal S50000x64 .f32) (idx : IVec S16384 32) : FVec Ideal S16384x192 .f32 :=
  Host.gather gather_S50000x192_S16384x1_S16384x192_1_0_n_n_0_1_1192
    (concatenate S50000x192 1 [⟨S50000x64, A⟩, ⟨S50000x64, B⟩, ⟨S50000x64, C⟩]
      concatenates_S50000x64_S50000x64_S50000x64_S50000x192_d1)
    (kWrapB 50000#32 idx)

/-! ## Each stretch of host operations, read at any contents `W` of the buffers -/

section Stretches

variable (W : Valuation τ sig (Elt Ideal))

set_option maxHeartbeats 4000000 in
theorem a0_v1 : StableHlo.after hostOps0 W (Proc.devRef .tc main_v1) = kSrc (W main_arg10) := by
  after_results_simp; rfl
set_option maxHeartbeats 4000000 in
theorem a0_v3 : StableHlo.after hostOps0 W (Proc.devRef .tc main_v3) = kDst (W main_arg10) := by
  after_results_simp; rfl
set_option maxHeartbeats 4000000 in
theorem a0_c6 : StableHlo.after hostOps0 W (Proc.devRef .tc main_c_6) = constantI S_ 32 0#32 := by
  after_results_simp
set_option maxHeartbeats 8000000 in
theorem a0_v28 : StableHlo.after hostOps0 W (Proc.devRef .tc main_v28) = kNvCol (W main_arg10) := by
  after_results_simp; rfl

set_option maxHeartbeats 4000000 in
theorem a01_v29 : StableHlo.after hostOps0_1 W (Proc.devRef .tc main_v29)
    = pad S1003520 ![0] ![3520] ![0] (W main_v1) (W main_c_6) pads_S1000000_S1003520_035200 h_S_ := by
  after_results; simp only [Cert.TypedRef.ofBuf_toBuf]; rfl
theorem a02_c7 : StableHlo.after hostOps0_2 W (Proc.devRef .tc main_c_7) = constantI S_ 32 0#32 := by
  after_results
set_option maxHeartbeats 4000000 in
theorem a03_v30 : StableHlo.after hostOps0_3 W (Proc.devRef .tc main_v30)
    = pad S1003520 ![0] ![3520] ![0] (W main_v3) (W main_c_7) pads_S1000000_S1003520_035200 h_S_ := by
  after_results; simp only [Cert.TypedRef.ofBuf_toBuf]; rfl
theorem a04_c8 : StableHlo.after hostOps0_4 W (Proc.devRef .tc main_c_8) = constantI S_ 32 0#32 := by
  after_results
set_option maxHeartbeats 4000000 in
theorem a05_v31 : StableHlo.after hostOps0_5 W (Proc.devRef .tc main_v31)
    = pad S1003520x1 ![0, 0] ![3520, 0] ![0, 0] (W main_v28) (sitofp (F := Ideal) .f32 (W main_c_8)) pads_S1000000x1_S1003520x1_035200_000 h_S_ := by
  after_results; simp only [Cert.TypedRef.ofBuf_toBuf]; rfl

set_option maxHeartbeats 4000000 in
theorem a06_v46 : StableHlo.after hostOps0_6 W (Proc.devRef .tc main_v46)
    = kComb (W main_arg0) (W main_arg1) (W main_v29) (W main_v30) := by
  after_results; rfl
set_option maxHeartbeats 4000000 in
theorem a06_v47 : StableHlo.after hostOps0_6 W (Proc.devRef .tc main_v47) = kRow (W main_arg3) := by
  after_results; rfl
set_option maxHeartbeats 4000000 in
theorem a06_v48 : StableHlo.after hostOps0_6 W (Proc.devRef .tc main_v48) = kRow (W main_arg5) := by
  after_results; rfl

set_option maxHeartbeats 4000000 in
theorem a1_v54 : StableHlo.after hostOps1 W (Proc.devRef .tc main_v54) = kAggI (W main_v49) (W main_v30) := by
  after_results; rfl
set_option maxHeartbeats 4000000 in
theorem a1_v57 : StableHlo.after hostOps1 W (Proc.devRef .tc main_v57) = kAggU (W main_v49) (W main_v29) := by
  after_results; rfl

set_option maxHeartbeats 4000000 in
theorem a3_v74 : StableHlo.after hostOps3 W (Proc.devRef .tc main_v74)
    = kComb (W main_v58) (W main_v59) (W main_v29) (W main_v30) := by
  after_results; rfl
set_option maxHeartbeats 4000000 in
theorem a3_v75 : StableHlo.after hostOps3 W (Proc.devRef .tc main_v75) = kRow (W main_arg7) := by
  after_results; rfl
set_option maxHeartbeats 4000000 in
theorem a3_v76 : StableHlo.after hostOps3 W (Proc.devRef .tc main_v76) = kRow (W main_arg9) := by
  after_results; rfl

set_option maxHeartbeats 4000000 in
theorem a4_v82 : StableHlo.after hostOps4 W (Proc.devRef .tc main_v82) = kAggI (W main_v77) (W main_v30) := by
  after_results; rfl
set_option maxHeartbeats 4000000 in
theorem a4_v85 : StableHlo.after hostOps4 W (Proc.devRef .tc main_v85) = kAggU (W main_v77) (W main_v29) := by
  after_results; rfl

set_option maxHeartbeats 8000000 in
theorem a6_v96 : StableHlo.after hostOps6 W (Proc.devRef .tc main_v96)
    = kFinalU (W main_arg0) (W main_v58) (W main_v86) (W main_arg11) := by
  after_results_simp; rfl
set_option maxHeartbeats 8000000 in
theorem a6_v103 : StableHlo.after hostOps6 W (Proc.devRef .tc main_v103)
    = kFinalI (W main_arg1) (W main_v59) (W main_v87) (W main_arg12) := by
  after_results_simp; rfl
set_option maxHeartbeats 8000000 in
theorem a6_v110 : StableHlo.after hostOps6 W (Proc.devRef .tc main_v110)
    = kFinalI (W main_arg1) (W main_v59) (W main_v87) (W main_arg13) := by
  after_results_simp; rfl

end Stretches

/-! ## The contents followed through @main -/

variable (m : (ℓ : Loc nD τ sig) → Buf (Elt Ideal) ℓ)

/-- The padded source and target entries, the padded normalisation column, and the node epilogue. -/
def kSp (c : Dev nD) : IVec S1003520 32 := kPadI (kSrc (m ((c : Thread nD τ).loc main_arg10)))
def kDp (c : Dev nD) : IVec S1003520 32 := kPadI (kDst (m ((c : Thread nD τ).loc main_arg10)))
def kNrmP (c : Dev nD) : FVec Ideal S1003520x1 .f32 := kPadN (kNvCol (m ((c : Thread nD τ).loc main_arg10)))
abbrev kEp {n : ℕ} (X : Mat n 64) : Mat n 64 := epi (Ideal.ofBits .f32 0x3E4CCCCD#32) (Ideal.ofBits .f32 0x2B8CBCCC#32) X

/-- The first layer's message block and node tables, then the second layer's. -/
def kE49 (c : Dev nD) : Mat nP 128 :=
  edgeOut (kComb (m ((c : Thread nD τ).loc main_arg0)) (m ((c : Thread nD τ).loc main_arg1)) (kSp m c) (kDp m c)) (kNrmP m c) (m ((c : Thread nD τ).loc main_arg2)) (kRow (m ((c : Thread nD τ).loc main_arg3))) (m ((c : Thread nD τ).loc main_arg4)) (kRow (m ((c : Thread nD τ).loc main_arg5)))
def kU1 (c : Dev nD) : Mat 100000 64 := kEp (kAggU (kE49 m c) (kSp m c))
def kI1 (c : Dev nD) : Mat 50000 64 := kEp (kAggI (kE49 m c) (kDp m c))
def kE77 (c : Dev nD) : Mat nP 128 :=
  edgeOut (kComb (kU1 m c) (kI1 m c) (kSp m c) (kDp m c)) (kNrmP m c) (m ((c : Thread nD τ).loc main_arg6)) (kRow (m ((c : Thread nD τ).loc main_arg7))) (m ((c : Thread nD τ).loc main_arg8)) (kRow (m ((c : Thread nD τ).loc main_arg9)))
def kU2 (c : Dev nD) : Mat 100000 64 := kEp (kAggU (kE77 m c) (kSp m c))
def kI2 (c : Dev nD) : Mat 50000 64 := kEp (kAggI (kE77 m c) (kDp m c))

/-! ### The arguments are never written -/

theorem c6_arg0 (c : Dev nD) : V6 m c main_arg0 = (m ((c : Thread nD τ).loc main_arg0)) :=
  ((V6_of m c main_arg0 (by decide)).trans ((V5_of m c main_arg0 (by decide)).trans ((V4_of m c main_arg0 (by decide)).trans ((V3_of m c main_arg0 (by decide)).trans ((V2_of m c main_arg0 (by decide)).trans (V1_of m c main_arg0 (by decide)))))))
theorem c6_arg1 (c : Dev nD) : V6 m c main_arg1 = (m ((c : Thread nD τ).loc main_arg1)) :=
  ((V6_of m c main_arg1 (by decide)).trans ((V5_of m c main_arg1 (by decide)).trans ((V4_of m c main_arg1 (by decide)).trans ((V3_of m c main_arg1 (by decide)).trans ((V2_of m c main_arg1 (by decide)).trans (V1_of m c main_arg1 (by decide)))))))
theorem c7_arg2 (c : Dev nD) : V7 m c main_arg2 = (m ((c : Thread nD τ).loc main_arg2)) :=
  ((V7_of m c main_arg2 (by decide)).trans ((V6_of m c main_arg2 (by decide)).trans ((V5_of m c main_arg2 (by decide)).trans ((V4_of m c main_arg2 (by decide)).trans ((V3_of m c main_arg2 (by decide)).trans ((V2_of m c main_arg2 (by decide)).trans (V1_of m c main_arg2 (by decide))))))))
theorem c6_arg3 (c : Dev nD) : V6 m c main_arg3 = (m ((c : Thread nD τ).loc main_arg3)) :=
  ((V6_of m c main_arg3 (by decide)).trans ((V5_of m c main_arg3 (by decide)).trans ((V4_of m c main_arg3 (by decide)).trans ((V3_of m c main_arg3 (by decide)).trans ((V2_of m c main_arg3 (by decide)).trans (V1_of m c main_arg3 (by decide)))))))
theorem c7_arg4 (c : Dev nD) : V7 m c main_arg4 = (m ((c : Thread nD τ).loc main_arg4)) :=
  ((V7_of m c main_arg4 (by decide)).trans ((V6_of m c main_arg4 (by decide)).trans ((V5_of m c main_arg4 (by decide)).trans ((V4_of m c main_arg4 (by decide)).trans ((V3_of m c main_arg4 (by decide)).trans ((V2_of m c main_arg4 (by decide)).trans (V1_of m c main_arg4 (by decide))))))))
theorem c6_arg5 (c : Dev nD) : V6 m c main_arg5 = (m ((c : Thread nD τ).loc main_arg5)) :=
  ((V6_of m c main_arg5 (by decide)).trans ((V5_of m c main_arg5 (by decide)).trans ((V4_of m c main_arg5 (by decide)).trans ((V3_of m c main_arg5 (by decide)).trans ((V2_of m c main_arg5 (by decide)).trans (V1_of m c main_arg5 (by decide)))))))
theorem c12_arg6 (c : Dev nD) : V12 m (outs m) c main_arg6 = (m ((c : Thread nD τ).loc main_arg6)) :=
  ((V12_of m (outs m) c main_arg6 (by decide)).trans ((V11_of m (outs m) c main_arg6 (by decide)).trans ((V10_of m (outs m) c main_arg6 (by decide)).trans ((V9_of m (outs m) c main_arg6 (by decide)).trans ((V8_of m (outs m) c main_arg6 (by decide)).trans ((V7_of m c main_arg6 (by decide)).trans ((V6_of m c main_arg6 (by decide)).trans ((V5_of m c main_arg6 (by decide)).trans ((V4_of m c main_arg6 (by decide)).trans ((V3_of m c main_arg6 (by decide)).trans ((V2_of m c main_arg6 (by decide)).trans (V1_of m c main_arg6 (by decide)))))))))))))
theorem c11_arg7 (c : Dev nD) : V11 m (outs m) c main_arg7 = (m ((c : Thread nD τ).loc main_arg7)) :=
  ((V11_of m (outs m) c main_arg7 (by decide)).trans ((V10_of m (outs m) c main_arg7 (by decide)).trans ((V9_of m (outs m) c main_arg7 (by decide)).trans ((V8_of m (outs m) c main_arg7 (by decide)).trans ((V7_of m c main_arg7 (by decide)).trans ((V6_of m c main_arg7 (by decide)).trans ((V5_of m c main_arg7 (by decide)).trans ((V4_of m c main_arg7 (by decide)).trans ((V3_of m c main_arg7 (by decide)).trans ((V2_of m c main_arg7 (by decide)).trans (V1_of m c main_arg7 (by decide))))))))))))
theorem c12_arg8 (c : Dev nD) : V12 m (outs m) c main_arg8 = (m ((c : Thread nD τ).loc main_arg8)) :=
  ((V12_of m (outs m) c main_arg8 (by decide)).trans ((V11_of m (outs m) c main_arg8 (by decide)).trans ((V10_of m (outs m) c main_arg8 (by decide)).trans ((V9_of m (outs m) c main_arg8 (by decide)).trans ((V8_of m (outs m) c main_arg8 (by decide)).trans ((V7_of m c main_arg8 (by decide)).trans ((V6_of m c main_arg8 (by decide)).trans ((V5_of m c main_arg8 (by decide)).trans ((V4_of m c main_arg8 (by decide)).trans ((V3_of m c main_arg8 (by decide)).trans ((V2_of m c main_arg8 (by decide)).trans (V1_of m c main_arg8 (by decide)))))))))))))
theorem c11_arg9 (c : Dev nD) : V11 m (outs m) c main_arg9 = (m ((c : Thread nD τ).loc main_arg9)) :=
  ((V11_of m (outs m) c main_arg9 (by decide)).trans ((V10_of m (outs m) c main_arg9 (by decide)).trans ((V9_of m (outs m) c main_arg9 (by decide)).trans ((V8_of m (outs m) c main_arg9 (by decide)).trans ((V7_of m c main_arg9 (by decide)).trans ((V6_of m c main_arg9 (by decide)).trans ((V5_of m c main_arg9 (by decide)).trans ((V4_of m c main_arg9 (by decide)).trans ((V3_of m c main_arg9 (by decide)).trans ((V2_of m c main_arg9 (by decide)).trans (V1_of m c main_arg9 (by decide))))))))))))
theorem c16_arg0 (c : Dev nD) : V16 m (outs m) c main_arg0 = (m ((c : Thread nD τ).loc main_arg0)) :=
  ((V16_of m (outs m) c main_arg0 (by decide)).trans ((V15_of m (outs m) c main_arg0 (by decide)).trans ((V14_of m (outs m) c main_arg0 (by decide)).trans ((V13_of m (outs m) c main_arg0 (by decide)).trans ((V12_of m (outs m) c main_arg0 (by decide)).trans ((V11_of m (outs m) c main_arg0 (by decide)).trans ((V10_of m (outs m) c main_arg0 (by decide)).trans ((V9_of m (outs m) c main_arg0 (by decide)).trans ((V8_of m (outs m) c main_arg0 (by decide)).trans ((V7_of m c main_arg0 (by decide)).trans ((V6_of m c main_arg0 (by decide)).trans ((V5_of m c main_arg0 (by decide)).trans ((V4_of m c main_arg0 (by decide)).trans ((V3_of m c main_arg0 (by decide)).trans ((V2_of m c main_arg0 (by decide)).trans (V1_of m c main_arg0 (by decide)))))))))))))))))
theorem c16_arg1 (c : Dev nD) : V16 m (outs m) c main_arg1 = (m ((c : Thread nD τ).loc main_arg1)) :=
  ((V16_of m (outs m) c main_arg1 (by decide)).trans ((V15_of m (outs m) c main_arg1 (by decide)).trans ((V14_of m (outs m) c main_arg1 (by decide)).trans ((V13_of m (outs m) c main_arg1 (by decide)).trans ((V12_of m (outs m) c main_arg1 (by decide)).trans ((V11_of m (outs m) c main_arg1 (by decide)).trans ((V10_of m (outs m) c main_arg1 (by decide)).trans ((V9_of m (outs m) c main_arg1 (by decide)).trans ((V8_of m (outs m) c main_arg1 (by decide)).trans ((V7_of m c main_arg1 (by decide)).trans ((V6_of m c main_arg1 (by decide)).trans ((V5_of m c main_arg1 (by decide)).trans ((V4_of m c main_arg1 (by decide)).trans ((V3_of m c main_arg1 (by decide)).trans ((V2_of m c main_arg1 (by decide)).trans (V1_of m c main_arg1 (by decide)))))))))))))))))
theorem c16_arg11 (c : Dev nD) : V16 m (outs m) c main_arg11 = (m ((c : Thread nD τ).loc main_arg11)) :=
  ((V16_of m (outs m) c main_arg11 (by decide)).trans ((V15_of m (outs m) c main_arg11 (by decide)).trans ((V14_of m (outs m) c main_arg11 (by decide)).trans ((V13_of m (outs m) c main_arg11 (by decide)).trans ((V12_of m (outs m) c main_arg11 (by decide)).trans ((V11_of m (outs m) c main_arg11 (by decide)).trans ((V10_of m (outs m) c main_arg11 (by decide)).trans ((V9_of m (outs m) c main_arg11 (by decide)).trans ((V8_of m (outs m) c main_arg11 (by decide)).trans ((V7_of m c main_arg11 (by decide)).trans ((V6_of m c main_arg11 (by decide)).trans ((V5_of m c main_arg11 (by decide)).trans ((V4_of m c main_arg11 (by decide)).trans ((V3_of m c main_arg11 (by decide)).trans ((V2_of m c main_arg11 (by decide)).trans (V1_of m c main_arg11 (by decide)))))))))))))))))
theorem c16_arg12 (c : Dev nD) : V16 m (outs m) c main_arg12 = (m ((c : Thread nD τ).loc main_arg12)) :=
  ((V16_of m (outs m) c main_arg12 (by decide)).trans ((V15_of m (outs m) c main_arg12 (by decide)).trans ((V14_of m (outs m) c main_arg12 (by decide)).trans ((V13_of m (outs m) c main_arg12 (by decide)).trans ((V12_of m (outs m) c main_arg12 (by decide)).trans ((V11_of m (outs m) c main_arg12 (by decide)).trans ((V10_of m (outs m) c main_arg12 (by decide)).trans ((V9_of m (outs m) c main_arg12 (by decide)).trans ((V8_of m (outs m) c main_arg12 (by decide)).trans ((V7_of m c main_arg12 (by decide)).trans ((V6_of m c main_arg12 (by decide)).trans ((V5_of m c main_arg12 (by decide)).trans ((V4_of m c main_arg12 (by decide)).trans ((V3_of m c main_arg12 (by decide)).trans ((V2_of m c main_arg12 (by decide)).trans (V1_of m c main_arg12 (by decide)))))))))))))))))
theorem c16_arg13 (c : Dev nD) : V16 m (outs m) c main_arg13 = (m ((c : Thread nD τ).loc main_arg13)) :=
  ((V16_of m (outs m) c main_arg13 (by decide)).trans ((V15_of m (outs m) c main_arg13 (by decide)).trans ((V14_of m (outs m) c main_arg13 (by decide)).trans ((V13_of m (outs m) c main_arg13 (by decide)).trans ((V12_of m (outs m) c main_arg13 (by decide)).trans ((V11_of m (outs m) c main_arg13 (by decide)).trans ((V10_of m (outs m) c main_arg13 (by decide)).trans ((V9_of m (outs m) c main_arg13 (by decide)).trans ((V8_of m (outs m) c main_arg13 (by decide)).trans ((V7_of m c main_arg13 (by decide)).trans ((V6_of m c main_arg13 (by decide)).trans ((V5_of m c main_arg13 (by decide)).trans ((V4_of m c main_arg13 (by decide)).trans ((V3_of m c main_arg13 (by decide)).trans ((V2_of m c main_arg13 (by decide)).trans (V1_of m c main_arg13 (by decide)))))))))))))))))

/-! ### Items 0 to 6: the edge list, the normalisation, the first layer's inputs -/

theorem kv1_v1 (c : Dev nD) : V1 m c main_v1 = kSrc (m ((c : Thread nD τ).loc main_arg10)) := a0_v1 (V0 m c)
theorem kv1_v3 (c : Dev nD) : V1 m c main_v3 = kDst (m ((c : Thread nD τ).loc main_arg10)) := a0_v3 (V0 m c)
theorem kv1_v28 (c : Dev nD) : V1 m c main_v28 = kNvCol (m ((c : Thread nD τ).loc main_arg10)) := a0_v28 (V0 m c)
theorem kv1_c6 (c : Dev nD) : V1 m c main_c_6 = constantI S_ 32 0#32 := a0_c6 (V0 m c)
theorem kv2_v29 (c : Dev nD) : V2 m c main_v29 = kSp m c :=
  (a01_v29 (V1 m c)).trans (by rw [kv1_v1 m c, kv1_c6 m c]; rfl)
theorem kv3_v3 (c : Dev nD) : V3 m c main_v3 = kDst (m ((c : Thread nD τ).loc main_arg10)) :=
  (((V3_of m c main_v3 (by decide)).trans (V2_of m c main_v3 (by decide)))).trans (kv1_v3 m c)
theorem kv3_c7 (c : Dev nD) : V3 m c main_c_7 = constantI S_ 32 0#32 := a02_c7 (V2 m c)
theorem kv4_v30 (c : Dev nD) : V4 m c main_v30 = kDp m c :=
  (a03_v30 (V3 m c)).trans (by rw [kv3_v3 m c, kv3_c7 m c]; rfl)
theorem kv5_v28 (c : Dev nD) : V5 m c main_v28 = kNvCol (m ((c : Thread nD τ).loc main_arg10)) :=
  (((V5_of m c main_v28 (by decide)).trans ((V4_of m c main_v28 (by decide)).trans ((V3_of m c main_v28 (by decide)).trans (V2_of m c main_v28 (by decide)))))).trans (kv1_v28 m c)
theorem kv5_c8 (c : Dev nD) : V5 m c main_c_8 = constantI S_ 32 0#32 := a04_c8 (V4 m c)
theorem kv6_v31 (c : Dev nD) : V6 m c main_v31 = kNrmP m c :=
  (a05_v31 (V5 m c)).trans (by rw [kv5_v28 m c, kv5_c8 m c]; rfl)
theorem kv6_v29 (c : Dev nD) : V6 m c main_v29 = kSp m c :=
  (((V6_of m c main_v29 (by decide)).trans ((V5_of m c main_v29 (by decide)).trans ((V4_of m c main_v29 (by decide)).trans (V3_of m c main_v29 (by decide)))))).trans (kv2_v29 m c)
theorem kv6_v30 (c : Dev nD) : V6 m c main_v30 = kDp m c :=
  (((V6_of m c main_v30 (by decide)).trans (V5_of m c main_v30 (by decide)))).trans (kv4_v30 m c)
theorem kv7_v46 (c : Dev nD) : V7 m c main_v46 = kComb (m ((c : Thread nD τ).loc main_arg0)) (m ((c : Thread nD τ).loc main_arg1)) (kSp m c) (kDp m c) :=
  (a06_v46 (V6 m c)).trans (by rw [c6_arg0 m c, c6_arg1 m c, kv6_v29 m c, kv6_v30 m c])
theorem kv7_v47 (c : Dev nD) : V7 m c main_v47 = kRow (m ((c : Thread nD τ).loc main_arg3)) :=
  (a06_v47 (V6 m c)).trans (by rw [c6_arg3 m c])
theorem kv7_v48 (c : Dev nD) : V7 m c main_v48 = kRow (m ((c : Thread nD τ).loc main_arg5)) :=
  (a06_v48 (V6 m c)).trans (by rw [c6_arg5 m c])
theorem kv7_v31 (c : Dev nD) : V7 m c main_v31 = kNrmP m c :=
  ((V7_of m c main_v31 (by decide))).trans (kv6_v31 m c)

/-! ### Region 0 and the first aggregation -/

theorem kv8_v49 (c : Dev nD) : V8 m (outs m) c main_v49 = kE49 m c := by
  have e1 : V8 m (outs m) c main_v49 = outs m 8 main_v49 c := by rw [V8, Function.update_self]
  have e2 : outs m 8 main_v49 c
      = edgeOut (V7 m c main_v46) (V7 m c main_v31) (V7 m c main_arg2) (V7 m c main_v47) (V7 m c main_arg4) (V7 m c main_v48) :=
    (outs_v49 m c).trans (final0 (fun c b => V7 m c b) c)
  rw [e1, e2, kv7_v46 m c, kv7_v31 m c, c7_arg2 m c, kv7_v47 m c, c7_arg4 m c, kv7_v48 m c]; rfl
theorem kv8_v29 (c : Dev nD) : V8 m (outs m) c main_v29 = kSp m c :=
  (((V8_of m (outs m) c main_v29 (by decide)).trans (V7_of m c main_v29 (by decide)))).trans (kv6_v29 m c)
theorem kv8_v30 (c : Dev nD) : V8 m (outs m) c main_v30 = kDp m c :=
  (((V8_of m (outs m) c main_v30 (by decide)).trans (V7_of m c main_v30 (by decide)))).trans (kv6_v30 m c)
theorem kv9_v57 (c : Dev nD) : V9 m (outs m) c main_v57 = kAggU (kE49 m c) (kSp m c) :=
  (a1_v57 (V8 m (outs m) c)).trans (by rw [kv8_v49 m c, kv8_v29 m c])
theorem kv9_v54 (c : Dev nD) : V9 m (outs m) c main_v54 = kAggI (kE49 m c) (kDp m c) :=
  (a1_v54 (V8 m (outs m) c)).trans (by rw [kv8_v49 m c, kv8_v30 m c])

/-! ### Regions 1 and 2: the first layer's node tables -/

theorem kv10_v58 (c : Dev nD) : V10 m (outs m) c main_v58 = kU1 m c := by
  have e1 : V10 m (outs m) c main_v58 = outs m 10 main_v58 c := by rw [V10, Function.update_self]
  have e2 : outs m 10 main_v58 c = kEp (n := 100000) (V9 m (outs m) c main_v57) :=
    (outs_v58 m c).trans (final1 (fun c b => V9 m (outs m) c b) c)
  rw [e1, e2, kv9_v57 m c]; rfl
theorem kv10_v54 (c : Dev nD) : V10 m (outs m) c main_v54 = kAggI (kE49 m c) (kDp m c) :=
  ((V10_of m (outs m) c main_v54 (by decide))).trans (kv9_v54 m c)
theorem kv11_v59 (c : Dev nD) : V11 m (outs m) c main_v59 = kI1 m c := by
  have e1 : V11 m (outs m) c main_v59 = outs m 11 main_v59 c := by rw [V11, Function.update_self]
  have e2 : outs m 11 main_v59 c = kEp (n := 50000) (V10 m (outs m) c main_v54) :=
    (outs_v59 m c).trans (final2 (fun c b => V10 m (outs m) c b) c)
  rw [e1, e2, kv10_v54 m c]; rfl
theorem kv11_v58 (c : Dev nD) : V11 m (outs m) c main_v58 = kU1 m c :=
  ((V11_of m (outs m) c main_v58 (by decide))).trans (kv10_v58 m c)
theorem kv11_v29 (c : Dev nD) : V11 m (outs m) c main_v29 = kSp m c :=
  (((V11_of m (outs m) c main_v29 (by decide)).trans ((V10_of m (outs m) c main_v29 (by decide)).trans (V9_of m (outs m) c main_v29 (by decide))))).trans (kv8_v29 m c)
theorem kv11_v30 (c : Dev nD) : V11 m (outs m) c main_v30 = kDp m c :=
  (((V11_of m (outs m) c main_v30 (by decide)).trans ((V10_of m (outs m) c main_v30 (by decide)).trans (V9_of m (outs m) c main_v30 (by decide))))).trans (kv8_v30 m c)

/-! ### Item 11, region 3 and the second aggregation -/

theorem kv12_v74 (c : Dev nD) : V12 m (outs m) c main_v74 = kComb (kU1 m c) (kI1 m c) (kSp m c) (kDp m c) :=
  (a3_v74 (V11 m (outs m) c)).trans (by rw [kv11_v58 m c, kv11_v59 m c, kv11_v29 m c, kv11_v30 m c])
theorem kv12_v75 (c : Dev nD) : V12 m (outs m) c main_v75 = kRow (m ((c : Thread nD τ).loc main_arg7)) :=
  (a3_v75 (V11 m (outs m) c)).trans (by rw [c11_arg7 m c])
theorem kv12_v76 (c : Dev nD) : V12 m (outs m) c main_v76 = kRow (m ((c : Thread nD τ).loc main_arg9)) :=
  (a3_v76 (V11 m (outs m) c)).trans (by rw [c11_arg9 m c])
theorem kv12_v31 (c : Dev nD) : V12 m (outs m) c main_v31 = kNrmP m c :=
  (((V12_of m (outs m) c main_v31 (by decide)).trans ((V11_of m (outs m) c main_v31 (by decide)).trans ((V10_of m (outs m) c main_v31 (by decide)).trans ((V9_of m (outs m) c main_v31 (by decide)).trans (V8_of m (outs m) c main_v31 (by decide))))))).trans (kv7_v31 m c)
theorem kv13_v77 (c : Dev nD) : V13 m (outs m) c main_v77 = kE77 m c := by
  have e1 : V13 m (outs m) c main_v77 = outs m 13 main_v77 c := by rw [V13, Function.update_self]
  have e2 : outs m 13 main_v77 c
      = edgeOut (V12 m (outs m) c main_v74) (V12 m (outs m) c main_v31) (V12 m (outs m) c main_arg6) (V12 m (outs m) c main_v75)
          (V12 m (outs m) c main_arg8) (V12 m (outs m) c main_v76) :=
    (outs_v77 m c).trans (final3 (fun c b => V12 m (outs m) c b) c)
  rw [e1, e2, kv12_v74 m c, kv12_v31 m c, c12_arg6 m c, kv12_v75 m c, c12_arg8 m c, kv12_v76 m c]; rfl
theorem kv13_v29 (c : Dev nD) : V13 m (outs m) c main_v29 = kSp m c :=
  (((V13_of m (outs m) c main_v29 (by decide)).trans (V12_of m (outs m) c main_v29 (by decide)))).trans (kv11_v29 m c)
theorem kv13_v30 (c : Dev nD) : V13 m (outs m) c main_v30 = kDp m c :=
  (((V13_of m (outs m) c main_v30 (by decide)).trans (V12_of m (outs m) c main_v30 (by decide)))).trans (kv11_v30 m c)
theorem kv14_v85 (c : Dev nD) : V14 m (outs m) c main_v85 = kAggU (kE77 m c) (kSp m c) :=
  (a4_v85 (V13 m (outs m) c)).trans (by rw [kv13_v77 m c, kv13_v29 m c])
theorem kv14_v82 (c : Dev nD) : V14 m (outs m) c main_v82 = kAggI (kE77 m c) (kDp m c) :=
  (a4_v82 (V13 m (outs m) c)).trans (by rw [kv13_v77 m c, kv13_v30 m c])

/-! ### Regions 4 and 5: the second layer's node tables -/

theorem kv15_v86 (c : Dev nD) : V15 m (outs m) c main_v86 = kU2 m c := by
  have e1 : V15 m (outs m) c main_v86 = outs m 15 main_v86 c := by rw [V15, Function.update_self]
  have e2 : outs m 15 main_v86 c = kEp (n := 100000) (V14 m (outs m) c main_v85) :=
    (outs_v86 m c).trans (final4 (fun c b => V14 m (outs m) c b) c)
  rw [e1, e2, kv14_v85 m c]; rfl
theorem kv15_v82 (c : Dev nD) : V15 m (outs m) c main_v82 = kAggI (kE77 m c) (kDp m c) :=
  ((V15_of m (outs m) c main_v82 (by decide))).trans (kv14_v82 m c)
theorem kv16_v87 (c : Dev nD) : V16 m (outs m) c main_v87 = kI2 m c := by
  have e1 : V16 m (outs m) c main_v87 = outs m 16 main_v87 c := by rw [V16, Function.update_self]
  have e2 : outs m 16 main_v87 c = kEp (n := 50000) (V15 m (outs m) c main_v82) :=
    (outs_v87 m c).trans (final5 (fun c b => V15 m (outs m) c b) c)
  rw [e1, e2, kv15_v82 m c]; rfl
theorem kv16_v86 (c : Dev nD) : V16 m (outs m) c main_v86 = kU2 m c :=
  ((V16_of m (outs m) c main_v86 (by decide))).trans (kv15_v86 m c)
theorem kv16_v58 (c : Dev nD) : V16 m (outs m) c main_v58 = kU1 m c :=
  (((V16_of m (outs m) c main_v58 (by decide)).trans ((V15_of m (outs m) c main_v58 (by decide)).trans ((V14_of m (outs m) c main_v58 (by decide)).trans ((V13_of m (outs m) c main_v58 (by decide)).trans (V12_of m (outs m) c main_v58 (by decide))))))).trans (kv11_v58 m c)
theorem kv16_v59 (c : Dev nD) : V16 m (outs m) c main_v59 = kI1 m c :=
  (((V16_of m (outs m) c main_v59 (by decide)).trans ((V15_of m (outs m) c main_v59 (by decide)).trans ((V14_of m (outs m) c main_v59 (by decide)).trans ((V13_of m (outs m) c main_v59 (by decide)).trans (V12_of m (outs m) c main_v59 (by decide))))))).trans (kv11_v59 m c)

/-! ### The three results -/

/-- What @main leaves in its three result arrays: the launch tables and the two layers' tables side by side, looked up at
    the batch of users and at the two batches of items. -/
theorem k_results (c : Dev nD) :
    V17 m (outs m) c main_v96 = kFinalU (m ((c : Thread nD τ).loc main_arg0)) (kU1 m c) (kU2 m c) (m ((c : Thread nD τ).loc main_arg11))
    ∧ V17 m (outs m) c main_v103 = kFinalI (m ((c : Thread nD τ).loc main_arg1)) (kI1 m c) (kI2 m c) (m ((c : Thread nD τ).loc main_arg12))
    ∧ V17 m (outs m) c main_v110 = kFinalI (m ((c : Thread nD τ).loc main_arg1)) (kI1 m c) (kI2 m c) (m ((c : Thread nD τ).loc main_arg13)) :=
  ⟨(a6_v96 (V16 m (outs m) c)).trans (by rw [c16_arg0 m c, kv16_v58 m c, kv16_v86 m c, c16_arg11 m c]),
   (a6_v103 (V16 m (outs m) c)).trans (by rw [c16_arg1 m c, kv16_v59 m c, kv16_v87 m c, c16_arg12 m c]),
   (a6_v110 (V16 m (outs m) c)).trans (by rw [c16_arg1 m c, kv16_v59 m c, kv16_v87 m c, c16_arg13 m c])⟩

end Cert.KernelIdeal.Hand

end
-- ==== Proof.RHost.lean ====
/-
  One aggregation layer in the reference's spelling, as functions of the arrays they read, and what they hold at an
  index, on the extended reals.

  `rWrap nn r` is an index vector with its negative entries counted from the end (`nn` added) laid out as a column.
  `rCross u it s d w2 b2` is the per-edge cross projection `((u[s] ∘ it[d]) W2 + b2)`. `rAggI` sums, for every item `p`,
  over the edges `e` whose target entry `d e` is `p`, the message `c e · (u W1 + b1)[s e] + cross e`; `rAggU` sums, for
  every user `p`, over the edges whose source entry `s e` is `p`, the message `c e · (it W1 + b1)[d e] + cross e`.
-/
import proofs.«155537_j65712999628849_1_alg».proof.ReferenceIdeal
import proofs.«155537_j65712999628849_1_alg».proof.Proof.Gen.ReferenceIdeal
import proofs.«155537_j65712999628849_1_alg».proof.Proof.Spec
import proofs.«155537_j65712999628849_1_alg».proof.Proof.LibGcnHost
import proofs.«155537_j65712999628849_1_alg».proof.Proof.LibSegmentSum
import proofs.«155537_j65712999628849_1_alg».proof.Proof.LibHostLayout
import Idealize.ShloMosaic.Lib.ValueIdx

set_option maxRecDepth 16384

noncomputable section

open scoped BigOperators

namespace Cert.ReferenceIdeal.Hand

open Idealize.ShloMosaic Idealize.ShloMosaic.ValueIdx Cert.ReferenceIdeal Cert.ReferenceIdeal.Gen Cert.Dense Cert.Ngcf

theorem nU_pos : 0 < 100000 := by norm_num
theorem nI_pos : 0 < 50000 := by norm_num

/-- An index vector with negative entries counted from the end, as a column. -/
def rWrap (nn : BitVec 32) (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 nn))) r)

theorem rWrap_apply (nn : BitVec 32) (r : IVec S1000000 32) (e : Fin nE) :
    rWrap nn r (ix2 e (0 : Fin 1))
      = Scalar.select (IntOp.cmpi .slt (r (ix1 e)) 0#32) (r (ix1 e) + nn) (r (ix1 e)) := by
  unfold rWrap
  rw [HostLayout.bcast_vec_col]
  rfl

/-- The cross projection of every edge. -/
def rCross (u : FVec Ideal S100000x64 .f32) (it : FVec Ideal S50000x64 .f32) (s d : IVec S1000000 32)
    (w2 : FVec Ideal S64x64 .f32) (b2 : FVec Ideal S64 .f32) : FVec Ideal S1000000x64 .f32 :=
  addf
    (Host.dotGeneral (F := Ideal) dot_S1000000x64_S64x64_S1000000x64_1_0_0_1_n_n none
      (mulf (Host.gather gather_S100000x64_S1000000x1_S1000000x64_1_0_n_n_0_1_164 u (rWrap 100000#32 s))
        (Host.gather gather_S50000x64_S1000000x1_S1000000x64_1_0_n_n_0_1_164 it (rWrap 50000#32 d))) w2)
    (broadcastInDim S1000000x64 ![0, 1] bcast_S1x64_S1000000x64_0_1 (broadcastInDim S1x64 ![1] bcast_S64_S1x64_1 b2))

theorem rCross_apply (u : FVec Ideal S100000x64 .f32) (it : FVec Ideal S50000x64 .f32) (s d : IVec S1000000 32)
    (w2 : FVec Ideal S64x64 .f32) (b2 : FVec Ideal S64 .f32) (e : Fin nE) (q : Fin 64) :
    rCross u it s d w2 b2 (ix2 e q)
      = (∑ k : Fin 64, (u (ix2 (GcnHost.node nU_pos (rWrap 100000#32 s (ix2 e (0 : Fin 1)))) k)
            * it (ix2 (GcnHost.node nI_pos (rWrap 50000#32 d (ix2 e (0 : Fin 1)))) k)) * w2 (ix2 k q)) + b2 (ix1 q) := by
  unfold rCross
  rw [addf_apply, Dense.hostDot_eq_mm _ rfl rfl rfl rfl rfl rfl, Dense.mm_apply, HostLayout.bcast_vec_mat]
  congr 1
  refine Finset.sum_congr rfl fun k _ => ?_
  rw [mulf_apply, GcnHost.gather_rows_node nU_pos _ rfl rfl rfl rfl rfl rfl rfl,
    GcnHost.gather_rows_node nI_pos _ rfl rfl rfl rfl rfl rfl rfl]

/-- The item-side aggregate. -/
def rAggI (u : FVec Ideal S100000x64 .f32) (it : FVec Ideal S50000x64 .f32) (w1 : FVec Ideal S64x64 .f32)
    (b1 : FVec Ideal S64 .f32) (w2 : FVec Ideal S64x64 .f32) (b2 : FVec Ideal S64 .f32) (s d : IVec S1000000 32)
    (nv : FVec Ideal S1000000x1 .f32) : FVec Ideal S50000x64 .f32 :=
  Host.scatterAdd (F := Ideal) scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 d)
    (addf
      (mulf (broadcastInDim S1000000x64 ![0, 1] bcast_S1000000x1_S1000000x64_0_1 nv)
        (Host.gather gather_S100000x64_S1000000x1_S1000000x64_1_0_n_n_0_1_164
          (addf (Host.dotGeneral (F := Ideal) dot_S100000x64_S64x64_S100000x64_1_0_0_1_n_n none u w1)
            (broadcastInDim S100000x64 ![0, 1] bcast_S1x64_S100000x64_0_1 (broadcastInDim S1x64 ![1] bcast_S64_S1x64_1 b1)))
          (rWrap 100000#32 s)))
      (rCross u it s d w2 b2))

/-- The user-side aggregate. -/
def rAggU (u : FVec Ideal S100000x64 .f32) (it : FVec Ideal S50000x64 .f32) (w1 : FVec Ideal S64x64 .f32)
    (b1 : FVec Ideal S64 .f32) (w2 : FVec Ideal S64x64 .f32) (b2 : FVec Ideal S64 .f32) (s d : IVec S1000000 32)
    (nv : FVec Ideal S1000000x1 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 s)
    (addf
      (mulf (broadcastInDim S1000000x64 ![0, 1] bcast_S1000000x1_S1000000x64_0_1 nv)
        (Host.gather gather_S50000x64_S1000000x1_S1000000x64_1_0_n_n_0_1_164
          (addf (Host.dotGeneral (F := Ideal) dot_S50000x64_S64x64_S50000x64_1_0_0_1_n_n none it w1)
            (broadcastInDim S50000x64 ![0, 1] bcast_S1x64_S50000x64_0_1 (broadcastInDim S1x64 ![1] bcast_S64_S1x64_1 b1)))
          (rWrap 50000#32 d)))
      (rCross u it s d w2 b2))

theorem rAggI_apply (u : FVec Ideal S100000x64 .f32) (it : FVec Ideal S50000x64 .f32) (w1 : FVec Ideal S64x64 .f32)
    (b1 : FVec Ideal S64 .f32) (w2 : FVec Ideal S64x64 .f32) (b2 : FVec Ideal S64 .f32) (s d : IVec S1000000 32)
    (nv : FVec Ideal S1000000x1 .f32) (p : Fin 50000) (q : Fin 64) :
    rAggI u it w1 b1 w2 b2 s d nv (ix2 p q)
      = 0 + ∑ e ∈ Finset.univ.filter (fun e : Fin nE => (d (ix1 e)).toInt = (p.val : Int)),
          (nv (ix2 e (0 : Fin 1))
              * ((∑ k : Fin 64, u (ix2 (GcnHost.node nU_pos (rWrap 100000#32 s (ix2 e (0 : Fin 1)))) k) * w1 (ix2 k q))
                  + b1 (ix1 q))
            + rCross u it s d w2 b2 (ix2 e q)) := by
  unfold rAggI
  refine (SegmentSum.segSumRows_apply (N := 50000) (C := 64) (M := 1000000) _ rfl rfl rfl rfl _ _ _ p q).trans ?_
  have hz : broadcastInDim S50000x64 ![] bcast_S_S50000x64 (constant (F := Ideal) S_ .f32 0x00000000#32) (ix2 p q) = (0 : EReal) :=
    (HostLayout.bcast_scalar_mat _ _ p q).trans (by rw [constant_apply, Ideal.ofBits_zero_f32])
  refine congrArg₂ (· + ·) hz ?_
  refine Finset.sum_congr (Finset.filter_congr fun e _ => ?_) fun e _ => ?_
  · rw [HostLayout.bcast_vec_col]
  · rw [addf_apply, mulf_apply, HostLayout.bcast_col_mat, GcnHost.gather_rows_node nU_pos _ rfl rfl rfl rfl rfl rfl rfl,
      addf_apply, Dense.hostDot_eq_mm _ rfl rfl rfl rfl rfl rfl, Dense.mm_apply, HostLayout.bcast_vec_mat]

theorem rAggU_apply (u : FVec Ideal S100000x64 .f32) (it : FVec Ideal S50000x64 .f32) (w1 : FVec Ideal S64x64 .f32)
    (b1 : FVec Ideal S64 .f32) (w2 : FVec Ideal S64x64 .f32) (b2 : FVec Ideal S64 .f32) (s d : IVec S1000000 32)
    (nv : FVec Ideal S1000000x1 .f32) (p : Fin 100000) (q : Fin 64) :
    rAggU u it w1 b1 w2 b2 s d nv (ix2 p q)
      = 0 + ∑ e ∈ Finset.univ.filter (fun e : Fin nE => (s (ix1 e)).toInt = (p.val : Int)),
          (nv (ix2 e (0 : Fin 1))
              * ((∑ k : Fin 64, it (ix2 (GcnHost.node nI_pos (rWrap 50000#32 d (ix2 e (0 : Fin 1)))) k) * w1 (ix2 k q))
                  + b1 (ix1 q))
            + rCross u it s d w2 b2 (ix2 e q)) := by
  unfold rAggU
  refine (SegmentSum.segSumRows_apply (N := 100000) (C := 64) (M := 1000000) _ rfl rfl rfl rfl _ _ _ p q).trans ?_
  have hz : broadcastInDim S100000x64 ![] bcast_S_S100000x64 (constant (F := Ideal) S_ .f32 0x00000000#32) (ix2 p q) = (0 : EReal) :=
    (HostLayout.bcast_scalar_mat _ _ p q).trans (by rw [constant_apply, Ideal.ofBits_zero_f32])
  refine congrArg₂ (· + ·) hz ?_
  refine Finset.sum_congr (Finset.filter_congr fun e _ => ?_) fun e _ => ?_
  · rw [HostLayout.bcast_vec_col]
  · rw [addf_apply, mulf_apply, HostLayout.bcast_col_mat, GcnHost.gather_rows_node nI_pos _ rfl rfl rfl rfl rfl rfl rfl,
      addf_apply, Dense.hostDot_eq_mm _ rfl rfl rfl rfl rfl rfl, Dense.mm_apply, HostLayout.bcast_vec_mat]

/-! ## The edge list, the edge normalisation and the final lookup, in the reference's spelling -/

/-- Row `0` (the source entries) and row `1` (the target entries) of the edge array, as vectors. -/
def rSrc (a10 : IVec S2x1000000 32) : IVec S1000000 32 :=
  shapeCast S1000000 (extractStridedSlice S1x1000000 ![0, 0] a10 slices_S2x1000000_S1x1000000_0_0) shapeCasts_S1x1000000_S1000000
def rDst (a10 : IVec S2x1000000 32) : IVec S1000000 32 :=
  shapeCast S1000000 (extractStridedSlice S1x1000000 ![1, 0] a10 slices_S2x1000000_S1x1000000_1_0) shapeCasts_S1x1000000_S1000000

/-- The number of edges at each edge's source node, and at each edge's target node. -/
def rDegU (r : IVec S1000000 32) : FVec Ideal S1000000 .f32 :=
  Host.gather gather_S100000_S1000000x1_S1000000_n_0_n_n_0_1_1
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 r)
      (broadcastInDim S1000000 ![] bcast_S_S1000000 (constant (F := Ideal) S_ .f32 0x3F800000#32)))
    (rWrap 100000#32 r)
def rDegI (r : IVec S1000000 32) : FVec Ideal S1000000 .f32 :=
  Host.gather gather_S50000_S1000000x1_S1000000_n_0_n_n_0_1_1
    (Host.scatterAdd (F := Ideal) scatter_S50000_S1000000x1_S1000000_n_0_0_1
      (broadcastInDim S50000 ![] bcast_S_S50000 (constant (F := Ideal) S_ .f32 0x00000000#32))
      (broadcastInDim S1000000x1 ![0] bcast_S1000000_S1000000x1_0 r)
      (broadcastInDim S1000000 ![] bcast_S_S1000000 (constant (F := Ideal) S_ .f32 0x3F800000#32)))
    (rWrap 50000#32 r)

/-- The edge normalisation `(deg_src · deg_dst) ^ (-1/2)` as a vector, and as a column. -/
def rNv27 (a10 : IVec S2x1000000 32) : FVec Ideal S1000000 .f32 :=
  Host.powf (F := Ideal) (mulf (rDegU (rSrc a10)) (rDegI (rDst a10)))
    (broadcastInDim S1000000 ![] bcast_S_S1000000 (constant (F := Ideal) S_ .f32 0xBF000000#32))
def rNv (a10 : IVec S2x1000000 32) : FVec Ideal S1000000x1 .f32 :=
  broadcastInDim S1000000x1 ![0] bcast_S1000000_S1000000x1_0 (rNv27 a10)

/-- A batch of node numbers with negative entries counted from the end, as a column. -/
def rWrapB (nn : BitVec 32) (r : IVec S16384 32) : IVec S16384x1 32 :=
  broadcastInDim S16384x1 ![0] bcast_S16384_S16384x1_0
    (select (cmpi .slt r (broadcastInDim S16384 ![] bcast_S_S16384 (constantI S_ 32 0#32)))
      (addi r (broadcastInDim S16384 ![] bcast_S_S16384 (constantI S_ 32 nn))) r)

/-- The rows of the three tables side by side, looked up at a batch of users. -/
def rFinalU (A B C : FVec Ideal S100000x64 .f32) (idx : IVec S16384 32) : FVec Ideal S16384x192 .f32 :=
  Host.gather gather_S100000x192_S16384x1_S16384x192_1_0_n_n_0_1_1192
    (concatenate S100000x192 1 [⟨S100000x64, A⟩, ⟨S100000x64, B⟩, ⟨S100000x64, C⟩]
      concatenates_S100000x64_S100000x64_S100000x64_S100000x192_d1)
    (rWrapB 100000#32 idx)
/-- The rows of the three tables side by side, looked up at a batch of items. -/
def rFinalI (A B C : FVec Ideal S50000x64 .f32) (idx : IVec S16384 32) : FVec Ideal S16384x192 .f32 :=
  Host.gather gather_S50000x192_S16384x1_S16384x192_1_0_n_n_0_1_1192
    (concatenate S50000x192 1 [⟨S50000x64, A⟩, ⟨S50000x64, B⟩, ⟨S50000x64, C⟩]
      concatenates_S50000x64_S50000x64_S50000x64_S50000x192_d1)
    (rWrapB 50000#32 idx)

end Cert.ReferenceIdeal.Hand

end
-- ==== Proof.EpiHost.lean ====
/- The host's spelling of the node epilogue, as whole arrays of any row count: compare with a broadcast zero, multiply
   by a broadcast slope, select; the row sums of the squares from zero, laid out as a column; the square root, the
   maximum with a broadcast floor, the column broadcast along the rows; the quotient. It is the epilogue `epi`. -/
import proofs.«155537_j65712999628849_1_alg».proof.Proof.Spec
import proofs.«155537_j65712999628849_1_alg».proof.Proof.EpiLeaky
import proofs.«155537_j65712999628849_1_alg».proof.Proof.LibHostLayout
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.EpiHost

open Idealize.ShloMosaic Idealize.ShloMosaic.ValueIdx Cert.Dense Cert.Ngcf Cert.HostLayout

variable {n : ℕ}

/-- The host's rectified array: `select (X ≥ 0) X (slope · X)`, zero and slope broadcast from scalars. -/
def hostRect (hb : (⟨0, ![]⟩ : Shape).BroadcastsInDim ⟨2, ![n, 64]⟩ ![]) (X : FVec Ideal ⟨2, ![n, 64]⟩ .f32) :
    FVec Ideal ⟨2, ![n, 64]⟩ .f32 :=
  select (cmpf .oge X (broadcastInDim ⟨2, ![n, 64]⟩ ![] hb (constant (F := Ideal) ⟨0, ![]⟩ .f32 0x00000000#32))) X
    (mulf (broadcastInDim ⟨2, ![n, 64]⟩ ![] hb (constant (F := Ideal) ⟨0, ![]⟩ .f32 0x3E4CCCCD#32)) X)

theorem hostRect_apply (hb : (⟨0, ![]⟩ : Shape).BroadcastsInDim ⟨2, ![n, 64]⟩ ![]) (X : FVec Ideal ⟨2, ![n, 64]⟩ .f32)
    (i : (⟨2, ![n, 64]⟩ : Shape).Idx) :
    hostRect hb X i = leaky (Ideal.ofBits .f32 0x3E4CCCCD#32) (X i) := by
  show Scalar.select (Ideal.cmp .oge (X i)
      (broadcastInDim ⟨2, ![n, 64]⟩ ![] hb (constant (F := Ideal) ⟨0, ![]⟩ .f32 0x00000000#32) i)) (X i)
      (broadcastInDim ⟨2, ![n, 64]⟩ ![] hb (constant (F := Ideal) ⟨0, ![]⟩ .f32 0x3E4CCCCD#32) i * X i) = _
  rw [broadcastInDim_scalar_apply, broadcastInDim_scalar_apply, constant_apply, constant_apply,
    Ideal.ofBits_zero_f32, select_oge_zero]

/-- The host's square root at an index is the square root of the element. -/
theorem hostSqrt_apply {s : Shape} {φ : FTy} (a : FVec Ideal s φ) (i : s.Idx) :
    Host.sqrt (F := Ideal) a i = Ideal.sqrt (a i) := rfl

/-- The host's epilogue on an `n`-row array. -/
def hostEpi (hb : (⟨0, ![]⟩ : Shape).BroadcastsInDim ⟨2, ![n, 64]⟩ ![])
    (hb1 : (⟨0, ![]⟩ : Shape).BroadcastsInDim ⟨2, ![n, 1]⟩ ![])
    (hr' : (⟨2, ![n, 64]⟩ : Shape).ReducesTo [1] ⟨1, ![n]⟩) (hu : 0 < (⟨0, ![]⟩ : Shape).numel)
    (hbv : (⟨1, ![n]⟩ : Shape).BroadcastsInDim ⟨2, ![n, 1]⟩ ![0])
    (hbc : (⟨2, ![n, 1]⟩ : Shape).BroadcastsInDim ⟨2, ![n, 64]⟩ ![0, 1])
    (X : FVec Ideal ⟨2, ![n, 64]⟩ .f32) : FVec Ideal ⟨2, ![n, 64]⟩ .f32 :=
  Host.divf (F := Ideal) (hostRect hb X)
    (broadcastInDim ⟨2, ![n, 64]⟩ ![0, 1] hbc
      (maximumf
        (Host.sqrt (F := Ideal) (broadcastInDim ⟨2, ![n, 1]⟩ ![0] hbv
          (Host.reduceAdd (F := Ideal) (mulf (hostRect hb X) (hostRect hb X))
            (constant (F := Ideal) ⟨0, ![]⟩ .f32 0x00000000#32) hr' hu)))
        (broadcastInDim ⟨2, ![n, 1]⟩ ![] hb1 (constant (F := Ideal) ⟨0, ![]⟩ .f32 0x2B8CBCCC#32))))

/-- The host's epilogue is `epi` with the printed slope and floor. -/
theorem hostEpi_eq (hb : (⟨0, ![]⟩ : Shape).BroadcastsInDim ⟨2, ![n, 64]⟩ ![])
    (hb1 : (⟨0, ![]⟩ : Shape).BroadcastsInDim ⟨2, ![n, 1]⟩ ![])
    (hr' : (⟨2, ![n, 64]⟩ : Shape).ReducesTo [1] ⟨1, ![n]⟩) (hr : (⟨2, ![n, 64]⟩ : Shape).Reduces [1] ⟨1, ![n]⟩)
    (hu : 0 < (⟨0, ![]⟩ : Shape).numel)
    (hbv : (⟨1, ![n]⟩ : Shape).BroadcastsInDim ⟨2, ![n, 1]⟩ ![0])
    (hbc : (⟨2, ![n, 1]⟩ : Shape).BroadcastsInDim ⟨2, ![n, 64]⟩ ![0, 1])
    (X : FVec Ideal ⟨2, ![n, 64]⟩ .f32) :
    hostEpi hb hb1 hr' hu hbv hbc X
      = epi (Ideal.ofBits .f32 0x3E4CCCCD#32) (Ideal.ofBits .f32 0x2B8CBCCC#32) X := by
  funext i
  obtain ⟨p, q, rfl⟩ : ∃ (p : Fin n) (q : Fin 64), i = ix2 p q := ⟨i 0, i 1, eq_ix2 i⟩
  rw [epi_apply]
  unfold hostEpi
  rw [hostDivf_apply, bcast_col_mat, maximumf_apply, hostRect_apply, hostSqrt_apply, bcast_vec_col, hostRowSum _ _ hr' hr hu p, broadcastInDim_scalar_apply, constant_apply, constant_apply,
    Ideal.ofBits_zero_f32]
  simp only [mulf_apply, hostRect_apply]

end Cert.EpiHost

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefStages.lean ====
/-
  The reference program's results, read off its list of host operations stretch by stretch.

  The 260 operations are cut into six consecutive stretches. For each stretch, over an arbitrary starting valuation:
  the buffers it writes (so every other buffer is carried through it), and what it leaves in the buffers later
  stretches read — the edge list and the edge normalisation; the two aggregates of a layer as `rAggI` / `rAggU` of the
  arrays the layer reads; each epilogue as `hostEpi` of its aggregate; the final lookups as `rFinalU` / `rFinalI`.
  Chained from the launch contents, the three results are the final lookups of the argument tables, the first
  layer's outputs and the second layer's outputs, and every argument buffer is as launched.
-/
import proofs.«155537_j65712999628849_1_alg».proof.Proof.RefRun
import proofs.«155537_j65712999628849_1_alg».proof.Proof.RHost
import proofs.«155537_j65712999628849_1_alg».proof.Proof.EpiHost
import proofs.«155537_j65712999628849_1_alg».proof.Proof.LibPadSplit
import proofs.«155537_j65712999628849_1_alg».proof.Proof.LibTypedRef
import Idealize.ShloMosaic.Lib.StableHlo.Run

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

/-! ## The stretches of @main's operations

The reference's 260 host operations are read in six stretches, each over an arbitrary starting valuation: the edge list
and the edge normalisation; the two aggregates of layer 1; their epilogues; the two aggregates of layer 2; their
epilogues; the concatenations and the final lookups. -/

abbrev stage0 : List (HloOp τ sig (Elt Ideal)) := (ops (F := Ideal)).take 37
abbrev rest1 : List (HloOp τ sig (Elt Ideal)) := (ops (F := Ideal)).drop 37
abbrev stage1 : List (HloOp τ sig (Elt Ideal)) := rest1.take 63
abbrev rest2 : List (HloOp τ sig (Elt Ideal)) := rest1.drop 63
abbrev stage2 : List (HloOp τ sig (Elt Ideal)) := rest2.take 34
abbrev rest3 : List (HloOp τ sig (Elt Ideal)) := rest2.drop 34
abbrev stage3 : List (HloOp τ sig (Elt Ideal)) := rest3.take 63
abbrev rest4 : List (HloOp τ sig (Elt Ideal)) := rest3.drop 63
abbrev stage4 : List (HloOp τ sig (Elt Ideal)) := rest4.take 34
abbrev stage5 : List (HloOp τ sig (Elt Ideal)) := rest4.drop 34

/-- The operations are the six stretches in order. -/
theorem ops_stages : ops (F := Ideal) = stage0 ++ (stage1 ++ (stage2 ++ (stage3 ++ (stage4 ++ stage5)))) := by
  simp only [stage0, stage1, stage2, stage3, stage4, stage5, rest1, rest2, rest3, rest4, List.take_append_drop]

/-- The contents after all the operations are the stretches' contents folded in order. -/
theorem after_ops (W : Valuation τ sig (Elt Ideal)) :
    after (ops (F := Ideal)) W = after stage5 (after stage4 (after stage3 (after stage2 (after stage1 (after stage0 W))))) :=
  (congrArg (fun l => after l W) ops_stages).trans (by simp only [Cert.PadSplit.after_append])

/-- The epilogue in the reference's spelling at the two extents, with the printed shape facts. -/
abbrev epiU (X : FVec Ideal S100000x64 .f32) : FVec Ideal S100000x64 .f32 :=
  Cert.EpiHost.hostEpi bcast_S_S100000x64 bcast_S_S100000x1 reducesTo_S100000x64_S100000_d1 h_S_
    bcast_S100000_S100000x1_0 bcast_S100000x1_S100000x64_0_1 X
abbrev epiI (X : FVec Ideal S50000x64 .f32) : FVec Ideal S50000x64 .f32 :=
  Cert.EpiHost.hostEpi bcast_S_S50000x64 bcast_S_S50000x1 reducesTo_S50000x64_S50000_d1 h_S_
    bcast_S50000_S50000x1_0 bcast_S50000x1_S50000x64_0_1 X

/-! ## What each stretch writes, and what it keeps -/

/-- The buffers stretch 0 writes. -/
abbrev stage0_W : List (Ref sig .tc) := [main_v0, main_v1, main_v2, main_v3, main_cst, main_v4, main_cst_0, main_v5, main_v6, main_v7, main_c, main_v8, main_v9, main_c_1, main_v10, main_v11, main_v12, main_v13, main_v14, main_cst_2, main_v15, main_v16, main_v17, main_c_3, main_v18, main_v19, main_c_4, main_v20, main_v21, main_v22, main_v23, main_v24, main_v25, main_cst_5, main_v26, main_v27, main_v28]

set_option maxHeartbeats 4000000 in
theorem stage0_writes : stage0.Forall fun op => op.writes ⊆ (stage0_W.map (Proc.devRef (τ := τ) .tc)).toFinset := by
  simp only [stage0, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 0 does not write keeps its contents through it. -/
theorem stage0_keep (W : Valuation τ sig (Elt Ideal)) (r : Ref sig .tc) (h : r ∉ stage0_W) :
    after stage0 W (Proc.devRef .tc r) = W (Proc.devRef .tc r) :=
  after_of_writes_sub stage0 W stage0_writes h

/-- The buffers stretch 1 writes. -/
abbrev stage1_W : List (Ref sig .tc) := [main_v29, main_v30, main_v31, main_v32, main_v33, main_v34, main_v35, main_v36, main_c_6, main_v37, main_v38, main_c_7, main_v39, main_v40, main_v41, main_v42, main_v43, main_c_8, main_v44, main_v45, main_c_9, main_v46, main_v47, main_v48, main_v49, main_v50, main_v51, main_v52, main_v53, main_v54, main_v55, main_c_10, main_v56, main_v57, main_c_11, main_v58, main_v59, main_v60, main_v61, main_v62, main_v63, main_v64, main_v65, main_cst_12, main_v66, main_v67, main_v68, main_c_13, main_v69, main_v70, main_c_14, main_v71, main_v72, main_v73, main_v74, main_v75, main_v76, main_v77, main_v78, main_cst_15, main_v79, main_v80, main_v81]

set_option maxHeartbeats 4000000 in
theorem stage1_writes : stage1.Forall fun op => op.writes ⊆ (stage1_W.map (Proc.devRef (τ := τ) .tc)).toFinset := by
  simp only [stage1, rest1, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 1 does not write keeps its contents through it. -/
theorem stage1_keep (W : Valuation τ sig (Elt Ideal)) (r : Ref sig .tc) (h : r ∉ stage1_W) :
    after stage1 W (Proc.devRef .tc r) = W (Proc.devRef .tc r) :=
  after_of_writes_sub stage1 W stage1_writes h

/-- The buffers stretch 2 writes. -/
abbrev stage2_W : List (Ref sig .tc) := [main_cst_16, main_v82, main_v83, main_cst_17, main_v84, main_v85, main_v86, main_v87, main_cst_18, main_v88, main_v89, main_v90, main_cst_19, main_v91, main_v92, main_v93, main_v94, main_cst_20, main_v95, main_v96, main_cst_21, main_v97, main_v98, main_v99, main_v100, main_cst_22, main_v101, main_v102, main_v103, main_cst_23, main_v104, main_v105, main_v106, main_v107]

set_option maxHeartbeats 4000000 in
theorem stage2_writes : stage2.Forall fun op => op.writes ⊆ (stage2_W.map (Proc.devRef (τ := τ) .tc)).toFinset := by
  simp only [stage2, rest2, rest1, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 2 does not write keeps its contents through it. -/
theorem stage2_keep (W : Valuation τ sig (Elt Ideal)) (r : Ref sig .tc) (h : r ∉ stage2_W) :
    after stage2 W (Proc.devRef .tc r) = W (Proc.devRef .tc r) :=
  after_of_writes_sub stage2 W stage2_writes h

/-- The buffers stretch 3 writes. -/
abbrev stage3_W : List (Ref sig .tc) := [main_v108, main_v109, main_v110, main_v111, main_v112, main_v113, main_v114, main_v115, main_c_24, main_v116, main_v117, main_c_25, main_v118, main_v119, main_v120, main_v121, main_v122, main_c_26, main_v123, main_v124, main_c_27, main_v125, main_v126, main_v127, main_v128, main_v129, main_v130, main_v131, main_v132, main_v133, main_v134, main_c_28, main_v135, main_v136, main_c_29, main_v137, main_v138, main_v139, main_v140, main_v141, main_v142, main_v143, main_v144, main_cst_30, main_v145, main_v146, main_v147, main_c_31, main_v148, main_v149, main_c_32, main_v150, main_v151, main_v152, main_v153, main_v154, main_v155, main_v156, main_v157, main_cst_33, main_v158, main_v159, main_v160]

set_option maxHeartbeats 4000000 in
theorem stage3_writes : stage3.Forall fun op => op.writes ⊆ (stage3_W.map (Proc.devRef (τ := τ) .tc)).toFinset := by
  simp only [stage3, rest3, rest2, rest1, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 3 does not write keeps its contents through it. -/
theorem stage3_keep (W : Valuation τ sig (Elt Ideal)) (r : Ref sig .tc) (h : r ∉ stage3_W) :
    after stage3 W (Proc.devRef .tc r) = W (Proc.devRef .tc r) :=
  after_of_writes_sub stage3 W stage3_writes h

/-- The buffers stretch 4 writes. -/
abbrev stage4_W : List (Ref sig .tc) := [main_cst_34, main_v161, main_v162, main_cst_35, main_v163, main_v164, main_v165, main_v166, main_cst_36, main_v167, main_v168, main_v169, main_cst_37, main_v170, main_v171, main_v172, main_v173, main_cst_38, main_v174, main_v175, main_cst_39, main_v176, main_v177, main_v178, main_v179, main_cst_40, main_v180, main_v181, main_v182, main_cst_41, main_v183, main_v184, main_v185, main_v186]

set_option maxHeartbeats 4000000 in
theorem stage4_writes : stage4.Forall fun op => op.writes ⊆ (stage4_W.map (Proc.devRef (τ := τ) .tc)).toFinset := by
  simp only [stage4, rest4, rest3, rest2, rest1, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 4 does not write keeps its contents through it. -/
theorem stage4_keep (W : Valuation τ sig (Elt Ideal)) (r : Ref sig .tc) (h : r ∉ stage4_W) :
    after stage4 W (Proc.devRef .tc r) = W (Proc.devRef .tc r) :=
  after_of_writes_sub stage4 W stage4_writes h

/-- The buffers stretch 5 writes. -/
abbrev stage5_W : List (Ref sig .tc) := [main_v187, main_v188, main_c_42, main_v189, main_v190, main_c_43, main_v191, main_v192, main_v193, main_v194, main_v195, main_c_44, main_v196, main_v197, main_c_45, main_v198, main_v199, main_v200, main_v201, main_v202, main_c_46, main_v203, main_v204, main_c_47, main_v205, main_v206, main_v207, main_v208, main_v209]

set_option maxHeartbeats 4000000 in
theorem stage5_writes : stage5.Forall fun op => op.writes ⊆ (stage5_W.map (Proc.devRef (τ := τ) .tc)).toFinset := by
  simp only [stage5, rest4, rest3, rest2, rest1, ops, List.drop_succ_cons, List.drop_zero, List.take_succ_cons, List.take_zero, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 5 does not write keeps its contents through it. -/
theorem stage5_keep (W : Valuation τ sig (Elt Ideal)) (r : Ref sig .tc) (h : r ∉ stage5_W) :
    after stage5 W (Proc.devRef .tc r) = W (Proc.devRef .tc r) :=
  after_of_writes_sub stage5 W stage5_writes h

/-! ## What each stretch computes, over any starting valuation -/

set_option maxHeartbeats 4000000 in
theorem stage0_v1 (W : Valuation τ sig (Elt Ideal)) :
    after stage0 W (Proc.devRef .tc main_v1) = rSrc (W (Proc.devRef .tc main_arg10)) := by
  simp only [stage0, ops, List.drop_succ_cons, List.drop_zero, List.take_succ_cons, List.take_zero]
  after_results_simp
  rfl

set_option maxHeartbeats 4000000 in
theorem stage0_v3 (W : Valuation τ sig (Elt Ideal)) :
    after stage0 W (Proc.devRef .tc main_v3) = rDst (W (Proc.devRef .tc main_arg10)) := by
  simp only [stage0, ops, List.drop_succ_cons, List.drop_zero, List.take_succ_cons, List.take_zero]
  after_results_simp
  rfl

set_option maxHeartbeats 4000000 in
theorem stage0_v28 (W : Valuation τ sig (Elt Ideal)) :
    after stage0 W (Proc.devRef .tc main_v28) = rNv (W (Proc.devRef .tc main_arg10)) := by
  simp only [stage0, ops, List.drop_succ_cons, List.drop_zero, List.take_succ_cons, List.take_zero]
  after_results_simp
  rfl

set_option maxHeartbeats 4000000 in
theorem stage1_v68 (W : Valuation τ sig (Elt Ideal)) :
    after stage1 W (Proc.devRef .tc main_v68) = rAggI (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_v1)) (W (Proc.devRef .tc main_v3)) (W (Proc.devRef .tc main_v28)) := by
  simp only [stage1, rest1, ops, List.drop_succ_cons, List.drop_zero, List.take_succ_cons, List.take_zero]
  after_results_simp
  rfl

set_option maxHeartbeats 4000000 in
theorem stage1_v81 (W : Valuation τ sig (Elt Ideal)) :
    after stage1 W (Proc.devRef .tc main_v81) = rAggU (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_v1)) (W (Proc.devRef .tc main_v3)) (W (Proc.devRef .tc main_v28)) := by
  simp only [stage1, rest1, ops, List.drop_succ_cons, List.drop_zero, List.take_succ_cons, List.take_zero]
  after_results_simp
  rfl

set_option maxHeartbeats 4000000 in
theorem stage2_v94 (W : Valuation τ sig (Elt Ideal)) :
    after stage2 W (Proc.devRef .tc main_v94) = epiU (W (Proc.devRef .tc main_v81)) := by
  simp only [stage2, rest2, rest1, ops, List.drop_succ_cons, List.drop_zero, List.take_succ_cons, List.take_zero]
  after_results_simp
  rfl

set_option maxHeartbeats 4000000 in
theorem stage2_v107 (W : Valuation τ sig (Elt Ideal)) :
    after stage2 W (Proc.devRef .tc main_v107) = epiI (W (Proc.devRef .tc main_v68)) := by
  simp only [stage2, rest2, rest1, ops, List.drop_succ_cons, List.drop_zero, List.take_succ_cons, List.take_zero]
  after_results_simp
  rfl

set_option maxHeartbeats 4000000 in
theorem stage3_v147 (W : Valuation τ sig (Elt Ideal)) :
    after stage3 W (Proc.devRef .tc main_v147) = rAggI (W (Proc.devRef .tc main_v94)) (W (Proc.devRef .tc main_v107)) (W (Proc.devRef .tc main_arg6)) (W (Proc.devRef .tc main_arg7)) (W (Proc.devRef .tc main_arg8)) (W (Proc.devRef .tc main_arg9)) (W (Proc.devRef .tc main_v1)) (W (Proc.devRef .tc main_v3)) (W (Proc.devRef .tc main_v28)) := by
  simp only [stage3, rest3, rest2, rest1, ops, List.drop_succ_cons, List.drop_zero, List.take_succ_cons, List.take_zero]
  after_results_simp
  rfl

set_option maxHeartbeats 4000000 in
theorem stage3_v160 (W : Valuation τ sig (Elt Ideal)) :
    after stage3 W (Proc.devRef .tc main_v160) = rAggU (W (Proc.devRef .tc main_v94)) (W (Proc.devRef .tc main_v107)) (W (Proc.devRef .tc main_arg6)) (W (Proc.devRef .tc main_arg7)) (W (Proc.devRef .tc main_arg8)) (W (Proc.devRef .tc main_arg9)) (W (Proc.devRef .tc main_v1)) (W (Proc.devRef .tc main_v3)) (W (Proc.devRef .tc main_v28)) := by
  simp only [stage3, rest3, rest2, rest1, ops, List.drop_succ_cons, List.drop_zero, List.take_succ_cons, List.take_zero]
  after_results_simp
  rfl

set_option maxHeartbeats 4000000 in
theorem stage4_v173 (W : Valuation τ sig (Elt Ideal)) :
    after stage4 W (Proc.devRef .tc main_v173) = epiU (W (Proc.devRef .tc main_v160)) := by
  simp only [stage4, rest4, rest3, rest2, rest1, ops, List.drop_succ_cons, List.drop_zero, List.take_succ_cons, List.take_zero]
  after_results_simp
  rfl

set_option maxHeartbeats 4000000 in
theorem stage4_v186 (W : Valuation τ sig (Elt Ideal)) :
    after stage4 W (Proc.devRef .tc main_v186) = epiI (W (Proc.devRef .tc main_v147)) := by
  simp only [stage4, rest4, rest3, rest2, rest1, ops, List.drop_succ_cons, List.drop_zero, List.take_succ_cons, List.take_zero]
  after_results_simp
  rfl

set_option maxHeartbeats 4000000 in
theorem stage5_v195 (W : Valuation τ sig (Elt Ideal)) :
    after stage5 W (Proc.devRef .tc main_v195) = rFinalU (W (Proc.devRef .tc main_arg0)) (W (Proc.devRef .tc main_v94)) (W (Proc.devRef .tc main_v173)) (W (Proc.devRef .tc main_arg11)) := by
  simp only [stage5, rest4, rest3, rest2, rest1, ops, List.drop_succ_cons, List.drop_zero, List.take_succ_cons, List.take_zero]
  after_results_simp
  rfl

set_option maxHeartbeats 4000000 in
theorem stage5_v202 (W : Valuation τ sig (Elt Ideal)) :
    after stage5 W (Proc.devRef .tc main_v202) = rFinalI (W (Proc.devRef .tc main_arg1)) (W (Proc.devRef .tc main_v107)) (W (Proc.devRef .tc main_v186)) (W (Proc.devRef .tc main_arg12)) := by
  simp only [stage5, rest4, rest3, rest2, rest1, ops, List.drop_succ_cons, List.drop_zero, List.take_succ_cons, List.take_zero]
  after_results_simp
  rfl

set_option maxHeartbeats 4000000 in
theorem stage5_v209 (W : Valuation τ sig (Elt Ideal)) :
    after stage5 W (Proc.devRef .tc main_v209) = rFinalI (W (Proc.devRef .tc main_arg1)) (W (Proc.devRef .tc main_v107)) (W (Proc.devRef .tc main_v186)) (W (Proc.devRef .tc main_arg13)) := by
  simp only [stage5, rest4, rest3, rest2, rest1, ops, List.drop_succ_cons, List.drop_zero, List.take_succ_cons, List.take_zero]
  after_results_simp
  rfl

/-! ## The stretches chained from the launch contents

`val k W0` is the valuation after the first `k` stretches from `W0`. The two layers' outputs are named as functions of the
argument arrays: `refU1`, `refI1` after layer 1 and `refU2`, `refI2` after layer 2. -/

section Chain

variable (W0 : Valuation τ sig (Elt Ideal))

def val1 : Valuation τ sig (Elt Ideal) := after stage0 W0
def val2 : Valuation τ sig (Elt Ideal) := after stage1 (val1 W0)
def val3 : Valuation τ sig (Elt Ideal) := after stage2 (val2 W0)
def val4 : Valuation τ sig (Elt Ideal) := after stage3 (val3 W0)
def val5 : Valuation τ sig (Elt Ideal) := after stage4 (val4 W0)
def val6 : Valuation τ sig (Elt Ideal) := after stage5 (val5 W0)

theorem after_ops_val6 : after (ops (F := Ideal)) W0 = val6 W0 := after_ops W0

/-- A buffer a stretch does not write is carried through it. -/
theorem val1_keep (r : Ref sig .tc) (h : r ∉ stage0_W) : val1 W0 (Proc.devRef .tc r) = W0 (Proc.devRef .tc r) := stage0_keep W0 r h
theorem val2_keep (r : Ref sig .tc) (h : r ∉ stage1_W) : val2 W0 (Proc.devRef .tc r) = val1 W0 (Proc.devRef .tc r) := stage1_keep _ r h
theorem val3_keep (r : Ref sig .tc) (h : r ∉ stage2_W) : val3 W0 (Proc.devRef .tc r) = val2 W0 (Proc.devRef .tc r) := stage2_keep _ r h
theorem val4_keep (r : Ref sig .tc) (h : r ∉ stage3_W) : val4 W0 (Proc.devRef .tc r) = val3 W0 (Proc.devRef .tc r) := stage3_keep _ r h
theorem val5_keep (r : Ref sig .tc) (h : r ∉ stage4_W) : val5 W0 (Proc.devRef .tc r) = val4 W0 (Proc.devRef .tc r) := stage4_keep _ r h
theorem val6_keep (r : Ref sig .tc) (h : r ∉ stage5_W) : val6 W0 (Proc.devRef .tc r) = val5 W0 (Proc.devRef .tc r) := stage5_keep _ r h

/-- The layer outputs as functions of the launch contents. -/
def refU1 : FVec Ideal S100000x64 .f32 :=
  epiU (rAggU (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (rSrc (W0 (Proc.devRef .tc main_arg10))) (rDst (W0 (Proc.devRef .tc main_arg10))) (rNv (W0 (Proc.devRef .tc main_arg10))))
def refI1 : FVec Ideal S50000x64 .f32 :=
  epiI (rAggI (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (rSrc (W0 (Proc.devRef .tc main_arg10))) (rDst (W0 (Proc.devRef .tc main_arg10))) (rNv (W0 (Proc.devRef .tc main_arg10))))
def refU2 : FVec Ideal S100000x64 .f32 :=
  epiU (rAggU (refU1 W0) (refI1 W0) (W0 (Proc.devRef .tc main_arg6)) (W0 (Proc.devRef .tc main_arg7)) (W0 (Proc.devRef .tc main_arg8)) (W0 (Proc.devRef .tc main_arg9)) (rSrc (W0 (Proc.devRef .tc main_arg10))) (rDst (W0 (Proc.devRef .tc main_arg10))) (rNv (W0 (Proc.devRef .tc main_arg10))))
def refI2 : FVec Ideal S50000x64 .f32 :=
  epiI (rAggI (refU1 W0) (refI1 W0) (W0 (Proc.devRef .tc main_arg6)) (W0 (Proc.devRef .tc main_arg7)) (W0 (Proc.devRef .tc main_arg8)) (W0 (Proc.devRef .tc main_arg9)) (rSrc (W0 (Proc.devRef .tc main_arg10))) (rDst (W0 (Proc.devRef .tc main_arg10))) (rNv (W0 (Proc.devRef .tc main_arg10))))

theorem val1_v1 : val1 W0 (Proc.devRef .tc main_v1) = rSrc (W0 (Proc.devRef .tc main_arg10)) := stage0_v1 W0
theorem val1_v3 : val1 W0 (Proc.devRef .tc main_v3) = rDst (W0 (Proc.devRef .tc main_arg10)) := stage0_v3 W0
theorem val1_v28 : val1 W0 (Proc.devRef .tc main_v28) = rNv (W0 (Proc.devRef .tc main_arg10)) := stage0_v28 W0

theorem val2_v68 : val2 W0 (Proc.devRef .tc main_v68)
    = rAggI (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (rSrc (W0 (Proc.devRef .tc main_arg10))) (rDst (W0 (Proc.devRef .tc main_arg10))) (rNv (W0 (Proc.devRef .tc main_arg10))) := by
  unfold val2
  rw [stage1_v68, val1_keep W0 main_arg0 (by decide), val1_keep W0 main_arg1 (by decide), val1_keep W0 main_arg2 (by decide), val1_keep W0 main_arg3 (by decide), val1_keep W0 main_arg4 (by decide), val1_keep W0 main_arg5 (by decide), val1_v1, val1_v3, val1_v28]
theorem val2_v81 : val2 W0 (Proc.devRef .tc main_v81)
    = rAggU (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (rSrc (W0 (Proc.devRef .tc main_arg10))) (rDst (W0 (Proc.devRef .tc main_arg10))) (rNv (W0 (Proc.devRef .tc main_arg10))) := by
  unfold val2
  rw [stage1_v81, val1_keep W0 main_arg0 (by decide), val1_keep W0 main_arg1 (by decide), val1_keep W0 main_arg2 (by decide), val1_keep W0 main_arg3 (by decide), val1_keep W0 main_arg4 (by decide), val1_keep W0 main_arg5 (by decide), val1_v1, val1_v3, val1_v28]

theorem val3_v94 : val3 W0 (Proc.devRef .tc main_v94) = refU1 W0 := by
  unfold val3 refU1
  rw [stage2_v94, val2_v81]
theorem val3_v107 : val3 W0 (Proc.devRef .tc main_v107) = refI1 W0 := by
  unfold val3 refI1
  rw [stage2_v107, val2_v68]

theorem val3_v1 : val3 W0 (Proc.devRef .tc main_v1) = rSrc (W0 (Proc.devRef .tc main_arg10)) := ((val3_keep W0 main_v1 (by decide)).trans ((val2_keep W0 main_v1 (by decide)).trans (val1_v1 W0)))
theorem val3_v3 : val3 W0 (Proc.devRef .tc main_v3) = rDst (W0 (Proc.devRef .tc main_arg10)) := ((val3_keep W0 main_v3 (by decide)).trans ((val2_keep W0 main_v3 (by decide)).trans (val1_v3 W0)))
theorem val3_v28 : val3 W0 (Proc.devRef .tc main_v28) = rNv (W0 (Proc.devRef .tc main_arg10)) := ((val3_keep W0 main_v28 (by decide)).trans ((val2_keep W0 main_v28 (by decide)).trans (val1_v28 W0)))
theorem val3_arg6 : val3 W0 (Proc.devRef .tc main_arg6) = (W0 (Proc.devRef .tc main_arg6)) := ((val3_keep W0 main_arg6 (by decide)).trans ((val2_keep W0 main_arg6 (by decide)).trans (val1_keep W0 main_arg6 (by decide))))
theorem val3_arg7 : val3 W0 (Proc.devRef .tc main_arg7) = (W0 (Proc.devRef .tc main_arg7)) := ((val3_keep W0 main_arg7 (by decide)).trans ((val2_keep W0 main_arg7 (by decide)).trans (val1_keep W0 main_arg7 (by decide))))
theorem val3_arg8 : val3 W0 (Proc.devRef .tc main_arg8) = (W0 (Proc.devRef .tc main_arg8)) := ((val3_keep W0 main_arg8 (by decide)).trans ((val2_keep W0 main_arg8 (by decide)).trans (val1_keep W0 main_arg8 (by decide))))
theorem val3_arg9 : val3 W0 (Proc.devRef .tc main_arg9) = (W0 (Proc.devRef .tc main_arg9)) := ((val3_keep W0 main_arg9 (by decide)).trans ((val2_keep W0 main_arg9 (by decide)).trans (val1_keep W0 main_arg9 (by decide))))

theorem val4_v147 : val4 W0 (Proc.devRef .tc main_v147)
    = rAggI (refU1 W0) (refI1 W0) (W0 (Proc.devRef .tc main_arg6)) (W0 (Proc.devRef .tc main_arg7)) (W0 (Proc.devRef .tc main_arg8)) (W0 (Proc.devRef .tc main_arg9)) (rSrc (W0 (Proc.devRef .tc main_arg10))) (rDst (W0 (Proc.devRef .tc main_arg10))) (rNv (W0 (Proc.devRef .tc main_arg10))) := by
  unfold val4
  rw [stage3_v147, val3_v94, val3_v107, val3_arg6, val3_arg7, val3_arg8, val3_arg9, val3_v1, val3_v3, val3_v28]
theorem val4_v160 : val4 W0 (Proc.devRef .tc main_v160)
    = rAggU (refU1 W0) (refI1 W0) (W0 (Proc.devRef .tc main_arg6)) (W0 (Proc.devRef .tc main_arg7)) (W0 (Proc.devRef .tc main_arg8)) (W0 (Proc.devRef .tc main_arg9)) (rSrc (W0 (Proc.devRef .tc main_arg10))) (rDst (W0 (Proc.devRef .tc main_arg10))) (rNv (W0 (Proc.devRef .tc main_arg10))) := by
  unfold val4
  rw [stage3_v160, val3_v94, val3_v107, val3_arg6, val3_arg7, val3_arg8, val3_arg9, val3_v1, val3_v3, val3_v28]

theorem val5_v173 : val5 W0 (Proc.devRef .tc main_v173) = refU2 W0 := by
  unfold val5 refU2
  rw [stage4_v173, val4_v160]
theorem val5_v186 : val5 W0 (Proc.devRef .tc main_v186) = refI2 W0 := by
  unfold val5 refI2
  rw [stage4_v186, val4_v147]

theorem val5_v94 : val5 W0 (Proc.devRef .tc main_v94) = refU1 W0 := ((val5_keep W0 main_v94 (by decide)).trans ((val4_keep W0 main_v94 (by decide)).trans (val3_v94 W0)))
theorem val5_v107 : val5 W0 (Proc.devRef .tc main_v107) = refI1 W0 := ((val5_keep W0 main_v107 (by decide)).trans ((val4_keep W0 main_v107 (by decide)).trans (val3_v107 W0)))
theorem val5_arg0 : val5 W0 (Proc.devRef .tc main_arg0) = (W0 (Proc.devRef .tc main_arg0)) := ((val5_keep W0 main_arg0 (by decide)).trans ((val4_keep W0 main_arg0 (by decide)).trans ((val3_keep W0 main_arg0 (by decide)).trans ((val2_keep W0 main_arg0 (by decide)).trans (val1_keep W0 main_arg0 (by decide))))))
theorem val5_arg1 : val5 W0 (Proc.devRef .tc main_arg1) = (W0 (Proc.devRef .tc main_arg1)) := ((val5_keep W0 main_arg1 (by decide)).trans ((val4_keep W0 main_arg1 (by decide)).trans ((val3_keep W0 main_arg1 (by decide)).trans ((val2_keep W0 main_arg1 (by decide)).trans (val1_keep W0 main_arg1 (by decide))))))
theorem val5_arg11 : val5 W0 (Proc.devRef .tc main_arg11) = (W0 (Proc.devRef .tc main_arg11)) := ((val5_keep W0 main_arg11 (by decide)).trans ((val4_keep W0 main_arg11 (by decide)).trans ((val3_keep W0 main_arg11 (by decide)).trans ((val2_keep W0 main_arg11 (by decide)).trans (val1_keep W0 main_arg11 (by decide))))))
theorem val5_arg12 : val5 W0 (Proc.devRef .tc main_arg12) = (W0 (Proc.devRef .tc main_arg12)) := ((val5_keep W0 main_arg12 (by decide)).trans ((val4_keep W0 main_arg12 (by decide)).trans ((val3_keep W0 main_arg12 (by decide)).trans ((val2_keep W0 main_arg12 (by decide)).trans (val1_keep W0 main_arg12 (by decide))))))
theorem val5_arg13 : val5 W0 (Proc.devRef .tc main_arg13) = (W0 (Proc.devRef .tc main_arg13)) := ((val5_keep W0 main_arg13 (by decide)).trans ((val4_keep W0 main_arg13 (by decide)).trans ((val3_keep W0 main_arg13 (by decide)).trans ((val2_keep W0 main_arg13 (by decide)).trans (val1_keep W0 main_arg13 (by decide))))))

theorem val6_v195 : val6 W0 (Proc.devRef .tc main_v195) = rFinalU (W0 (Proc.devRef .tc main_arg0)) (refU1 W0) (refU2 W0) (W0 (Proc.devRef .tc main_arg11)) := by
  unfold val6
  rw [stage5_v195, val5_arg0, val5_v94, val5_v173, val5_arg11]
theorem val6_v202 : val6 W0 (Proc.devRef .tc main_v202) = rFinalI (W0 (Proc.devRef .tc main_arg1)) (refI1 W0) (refI2 W0) (W0 (Proc.devRef .tc main_arg12)) := by
  unfold val6
  rw [stage5_v202, val5_arg1, val5_v107, val5_v186, val5_arg12]
theorem val6_v209 : val6 W0 (Proc.devRef .tc main_v209) = rFinalI (W0 (Proc.devRef .tc main_arg1)) (refI1 W0) (refI2 W0) (W0 (Proc.devRef .tc main_arg13)) := by
  unfold val6
  rw [stage5_v209, val5_arg1, val5_v107, val5_v186, val5_arg13]

/-! ## The reference's results and arguments after all its operations -/

theorem ref_v195 : after (ops (F := Ideal)) W0 (Proc.devRef .tc main_v195) = rFinalU (W0 (Proc.devRef .tc main_arg0)) (refU1 W0) (refU2 W0) (W0 (Proc.devRef .tc main_arg11)) := by
  rw [after_ops_val6]; exact val6_v195 W0
theorem ref_v202 : after (ops (F := Ideal)) W0 (Proc.devRef .tc main_v202) = rFinalI (W0 (Proc.devRef .tc main_arg1)) (refI1 W0) (refI2 W0) (W0 (Proc.devRef .tc main_arg12)) := by
  rw [after_ops_val6]; exact val6_v202 W0
theorem ref_v209 : after (ops (F := Ideal)) W0 (Proc.devRef .tc main_v209) = rFinalI (W0 (Proc.devRef .tc main_arg1)) (refI1 W0) (refI2 W0) (W0 (Proc.devRef .tc main_arg13)) := by
  rw [after_ops_val6]; exact val6_v209 W0

/-- No operation writes an argument. -/
theorem ref_arg0 : after (ops (F := Ideal)) W0 (Proc.devRef .tc main_arg0) = (W0 (Proc.devRef .tc main_arg0)) := by
  rw [after_ops_val6]; exact ((val6_keep W0 main_arg0 (by decide)).trans ((val5_keep W0 main_arg0 (by decide)).trans ((val4_keep W0 main_arg0 (by decide)).trans ((val3_keep W0 main_arg0 (by decide)).trans ((val2_keep W0 main_arg0 (by decide)).trans (val1_keep W0 main_arg0 (by decide)))))))
theorem ref_arg1 : after (ops (F := Ideal)) W0 (Proc.devRef .tc main_arg1) = (W0 (Proc.devRef .tc main_arg1)) := by
  rw [after_ops_val6]; exact ((val6_keep W0 main_arg1 (by decide)).trans ((val5_keep W0 main_arg1 (by decide)).trans ((val4_keep W0 main_arg1 (by decide)).trans ((val3_keep W0 main_arg1 (by decide)).trans ((val2_keep W0 main_arg1 (by decide)).trans (val1_keep W0 main_arg1 (by decide)))))))
theorem ref_arg2 : after (ops (F := Ideal)) W0 (Proc.devRef .tc main_arg2) = (W0 (Proc.devRef .tc main_arg2)) := by
  rw [after_ops_val6]; exact ((val6_keep W0 main_arg2 (by decide)).trans ((val5_keep W0 main_arg2 (by decide)).trans ((val4_keep W0 main_arg2 (by decide)).trans ((val3_keep W0 main_arg2 (by decide)).trans ((val2_keep W0 main_arg2 (by decide)).trans (val1_keep W0 main_arg2 (by decide)))))))
theorem ref_arg3 : after (ops (F := Ideal)) W0 (Proc.devRef .tc main_arg3) = (W0 (Proc.devRef .tc main_arg3)) := by
  rw [after_ops_val6]; exact ((val6_keep W0 main_arg3 (by decide)).trans ((val5_keep W0 main_arg3 (by decide)).trans ((val4_keep W0 main_arg3 (by decide)).trans ((val3_keep W0 main_arg3 (by decide)).trans ((val2_keep W0 main_arg3 (by decide)).trans (val1_keep W0 main_arg3 (by decide)))))))
theorem ref_arg4 : after (ops (F := Ideal)) W0 (Proc.devRef .tc main_arg4) = (W0 (Proc.devRef .tc main_arg4)) := by
  rw [after_ops_val6]; exact ((val6_keep W0 main_arg4 (by decide)).trans ((val5_keep W0 main_arg4 (by decide)).trans ((val4_keep W0 main_arg4 (by decide)).trans ((val3_keep W0 main_arg4 (by decide)).trans ((val2_keep W0 main_arg4 (by decide)).trans (val1_keep W0 main_arg4 (by decide)))))))
theorem ref_arg5 : after (ops (F := Ideal)) W0 (Proc.devRef .tc main_arg5) = (W0 (Proc.devRef .tc main_arg5)) := by
  rw [after_ops_val6]; exact ((val6_keep W0 main_arg5 (by decide)).trans ((val5_keep W0 main_arg5 (by decide)).trans ((val4_keep W0 main_arg5 (by decide)).trans ((val3_keep W0 main_arg5 (by decide)).trans ((val2_keep W0 main_arg5 (by decide)).trans (val1_keep W0 main_arg5 (by decide)))))))
theorem ref_arg6 : after (ops (F := Ideal)) W0 (Proc.devRef .tc main_arg6) = (W0 (Proc.devRef .tc main_arg6)) := by
  rw [after_ops_val6]; exact ((val6_keep W0 main_arg6 (by decide)).trans ((val5_keep W0 main_arg6 (by decide)).trans ((val4_keep W0 main_arg6 (by decide)).trans ((val3_keep W0 main_arg6 (by decide)).trans ((val2_keep W0 main_arg6 (by decide)).trans (val1_keep W0 main_arg6 (by decide)))))))
theorem ref_arg7 : after (ops (F := Ideal)) W0 (Proc.devRef .tc main_arg7) = (W0 (Proc.devRef .tc main_arg7)) := by
  rw [after_ops_val6]; exact ((val6_keep W0 main_arg7 (by decide)).trans ((val5_keep W0 main_arg7 (by decide)).trans ((val4_keep W0 main_arg7 (by decide)).trans ((val3_keep W0 main_arg7 (by decide)).trans ((val2_keep W0 main_arg7 (by decide)).trans (val1_keep W0 main_arg7 (by decide)))))))
theorem ref_arg8 : after (ops (F := Ideal)) W0 (Proc.devRef .tc main_arg8) = (W0 (Proc.devRef .tc main_arg8)) := by
  rw [after_ops_val6]; exact ((val6_keep W0 main_arg8 (by decide)).trans ((val5_keep W0 main_arg8 (by decide)).trans ((val4_keep W0 main_arg8 (by decide)).trans ((val3_keep W0 main_arg8 (by decide)).trans ((val2_keep W0 main_arg8 (by decide)).trans (val1_keep W0 main_arg8 (by decide)))))))
theorem ref_arg9 : after (ops (F := Ideal)) W0 (Proc.devRef .tc main_arg9) = (W0 (Proc.devRef .tc main_arg9)) := by
  rw [after_ops_val6]; exact ((val6_keep W0 main_arg9 (by decide)).trans ((val5_keep W0 main_arg9 (by decide)).trans ((val4_keep W0 main_arg9 (by decide)).trans ((val3_keep W0 main_arg9 (by decide)).trans ((val2_keep W0 main_arg9 (by decide)).trans (val1_keep W0 main_arg9 (by decide)))))))
theorem ref_arg10 : after (ops (F := Ideal)) W0 (Proc.devRef .tc main_arg10) = (W0 (Proc.devRef .tc main_arg10)) := by
  rw [after_ops_val6]; exact ((val6_keep W0 main_arg10 (by decide)).trans ((val5_keep W0 main_arg10 (by decide)).trans ((val4_keep W0 main_arg10 (by decide)).trans ((val3_keep W0 main_arg10 (by decide)).trans ((val2_keep W0 main_arg10 (by decide)).trans (val1_keep W0 main_arg10 (by decide)))))))
theorem ref_arg11 : after (ops (F := Ideal)) W0 (Proc.devRef .tc main_arg11) = (W0 (Proc.devRef .tc main_arg11)) := by
  rw [after_ops_val6]; exact ((val6_keep W0 main_arg11 (by decide)).trans ((val5_keep W0 main_arg11 (by decide)).trans ((val4_keep W0 main_arg11 (by decide)).trans ((val3_keep W0 main_arg11 (by decide)).trans ((val2_keep W0 main_arg11 (by decide)).trans (val1_keep W0 main_arg11 (by decide)))))))
theorem ref_arg12 : after (ops (F := Ideal)) W0 (Proc.devRef .tc main_arg12) = (W0 (Proc.devRef .tc main_arg12)) := by
  rw [after_ops_val6]; exact ((val6_keep W0 main_arg12 (by decide)).trans ((val5_keep W0 main_arg12 (by decide)).trans ((val4_keep W0 main_arg12 (by decide)).trans ((val3_keep W0 main_arg12 (by decide)).trans ((val2_keep W0 main_arg12 (by decide)).trans (val1_keep W0 main_arg12 (by decide)))))))
theorem ref_arg13 : after (ops (F := Ideal)) W0 (Proc.devRef .tc main_arg13) = (W0 (Proc.devRef .tc main_arg13)) := by
  rw [after_ops_val6]; exact ((val6_keep W0 main_arg13 (by decide)).trans ((val5_keep W0 main_arg13 (by decide)).trans ((val4_keep W0 main_arg13 (by decide)).trans ((val3_keep W0 main_arg13 (by decide)).trans ((val2_keep W0 main_arg13 (by decide)).trans (val1_keep W0 main_arg13 (by decide)))))))

end Chain

end Cert.ReferenceIdeal.Hand

end
-- ==== Proof.PadSum.lean ====
/-
  Sums over a padded edge list, on the extended reals.

  A list of `nE` edges is padded to `nP` rows. A sum over the padded rows that satisfy a predicate equals the sum over
  the true edges that satisfy the corresponding predicate, when the summands agree on the true edges and vanish on the
  padding rows. The message of a true edge, whose indicator is `1`, is the plain expression without the indicator, and
  the message of a padding row, whose indicator is `0`, is `0`.
-/
import proofs.«155537_j65712999628849_1_alg».proof.Proof.Spec

noncomputable section

open scoped BigOperators

namespace Cert.Ngcf

open Idealize.ShloMosaic Idealize.ShloMosaic.ValueIdx Cert.Dense

/-- A true edge as a row of the padded list. -/
def up (e : Fin nE) : Fin nP := ⟨e.val, Nat.lt_of_lt_of_le e.isLt (by norm_num [nE, nP])⟩

theorem up_val (e : Fin nE) : (up e).val = e.val := rfl

/-- The sum over the padded rows selected by `P` is the sum over the true edges selected by `Q`. -/
theorem sum_pad (P : Fin nP → Prop) [DecidablePred P] (Q : Fin nE → Prop) [DecidablePred Q]
    (f : Fin nP → EReal) (g : Fin nE → EReal)
    (hPQ : ∀ e : Fin nE, P (up e) ↔ Q e) (hfg : ∀ e : Fin nE, f (up e) = g e)
    (hz : ∀ e' : Fin nP, nE ≤ e'.val → f e' = 0) :
    ∑ e' ∈ Finset.univ.filter P, f e' = ∑ e ∈ Finset.univ.filter Q, g e := by
  symm
  refine Finset.sum_bij_ne_zero (fun e _ _ => up e) ?_ ?_ ?_ ?_
  · intro e he _
    rw [Finset.mem_filter] at he ⊢
    exact ⟨Finset.mem_univ _, (hPQ e).mpr he.2⟩
  · intro e₁ _ _ e₂ _ _ h
    exact Fin.ext (by have := congrArg Fin.val h; simpa [up] using this)
  · intro e' he' hne
    have hlt : e'.val < nE := by
      by_contra hge
      exact hne (hz e' (by omega))
    refine ⟨⟨e'.val, hlt⟩, ?_, ?_, ?_⟩
    · rw [Finset.mem_filter] at he' ⊢
      refine ⟨Finset.mem_univ _, (hPQ ⟨e'.val, hlt⟩).mp ?_⟩
      have : up ⟨e'.val, hlt⟩ = e' := Fin.ext rfl
      rw [this]; exact he'.2
    · have : up ⟨e'.val, hlt⟩ = e' := Fin.ext rfl
      rw [← hfg, this]; exact hne
    · exact Fin.ext rfl
  · intro e _ _
    exact (hfg e).symm

theorem valid_up (e : Fin nE) : valid (up e) = 1 := by
  unfold valid
  rw [if_pos (by have := e.isLt; show e.val < nE; exact this)]

theorem valid_pad (e' : Fin nP) (h : nE ≤ e'.val) : valid e' = 0 := by
  unfold valid
  rw [if_neg (by omega)]

/-- A padding row's message is zero. -/
theorem msg_pad (comb : Mat nP 128) (nrm : Mat nP 1) (w1 : Mat 64 64) (b1 : Mat 1 64) (w2 : Mat 64 64) (b2 : Mat 1 64)
    (h : Fin 64 → Fin 128) (e' : Fin nP) (q : Fin 64) (he : nE ≤ e'.val) :
    msg comb nrm w1 b1 w2 b2 h e' q = 0 := by
  unfold msg
  rw [valid_pad e' he, zero_mul]

/-- A true edge's message is the weighted projection plus the cross projection. -/
theorem msg_up (comb : Mat nP 128) (nrm : Mat nP 1) (w1 : Mat 64 64) (b1 : Mat 1 64) (w2 : Mat 64 64) (b2 : Mat 1 64)
    (h : Fin 64 → Fin 128) (e : Fin nE) (q : Fin 64) :
    msg comb nrm w1 b1 w2 b2 h (up e) q
      = nrm (ix2 (up e) (0 : Fin 1)) * proj comb h w1 b1 (up e) q + cross comb w2 b2 (up e) q := by
  unfold msg
  rw [valid_up e, one_mul]

end Cert.Ngcf

end
-- ==== Proof.Bridge.lean ====
/-
  One aggregation layer: the padded, kernel-side spelling equals the reference's spelling, on the extended reals.

  The kernel gathers the rows of both node tables along the padded edge list, forms the message block and sums its two
  halves per target entry; the reference gathers the projected tables along the true edge list and sums the messages.
  On a true edge the two messages are the same expression (the indicator is `1`); a padding row contributes `0`; so the
  two sums agree entry by entry. No finiteness is needed: only `1 · x = x`, `0 · x = 0` and a re-indexing of the sum.
-/
import proofs.«155537_j65712999628849_1_alg».proof.Proof.KHost
import proofs.«155537_j65712999628849_1_alg».proof.Proof.RHost
import proofs.«155537_j65712999628849_1_alg».proof.Proof.PadSum

set_option maxRecDepth 16384

noncomputable section

open scoped BigOperators

namespace Cert.Ngcf

open Idealize.ShloMosaic Idealize.ShloMosaic.ValueIdx Cert.Dense

/-- What relates the padded edge data to the true edge data. -/
structure Padded (s d : IVec ⟨1, ![nE]⟩ 32) (sp dp : IVec ⟨1, ![nP]⟩ 32) (nv : Mat nE 1) (nrmP : Mat nP 1) : Prop where
  hs : ∀ e : Fin nE, sp (ix1 (up e)) = s (ix1 e)
  hd : ∀ e : Fin nE, dp (ix1 (up e)) = d (ix1 e)
  hn : ∀ e : Fin nE, nrmP (ix2 (up e) (0 : Fin 1)) = nv (ix2 e (0 : Fin 1))

variable (u : Mat 100000 64) (it : Mat 50000 64) (w1 w2 : Mat 64 64) (b1 b2 : Row 64) (b1r b2r : Mat 1 64)
  (s d : IVec ⟨1, ![nE]⟩ 32) (sp dp : IVec ⟨1, ![nP]⟩ 32) (nv : Mat nE 1) (nrmP : Mat nP 1)

theorem aggI_bridge (hb1 : ∀ q : Fin 64, b1r (ix2 (0 : Fin 1) q) = b1 (ix1 q))
    (hb2 : ∀ q : Fin 64, b2r (ix2 (0 : Fin 1) q) = b2 (ix1 q)) (hp : Padded s d sp dp nv nrmP) :
    Cert.KernelIdeal.Hand.kAggI (edgeOut (Cert.KernelIdeal.Hand.kComb u it sp dp) nrmP w1 b1r w2 b2r) dp
      = Cert.ReferenceIdeal.Hand.rAggI u it w1 b1 w2 b2 s d nv := by
  funext i
  obtain ⟨p, q, rfl⟩ : ∃ (p : Fin 50000) (q : Fin 64), i = ix2 p q := ⟨i 0, i 1, eq_ix2 i⟩
  refine (Cert.KernelIdeal.Hand.kAggI_apply _ _ p q).trans
    (Eq.trans ?_ (Cert.ReferenceIdeal.Hand.rAggI_apply u it w1 b1 w2 b2 s d nv p q).symm)
  refine congrArg (fun x => (0 : EReal) + x) ?_
  refine sum_pad _ _ _ _ (fun e => by show (dp (ix1 (up e))).toInt = _ ↔ _; rw [hp.hd e]) (fun e => ?_) (fun e' he' => ?_)
  · rw [edgeOut_lo, msg_up, hp.hn e, Cert.ReferenceIdeal.Hand.rCross_apply]
    unfold proj cross
    simp only [Cert.KernelIdeal.Hand.kComb_lo, Cert.KernelIdeal.Hand.kComb_hi, Cert.KernelIdeal.Hand.kWrap_apply,
      Cert.ReferenceIdeal.Hand.rWrap_apply, hp.hs e, hp.hd e, hb1, hb2]
  · rw [edgeOut_lo, msg_pad _ _ _ _ _ _ _ _ _ he']

theorem aggU_bridge (hb1 : ∀ q : Fin 64, b1r (ix2 (0 : Fin 1) q) = b1 (ix1 q))
    (hb2 : ∀ q : Fin 64, b2r (ix2 (0 : Fin 1) q) = b2 (ix1 q)) (hp : Padded s d sp dp nv nrmP) :
    Cert.KernelIdeal.Hand.kAggU (edgeOut (Cert.KernelIdeal.Hand.kComb u it sp dp) nrmP w1 b1r w2 b2r) sp
      = Cert.ReferenceIdeal.Hand.rAggU u it w1 b1 w2 b2 s d nv := by
  funext i
  obtain ⟨p, q, rfl⟩ : ∃ (p : Fin 100000) (q : Fin 64), i = ix2 p q := ⟨i 0, i 1, eq_ix2 i⟩
  refine (Cert.KernelIdeal.Hand.kAggU_apply _ _ p q).trans
    (Eq.trans ?_ (Cert.ReferenceIdeal.Hand.rAggU_apply u it w1 b1 w2 b2 s d nv p q).symm)
  refine congrArg (fun x => (0 : EReal) + x) ?_
  refine sum_pad _ _ _ _ (fun e => by show (sp (ix1 (up e))).toInt = _ ↔ _; rw [hp.hs e]) (fun e => ?_) (fun e' he' => ?_)
  · rw [edgeOut_hi, msg_up, hp.hn e, Cert.ReferenceIdeal.Hand.rCross_apply]
    unfold proj cross
    simp only [Cert.KernelIdeal.Hand.kComb_lo, Cert.KernelIdeal.Hand.kComb_hi, Cert.KernelIdeal.Hand.kWrap_apply,
      Cert.ReferenceIdeal.Hand.rWrap_apply, hp.hs e, hp.hd e, hb1, hb2]
  · rw [edgeOut_hi, msg_pad _ _ _ _ _ _ _ _ _ he']

end Cert.Ngcf

end
-- ==== Proof.PadRead.lean ====
/-
  A vector of `nE` entries, and a column of `nE` rows, padded at the end to `nP`: a true edge's row of the padded array
  is the row of the original.
-/
import proofs.«155537_j65712999628849_1_alg».proof.Proof.PadSum
import Idealize.ShloMosaic.Lib.KernelVsHost
import Idealize.ShloMosaic.Lib.ValueLayout

set_option maxRecDepth 16384

noncomputable section

namespace Cert.Ngcf

open Idealize.ShloMosaic Idealize.ShloMosaic.ValueIdx Cert.Dense

theorem padI_up {α : Type} (r : (⟨1, ![nE]⟩ : Shape).Idx → α) {u : Shape} (v : u.Idx → α)
    (h : (⟨1, ![nE]⟩ : Shape).Pads ![0] ![3520] ![0] ⟨1, ![nP]⟩) (hu : 0 < u.numel) (e : Fin nE) :
    pad ⟨1, ![nP]⟩ ![0] ![3520] ![0] r v h hu (ix1 (up e)) = r (ix1 e) :=
  pad_apply_of_inside ![0] ![3520] ![0] r v h hu (ix1 (up e)) (ix1 e) (fun a => by
    match a with
    | ⟨0, _⟩ => show e.val = 0 + e.val * (0 + 1); omega)

theorem padN_up {α : Type} (x : (⟨2, ![nE, 1]⟩ : Shape).Idx → α) {u : Shape} (v : u.Idx → α)
    (h : (⟨2, ![nE, 1]⟩ : Shape).Pads ![0, 0] ![3520, 0] ![0, 0] ⟨2, ![nP, 1]⟩) (hu : 0 < u.numel) (e : Fin nE) :
    pad ⟨2, ![nP, 1]⟩ ![0, 0] ![3520, 0] ![0, 0] x v h hu (ix2 (up e) (0 : Fin 1)) = x (ix2 e (0 : Fin 1)) :=
  pad_apply_of_inside ![0, 0] ![3520, 0] ![0, 0] x v h hu (ix2 (up e) (0 : Fin 1)) (ix2 e (0 : Fin 1)) (fun a => by
    match a with
    | ⟨0, _⟩ => show e.val = 0 + e.val * (0 + 1); omega
    | ⟨1, _⟩ => show (0 : ℕ) = 0 + 0 * (0 + 1); omega)

end Cert.Ngcf

end
-- ==== Proof.CrossNs.lean ====
/-
  The kernel's program and the reference's program compute the same three result arrays, as functions of the argument
  arrays, on the extended reals.

  Both programs apply the same host operations to the edge array (its two rows, the degree counts, the normalisation),
  and the same side-by-side lookup to the final tables: those functions are equal as functions. The kernel pads the edge
  list and the normalisation column; on the true edges the padded data restricts to the reference's. One layer in the
  kernel's spelling — gather along the padded list, message block, sums of its halves, node epilogue — is then the
  reference's layer, by the padded-sum bridge and the host epilogue's closed form; two layers and the final lookup follow.
-/
import proofs.«155537_j65712999628849_1_alg».proof.Proof.Bridge
import proofs.«155537_j65712999628849_1_alg».proof.Proof.PadRead
import proofs.«155537_j65712999628849_1_alg».proof.Proof.EpiHost
import proofs.«155537_j65712999628849_1_alg».proof.Proof.LibRowBlocks
import proofs.«155537_j65712999628849_1_alg».proof.Proof.LibHostLayout
import proofs.«155537_j65712999628849_1_alg».proof.Proof.KRead
import proofs.«155537_j65712999628849_1_alg».proof.Proof.RefStages
import Idealize.ShloMosaic.Lib.ValueLayout

set_option maxRecDepth 16384

noncomputable section

namespace Cert.Ngcf

open Idealize.ShloMosaic Idealize.ShloMosaic.ValueIdx Cert.Dense
open Cert.KernelIdeal.Hand (kSrc kDst kDegU kDegI kNv27 kNvCol kPadI kPadN kRow kWrapB kFinalU kFinalI kEp)
open Cert.KernelIdeal.Hand (kComb kAggU kAggI)
open Cert.ReferenceIdeal.Hand (rSrc rDst rDegU rDegI rNv27 rNv rWrapB rFinalU rFinalI rAggU rAggI)

/-! ## The two programs' host functions are the same functions -/

theorem kSrc_eq (a10 : IVec ⟨2, ![2, nE]⟩ 32) : kSrc a10 = rSrc a10 := rfl
theorem kDst_eq (a10 : IVec ⟨2, ![2, nE]⟩ 32) : kDst a10 = rDst a10 := rfl
theorem kDegU_eq (r : IVec ⟨1, ![nE]⟩ 32) : kDegU r = rDegU r := rfl
theorem kDegI_eq (r : IVec ⟨1, ![nE]⟩ 32) : kDegI r = rDegI r := rfl
theorem kNv27_eq (a10 : IVec ⟨2, ![2, nE]⟩ 32) : kNv27 a10 = rNv27 a10 := rfl
theorem kWrapB_eq (nn : BitVec 32) (r : IVec ⟨1, ![16384]⟩ 32) : kWrapB nn r = rWrapB nn r := rfl
theorem kFinalU_eq (A B C : Mat 100000 64) (idx : IVec ⟨1, ![16384]⟩ 32) : kFinalU A B C idx = rFinalU A B C idx := rfl
theorem kFinalI_eq (A B C : Mat 50000 64) (idx : IVec ⟨1, ![16384]⟩ 32) : kFinalI A B C idx = rFinalI A B C idx := rfl

/-! ## The padded edge data against the true edge data -/

/-- The kernel's padded source and target entries and its padded normalisation column restrict, on the true edges, to
    the reference's entries and normalisation column. -/
theorem padded_args (a10 : IVec ⟨2, ![2, nE]⟩ 32) :
    Padded (rSrc a10) (rDst a10) (kPadI (kSrc a10)) (kPadI (kDst a10)) (rNv a10) (kPadN (kNvCol a10)) where
  hs e := (padI_up (kSrc a10) _ _ _ e).trans (congrFun (kSrc_eq a10) (ix1 e))
  hd e := (padI_up (kDst a10) _ _ _ e).trans (congrFun (kDst_eq a10) (ix1 e))
  hn e := (padN_up (kNvCol a10) _ _ _ e).trans
    ((Cert.RowBlocks.shapeCast_col_apply (kNv27 a10) _ e (0 : Fin 1)).trans
      ((congrFun (kNv27_eq a10) (ix1 e)).trans (Cert.HostLayout.bcast_vec_col (rNv27 a10) _ e (0 : Fin 1)).symm))

/-- A bias vector laid out as one row reads the vector. -/
theorem kRow_apply (b : Row 64) (q : Fin 64) : kRow b (ix2 (0 : Fin 1) q) = b (ix1 q) :=
  shapeCast_a_1a_apply b _ (0 : Fin 1) q

/-! ## One layer, and the network -/

/-- The reference's epilogue at the two extents, with its printed shape facts. -/
abbrev refEpiU (X : Mat 100000 64) : Mat 100000 64 :=
  Cert.EpiHost.hostEpi Cert.ReferenceIdeal.Gen.bcast_S_S100000x64 Cert.ReferenceIdeal.Gen.bcast_S_S100000x1
    Cert.ReferenceIdeal.Gen.reducesTo_S100000x64_S100000_d1 Cert.ReferenceIdeal.Gen.h_S_
    Cert.ReferenceIdeal.Gen.bcast_S100000_S100000x1_0 Cert.ReferenceIdeal.Gen.bcast_S100000x1_S100000x64_0_1 X
abbrev refEpiI (X : Mat 50000 64) : Mat 50000 64 :=
  Cert.EpiHost.hostEpi Cert.ReferenceIdeal.Gen.bcast_S_S50000x64 Cert.ReferenceIdeal.Gen.bcast_S_S50000x1
    Cert.ReferenceIdeal.Gen.reducesTo_S50000x64_S50000_d1 Cert.ReferenceIdeal.Gen.h_S_
    Cert.ReferenceIdeal.Gen.bcast_S50000_S50000x1_0 Cert.ReferenceIdeal.Gen.bcast_S50000x1_S50000x64_0_1 X

theorem refEpiU_eq (X : Mat 100000 64) : refEpiU X = kEp X := Cert.EpiHost.hostEpi_eq _ _ _ (by decide) _ _ _ X
theorem refEpiI_eq (X : Mat 50000 64) : refEpiI X = kEp X := Cert.EpiHost.hostEpi_eq _ _ _ (by decide) _ _ _ X

variable (u : Mat 100000 64) (it : Mat 50000 64) (w1 w2 : Mat 64 64) (b1 b2 : Row 64)
  (s d : IVec ⟨1, ![nE]⟩ 32) (sp dp : IVec ⟨1, ![nP]⟩ 32) (nv : Mat nE 1) (nrmP : Mat nP 1)

/-- The message block of one layer in the kernel's spelling. -/
def layerKMsg : Mat nP 128 := edgeOut (kComb u it sp dp) nrmP w1 (kRow b1) w2 (kRow b2)
/-- One layer's user table and item table in the kernel's spelling, -/
def layerKU : Mat 100000 64 := kEp (kAggU (layerKMsg u it w1 w2 b1 b2 sp dp nrmP) sp)
def layerKI : Mat 50000 64 := kEp (kAggI (layerKMsg u it w1 w2 b1 b2 sp dp nrmP) dp)
/-- and in the reference's. -/
def layerRU : Mat 100000 64 := refEpiU (rAggU u it w1 b1 w2 b2 s d nv)
def layerRI : Mat 50000 64 := refEpiI (rAggI u it w1 b1 w2 b2 s d nv)

theorem layerU_eq (hp : Padded s d sp dp nv nrmP) :
    layerKU u it w1 w2 b1 b2 sp dp nrmP = layerRU u it w1 w2 b1 b2 s d nv :=
  (congrArg kEp (aggU_bridge u it w1 w2 b1 b2 (kRow b1) (kRow b2) s d sp dp nv nrmP (kRow_apply b1) (kRow_apply b2) hp)).trans
    (refEpiU_eq _).symm

theorem layerI_eq (hp : Padded s d sp dp nv nrmP) :
    layerKI u it w1 w2 b1 b2 sp dp nrmP = layerRI u it w1 w2 b1 b2 s d nv :=
  (congrArg kEp (aggI_bridge u it w1 w2 b1 b2 (kRow b1) (kRow b2) s d sp dp nv nrmP (kRow_apply b1) (kRow_apply b2) hp)).trans
    (refEpiI_eq _).symm

section Net

variable (a0 : Mat 100000 64) (a1 : Mat 50000 64) (a2 : Mat 64 64) (a3 : Row 64) (a4 : Mat 64 64) (a5 : Row 64)
  (a6 : Mat 64 64) (a7 : Row 64) (a8 : Mat 64 64) (a9 : Row 64) (a10 : IVec ⟨2, ![2, nE]⟩ 32)

/-- The kernel program's two layers, from its arguments. -/
def netKU1 : Mat 100000 64 := layerKU a0 a1 a2 a4 a3 a5 (kPadI (kSrc a10)) (kPadI (kDst a10)) (kPadN (kNvCol a10))
def netKI1 : Mat 50000 64 := layerKI a0 a1 a2 a4 a3 a5 (kPadI (kSrc a10)) (kPadI (kDst a10)) (kPadN (kNvCol a10))
def netKU2 : Mat 100000 64 :=
  layerKU (netKU1 a0 a1 a2 a3 a4 a5 a10) (netKI1 a0 a1 a2 a3 a4 a5 a10) a6 a8 a7 a9 (kPadI (kSrc a10)) (kPadI (kDst a10)) (kPadN (kNvCol a10))
def netKI2 : Mat 50000 64 :=
  layerKI (netKU1 a0 a1 a2 a3 a4 a5 a10) (netKI1 a0 a1 a2 a3 a4 a5 a10) a6 a8 a7 a9 (kPadI (kSrc a10)) (kPadI (kDst a10)) (kPadN (kNvCol a10))

/-- The reference program's two layers, from its arguments. -/
def netRU1 : Mat 100000 64 := layerRU a0 a1 a2 a4 a3 a5 (rSrc a10) (rDst a10) (rNv a10)
def netRI1 : Mat 50000 64 := layerRI a0 a1 a2 a4 a3 a5 (rSrc a10) (rDst a10) (rNv a10)
def netRU2 : Mat 100000 64 :=
  layerRU (netRU1 a0 a1 a2 a3 a4 a5 a10) (netRI1 a0 a1 a2 a3 a4 a5 a10) a6 a8 a7 a9 (rSrc a10) (rDst a10) (rNv a10)
def netRI2 : Mat 50000 64 :=
  layerRI (netRU1 a0 a1 a2 a3 a4 a5 a10) (netRI1 a0 a1 a2 a3 a4 a5 a10) a6 a8 a7 a9 (rSrc a10) (rDst a10) (rNv a10)

theorem netU1_eq : netKU1 a0 a1 a2 a3 a4 a5 a10 = netRU1 a0 a1 a2 a3 a4 a5 a10 := layerU_eq _ _ _ _ _ _ _ _ _ _ _ _ (padded_args a10)
theorem netI1_eq : netKI1 a0 a1 a2 a3 a4 a5 a10 = netRI1 a0 a1 a2 a3 a4 a5 a10 := layerI_eq _ _ _ _ _ _ _ _ _ _ _ _ (padded_args a10)

theorem netU2_eq : netKU2 a0 a1 a2 a3 a4 a5 a6 a7 a8 a9 a10 = netRU2 a0 a1 a2 a3 a4 a5 a6 a7 a8 a9 a10 :=
  (congrArg₂ (fun U I => layerKU U I a6 a8 a7 a9 (kPadI (kSrc a10)) (kPadI (kDst a10)) (kPadN (kNvCol a10)))
      (netU1_eq a0 a1 a2 a3 a4 a5 a10) (netI1_eq a0 a1 a2 a3 a4 a5 a10)).trans
    (layerU_eq _ _ _ _ _ _ _ _ _ _ _ _ (padded_args a10))

theorem netI2_eq : netKI2 a0 a1 a2 a3 a4 a5 a6 a7 a8 a9 a10 = netRI2 a0 a1 a2 a3 a4 a5 a6 a7 a8 a9 a10 :=
  (congrArg₂ (fun U I => layerKI U I a6 a8 a7 a9 (kPadI (kSrc a10)) (kPadI (kDst a10)) (kPadN (kNvCol a10)))
      (netU1_eq a0 a1 a2 a3 a4 a5 a10) (netI1_eq a0 a1 a2 a3 a4 a5 a10)).trans
    (layerI_eq _ _ _ _ _ _ _ _ _ _ _ _ (padded_args a10))

/-- The user rows the two programs return are the same array. -/
theorem netU_eq (a11 : IVec ⟨1, ![16384]⟩ 32) :
    kFinalU a0 (netKU1 a0 a1 a2 a3 a4 a5 a10) (netKU2 a0 a1 a2 a3 a4 a5 a6 a7 a8 a9 a10) a11
      = rFinalU a0 (netRU1 a0 a1 a2 a3 a4 a5 a10) (netRU2 a0 a1 a2 a3 a4 a5 a6 a7 a8 a9 a10) a11 :=
  (congrArg₂ (fun X Y => kFinalU a0 X Y a11) (netU1_eq a0 a1 a2 a3 a4 a5 a10) (netU2_eq a0 a1 a2 a3 a4 a5 a6 a7 a8 a9 a10)).trans
    (kFinalU_eq _ _ _ _)

/-- The item rows the two programs return, at either batch of items, are the same array. -/
theorem netI_eq (a12 : IVec ⟨1, ![16384]⟩ 32) :
    kFinalI a1 (netKI1 a0 a1 a2 a3 a4 a5 a10) (netKI2 a0 a1 a2 a3 a4 a5 a6 a7 a8 a9 a10) a12
      = rFinalI a1 (netRI1 a0 a1 a2 a3 a4 a5 a10) (netRI2 a0 a1 a2 a3 a4 a5 a6 a7 a8 a9 a10) a12 :=
  (congrArg₂ (fun X Y => kFinalI a1 X Y a12) (netI1_eq a0 a1 a2 a3 a4 a5 a10) (netI2_eq a0 a1 a2 a3 a4 a5 a6 a7 a8 a9 a10)).trans
    (kFinalI_eq _ _ _ _)

end Net

/-! ## The kernel program's tables, as read back through @main, are these functions of its arguments -/

section Links

open Idealize.ShloMosaic.TcCoe
open Cert.KernelIdeal (nD τ sig main_arg0 main_arg1 main_arg2 main_arg3 main_arg4 main_arg5 main_arg6 main_arg7 main_arg8 main_arg9 main_arg10)

variable (m : (ℓ : Loc nD τ sig) → Buf (Elt Ideal) ℓ) (c : Dev nD)

theorem kU1_net : Cert.KernelIdeal.Hand.kU1 m c
    = netKU1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg10)) := rfl
theorem kI1_net : Cert.KernelIdeal.Hand.kI1 m c
    = netKI1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg10)) := rfl
theorem kU2_net : Cert.KernelIdeal.Hand.kU2 m c
    = netKU2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := rfl
theorem kI2_net : Cert.KernelIdeal.Hand.kI2 m c
    = netKI2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := rfl

end Links

/-! ## The reference program's tables, as read back through @main, are these functions of its arguments -/

section RefLinks

open Idealize.ShloMosaic.StableHlo

variable (W0 : Valuation Cert.ReferenceIdeal.τ Cert.ReferenceIdeal.sig (Elt Ideal))

theorem refU1_net : Cert.ReferenceIdeal.Hand.refU1 W0
    = netRU1 (W0 (Proc.devRef .tc Cert.ReferenceIdeal.main_arg0)) (W0 (Proc.devRef .tc Cert.ReferenceIdeal.main_arg1)) (W0 (Proc.devRef .tc Cert.ReferenceIdeal.main_arg2)) (W0 (Proc.devRef .tc Cert.ReferenceIdeal.main_arg3)) (W0 (Proc.devRef .tc Cert.ReferenceIdeal.main_arg4)) (W0 (Proc.devRef .tc Cert.ReferenceIdeal.main_arg5)) (W0 (Proc.devRef .tc Cert.ReferenceIdeal.main_arg10)) := rfl
theorem refI1_net : Cert.ReferenceIdeal.Hand.refI1 W0
    = netRI1 (W0 (Proc.devRef .tc Cert.ReferenceIdeal.main_arg0)) (W0 (Proc.devRef .tc Cert.ReferenceIdeal.main_arg1)) (W0 (Proc.devRef .tc Cert.ReferenceIdeal.main_arg2)) (W0 (Proc.devRef .tc Cert.ReferenceIdeal.main_arg3)) (W0 (Proc.devRef .tc Cert.ReferenceIdeal.main_arg4)) (W0 (Proc.devRef .tc Cert.ReferenceIdeal.main_arg5)) (W0 (Proc.devRef .tc Cert.ReferenceIdeal.main_arg10)) := rfl
theorem refU2_net : Cert.ReferenceIdeal.Hand.refU2 W0
    = netRU2 (W0 (Proc.devRef .tc Cert.ReferenceIdeal.main_arg0)) (W0 (Proc.devRef .tc Cert.ReferenceIdeal.main_arg1)) (W0 (Proc.devRef .tc Cert.ReferenceIdeal.main_arg2)) (W0 (Proc.devRef .tc Cert.ReferenceIdeal.main_arg3)) (W0 (Proc.devRef .tc Cert.ReferenceIdeal.main_arg4)) (W0 (Proc.devRef .tc Cert.ReferenceIdeal.main_arg5)) (W0 (Proc.devRef .tc Cert.ReferenceIdeal.main_arg6)) (W0 (Proc.devRef .tc Cert.ReferenceIdeal.main_arg7)) (W0 (Proc.devRef .tc Cert.ReferenceIdeal.main_arg8)) (W0 (Proc.devRef .tc Cert.ReferenceIdeal.main_arg9)) (W0 (Proc.devRef .tc Cert.ReferenceIdeal.main_arg10)) := rfl
theorem refI2_net : Cert.ReferenceIdeal.Hand.refI2 W0
    = netRI2 (W0 (Proc.devRef .tc Cert.ReferenceIdeal.main_arg0)) (W0 (Proc.devRef .tc Cert.ReferenceIdeal.main_arg1)) (W0 (Proc.devRef .tc Cert.ReferenceIdeal.main_arg2)) (W0 (Proc.devRef .tc Cert.ReferenceIdeal.main_arg3)) (W0 (Proc.devRef .tc Cert.ReferenceIdeal.main_arg4)) (W0 (Proc.devRef .tc Cert.ReferenceIdeal.main_arg5)) (W0 (Proc.devRef .tc Cert.ReferenceIdeal.main_arg6)) (W0 (Proc.devRef .tc Cert.ReferenceIdeal.main_arg7)) (W0 (Proc.devRef .tc Cert.ReferenceIdeal.main_arg8)) (W0 (Proc.devRef .tc Cert.ReferenceIdeal.main_arg9)) (W0 (Proc.devRef .tc Cert.ReferenceIdeal.main_arg10)) := rfl

end RefLinks

end Cert.Ngcf

end
-- ==== Proof.lean ====
/-
  The certificate of a two-layer neighbourhood-aggregation network on a bipartite user–item graph.

  Both programs compute, per layer, for every edge `e` from user `s e` to item `d e` the messages
  `c e · (x W1 + b1) + ((x_s ∘ x_d) W2 + b2)` (with `x` the source's features for the item-side message and the
  target's for the user-side one, `c e = (deg (s e) · deg (d e))^(-1/2)`), sum them per target node, apply a leaky
  rectifier and divide each row by the larger of its Euclidean norm and a floor; the results are rows of the three
  feature tables side by side, looked up at a batch of users and at two batches of items.

  The kernel program pads the edge list to a multiple of the block height, gathers both node tables along the padded
  list, forms all messages in one blocked kernel (the projection applied per edge after the gather, each message
  multiplied by the indicator of a true edge), sums the two halves of the message block per target entry on the host and
  runs the epilogue as a second blocked kernel. The reference projects the node tables first and gathers afterwards.
  On the extended reals the two agree entry by entry: a gather commutes with a row-wise affine map, the indicator is
  `1` on a true edge and `0` on a padding row, and a padding row therefore adds `0` to the sum it lands in; no
  finiteness of the inputs is used.

  The three frame claims: each kernel region's run (its blocks fetched, the body run at every grid point, the output
  blocks written back) is chained with the host stretches between the regions; the reference is a straight-line host
  program. The value claim reads both runs back: the kernel program's result buffers through the regions' final arrays
  and the host stretches, the reference's through its operations stretch by stretch, and joins them by the layer law.
-/
import proofs.«155537_j65712999628849_1_alg».proof.Defs
import proofs.«155537_j65712999628849_1_alg».proof.Proof.Gen.Kernel
import proofs.«155537_j65712999628849_1_alg».proof.Proof.Gen.KernelIdeal
import proofs.«155537_j65712999628849_1_alg».proof.Proof.Gen.ReferenceIdeal
import proofs.«155537_j65712999628849_1_alg».proof.Proof.Gen.Pre_finite_inputs
import proofs.«155537_j65712999628849_1_alg».proof.Proof.Assembly
import proofs.«155537_j65712999628849_1_alg».proof.Proof.BAssembly
import proofs.«155537_j65712999628849_1_alg».proof.Proof.KRead
import proofs.«155537_j65712999628849_1_alg».proof.Proof.RefStages
import proofs.«155537_j65712999628849_1_alg».proof.Proof.CrossNs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel program at the word level runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- The idealized kernel program runs to the end and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs to the end; no operation writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Hand.ref_arg0 (launchContents m c)),
     (h c Cert.ReferenceIdeal.main_arg1).trans (Cert.ReferenceIdeal.Hand.ref_arg1 (launchContents m c)),
     (h c Cert.ReferenceIdeal.main_arg2).trans (Cert.ReferenceIdeal.Hand.ref_arg2 (launchContents m c)),
     (h c Cert.ReferenceIdeal.main_arg3).trans (Cert.ReferenceIdeal.Hand.ref_arg3 (launchContents m c)),
     (h c Cert.ReferenceIdeal.main_arg4).trans (Cert.ReferenceIdeal.Hand.ref_arg4 (launchContents m c)),
     (h c Cert.ReferenceIdeal.main_arg5).trans (Cert.ReferenceIdeal.Hand.ref_arg5 (launchContents m c)),
     (h c Cert.ReferenceIdeal.main_arg6).trans (Cert.ReferenceIdeal.Hand.ref_arg6 (launchContents m c)),
     (h c Cert.ReferenceIdeal.main_arg7).trans (Cert.ReferenceIdeal.Hand.ref_arg7 (launchContents m c)),
     (h c Cert.ReferenceIdeal.main_arg8).trans (Cert.ReferenceIdeal.Hand.ref_arg8 (launchContents m c)),
     (h c Cert.ReferenceIdeal.main_arg9).trans (Cert.ReferenceIdeal.Hand.ref_arg9 (launchContents m c)),
     (h c Cert.ReferenceIdeal.main_arg10).trans (Cert.ReferenceIdeal.Hand.ref_arg10 (launchContents m c)),
     (h c Cert.ReferenceIdeal.main_arg11).trans (Cert.ReferenceIdeal.Hand.ref_arg11 (launchContents m c)),
     (h c Cert.ReferenceIdeal.main_arg12).trans (Cert.ReferenceIdeal.Hand.ref_arg12 (launchContents m c)),
     (h c Cert.ReferenceIdeal.main_arg13).trans (Cert.ReferenceIdeal.Hand.ref_arg13 (launchContents m c))⟩)
    (Cert.ReferenceIdeal.ValueP.run_after (F := Ideal) m ρ)

/-- The reference's user-side result is the kernel program's, given that the two memories agree on the arguments:
    both are the final lookup of the same three tables, the middle and the last one equal by the layer law. -/
theorem value_users (m : (ℓ : Loc Cert.KernelIdeal.nD Cert.KernelIdeal.τ Cert.KernelIdeal.sig) → Buf (Elt Ideal) ℓ)
    (W0 : Valuation Cert.ReferenceIdeal.τ Cert.ReferenceIdeal.sig (Elt Ideal)) (c : Dev Cert.KernelIdeal.nD)
    (h0 : W0 (Proc.devRef .tc Cert.ReferenceIdeal.main_arg0) = (m ((c.tc : Thread Cert.KernelIdeal.nD Cert.KernelIdeal.τ).loc Cert.KernelIdeal.main_arg0)))
    (h1 : W0 (Proc.devRef .tc Cert.ReferenceIdeal.main_arg1) = (m ((c.tc : Thread Cert.KernelIdeal.nD Cert.KernelIdeal.τ).loc Cert.KernelIdeal.main_arg1)))
    (h2 : W0 (Proc.devRef .tc Cert.ReferenceIdeal.main_arg2) = (m ((c.tc : Thread Cert.KernelIdeal.nD Cert.KernelIdeal.τ).loc Cert.KernelIdeal.main_arg2)))
    (h3 : W0 (Proc.devRef .tc Cert.ReferenceIdeal.main_arg3) = (m ((c.tc : Thread Cert.KernelIdeal.nD Cert.KernelIdeal.τ).loc Cert.KernelIdeal.main_arg3)))
    (h4 : W0 (Proc.devRef .tc Cert.ReferenceIdeal.main_arg4) = (m ((c.tc : Thread Cert.KernelIdeal.nD Cert.KernelIdeal.τ).loc Cert.KernelIdeal.main_arg4)))
    (h5 : W0 (Proc.devRef .tc Cert.ReferenceIdeal.main_arg5) = (m ((c.tc : Thread Cert.KernelIdeal.nD Cert.KernelIdeal.τ).loc Cert.KernelIdeal.main_arg5)))
    (h6 : W0 (Proc.devRef .tc Cert.ReferenceIdeal.main_arg6) = (m ((c.tc : Thread Cert.KernelIdeal.nD Cert.KernelIdeal.τ).loc Cert.KernelIdeal.main_arg6)))
    (h7 : W0 (Proc.devRef .tc Cert.ReferenceIdeal.main_arg7) = (m ((c.tc : Thread Cert.KernelIdeal.nD Cert.KernelIdeal.τ).loc Cert.KernelIdeal.main_arg7)))
    (h8 : W0 (Proc.devRef .tc Cert.ReferenceIdeal.main_arg8) = (m ((c.tc : Thread Cert.KernelIdeal.nD Cert.KernelIdeal.τ).loc Cert.KernelIdeal.main_arg8)))
    (h9 : W0 (Proc.devRef .tc Cert.ReferenceIdeal.main_arg9) = (m ((c.tc : Thread Cert.KernelIdeal.nD Cert.KernelIdeal.τ).loc Cert.KernelIdeal.main_arg9)))
    (h10 : W0 (Proc.devRef .tc Cert.ReferenceIdeal.main_arg10) = (m ((c.tc : Thread Cert.KernelIdeal.nD Cert.KernelIdeal.τ).loc Cert.KernelIdeal.main_arg10)))
    (h11 : W0 (Proc.devRef .tc Cert.ReferenceIdeal.main_arg11) = (m ((c.tc : Thread Cert.KernelIdeal.nD Cert.KernelIdeal.τ).loc Cert.KernelIdeal.main_arg11))) :
    Cert.ReferenceIdeal.Hand.rFinalU (W0 (Proc.devRef .tc Cert.ReferenceIdeal.main_arg0)) (Cert.ReferenceIdeal.Hand.refU1 W0) (Cert.ReferenceIdeal.Hand.refU2 W0)
        (W0 (Proc.devRef .tc Cert.ReferenceIdeal.main_arg11))
      = Cert.KernelIdeal.Hand.kFinalU (m ((c.tc : Thread Cert.KernelIdeal.nD Cert.KernelIdeal.τ).loc Cert.KernelIdeal.main_arg0)) (Cert.KernelIdeal.Hand.kU1 m c) (Cert.KernelIdeal.Hand.kU2 m c) (m ((c.tc : Thread Cert.KernelIdeal.nD Cert.KernelIdeal.τ).loc Cert.KernelIdeal.main_arg11)) := by
  rw [Cert.Ngcf.refU1_net, Cert.Ngcf.refU2_net, Cert.Ngcf.kU1_net, Cert.Ngcf.kU2_net,
    h0, h1, h2, h3, h4, h5, h6, h7, h8, h9, h10, h11]
  exact (Cert.Ngcf.netU_eq _ _ _ _ _ _ _ _ _ _ _ _).symm

/-- The same for an item-side result, looked up at the batch `idx`. -/
theorem value_items (m : (ℓ : Loc Cert.KernelIdeal.nD Cert.KernelIdeal.τ Cert.KernelIdeal.sig) → Buf (Elt Ideal) ℓ)
    (W0 : Valuation Cert.ReferenceIdeal.τ Cert.ReferenceIdeal.sig (Elt Ideal)) (c : Dev Cert.KernelIdeal.nD)
    (h0 : W0 (Proc.devRef .tc Cert.ReferenceIdeal.main_arg0) = (m ((c.tc : Thread Cert.KernelIdeal.nD Cert.KernelIdeal.τ).loc Cert.KernelIdeal.main_arg0)))
    (h1 : W0 (Proc.devRef .tc Cert.ReferenceIdeal.main_arg1) = (m ((c.tc : Thread Cert.KernelIdeal.nD Cert.KernelIdeal.τ).loc Cert.KernelIdeal.main_arg1)))
    (h2 : W0 (Proc.devRef .tc Cert.ReferenceIdeal.main_arg2) = (m ((c.tc : Thread Cert.KernelIdeal.nD Cert.KernelIdeal.τ).loc Cert.KernelIdeal.main_arg2)))
    (h3 : W0 (Proc.devRef .tc Cert.ReferenceIdeal.main_arg3) = (m ((c.tc : Thread Cert.KernelIdeal.nD Cert.KernelIdeal.τ).loc Cert.KernelIdeal.main_arg3)))
    (h4 : W0 (Proc.devRef .tc Cert.ReferenceIdeal.main_arg4) = (m ((c.tc : Thread Cert.KernelIdeal.nD Cert.KernelIdeal.τ).loc Cert.KernelIdeal.main_arg4)))
    (h5 : W0 (Proc.devRef .tc Cert.ReferenceIdeal.main_arg5) = (m ((c.tc : Thread Cert.KernelIdeal.nD Cert.KernelIdeal.τ).loc Cert.KernelIdeal.main_arg5)))
    (h6 : W0 (Proc.devRef .tc Cert.ReferenceIdeal.main_arg6) = (m ((c.tc : Thread Cert.KernelIdeal.nD Cert.KernelIdeal.τ).loc Cert.KernelIdeal.main_arg6)))
    (h7 : W0 (Proc.devRef .tc Cert.ReferenceIdeal.main_arg7) = (m ((c.tc : Thread Cert.KernelIdeal.nD Cert.KernelIdeal.τ).loc Cert.KernelIdeal.main_arg7)))
    (h8 : W0 (Proc.devRef .tc Cert.ReferenceIdeal.main_arg8) = (m ((c.tc : Thread Cert.KernelIdeal.nD Cert.KernelIdeal.τ).loc Cert.KernelIdeal.main_arg8)))
    (h9 : W0 (Proc.devRef .tc Cert.ReferenceIdeal.main_arg9) = (m ((c.tc : Thread Cert.KernelIdeal.nD Cert.KernelIdeal.τ).loc Cert.KernelIdeal.main_arg9)))
    (h10 : W0 (Proc.devRef .tc Cert.ReferenceIdeal.main_arg10) = (m ((c.tc : Thread Cert.KernelIdeal.nD Cert.KernelIdeal.τ).loc Cert.KernelIdeal.main_arg10)))
    (idx : IVec Cert.ReferenceIdeal.S16384 32) (idx' : IVec Cert.KernelIdeal.S16384 32) (hidx : idx = idx') :
    Cert.ReferenceIdeal.Hand.rFinalI (W0 (Proc.devRef .tc Cert.ReferenceIdeal.main_arg1)) (Cert.ReferenceIdeal.Hand.refI1 W0) (Cert.ReferenceIdeal.Hand.refI2 W0) idx
      = Cert.KernelIdeal.Hand.kFinalI (m ((c.tc : Thread Cert.KernelIdeal.nD Cert.KernelIdeal.τ).loc Cert.KernelIdeal.main_arg1)) (Cert.KernelIdeal.Hand.kI1 m c) (Cert.KernelIdeal.Hand.kI2 m c) idx' := by
  rw [Cert.Ngcf.refI1_net, Cert.Ngcf.refI2_net, Cert.Ngcf.kI1_net, Cert.Ngcf.kI2_net,
    h0, h1, h2, h3, h4, h5, h6, h7, h8, h9, h10, hidx]
  exact (Cert.Ngcf.netI_eq _ _ _ _ _ _ _ _ _ _ _ _).symm

/-- From memories that agree on the arguments both idealized programs run to the end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V17 m (Cert.KernelIdeal.Hand.outs m) c Cert.KernelIdeal.main_v96,
    fun c => Cert.KernelIdeal.Gen.V17 m (Cert.KernelIdeal.Hand.outs m) c Cert.KernelIdeal.main_v103,
    fun c => Cert.KernelIdeal.Gen.V17 m (Cert.KernelIdeal.Hand.outs m) c Cert.KernelIdeal.main_v110, ?_, ?_⟩
  · exact (θ_run Cert.KernelIdeal.defs _ _).mono (fun r h c =>
      ⟨h c _ (Cert.KernelIdeal.Hand.mem_uc Cert.KernelIdeal.main_v96 (by decide)),
       h c _ (Cert.KernelIdeal.Hand.mem_uc Cert.KernelIdeal.main_v103 (by decide)),
       h c _ (Cert.KernelIdeal.Hand.mem_uc Cert.KernelIdeal.main_v110 (by decide)),
       (h c _ (Cert.KernelIdeal.Hand.mem_uc Cert.KernelIdeal.main_arg0 (by decide))).trans (Cert.KernelIdeal.Gen.V17_main_arg0 m (Cert.KernelIdeal.Hand.outs m) c),
       (h c _ (Cert.KernelIdeal.Hand.mem_uc Cert.KernelIdeal.main_arg1 (by decide))).trans (Cert.KernelIdeal.Gen.V17_main_arg1 m (Cert.KernelIdeal.Hand.outs m) c),
       (h c _ (Cert.KernelIdeal.Hand.mem_uc Cert.KernelIdeal.main_arg2 (by decide))).trans (Cert.KernelIdeal.Gen.V17_main_arg2 m (Cert.KernelIdeal.Hand.outs m) c),
       (h c _ (Cert.KernelIdeal.Hand.mem_uc Cert.KernelIdeal.main_arg3 (by decide))).trans (Cert.KernelIdeal.Gen.V17_main_arg3 m (Cert.KernelIdeal.Hand.outs m) c),
       (h c _ (Cert.KernelIdeal.Hand.mem_uc Cert.KernelIdeal.main_arg4 (by decide))).trans (Cert.KernelIdeal.Gen.V17_main_arg4 m (Cert.KernelIdeal.Hand.outs m) c),
       (h c _ (Cert.KernelIdeal.Hand.mem_uc Cert.KernelIdeal.main_arg5 (by decide))).trans (Cert.KernelIdeal.Gen.V17_main_arg5 m (Cert.KernelIdeal.Hand.outs m) c),
       (h c _ (Cert.KernelIdeal.Hand.mem_uc Cert.KernelIdeal.main_arg6 (by decide))).trans (Cert.KernelIdeal.Gen.V17_main_arg6 m (Cert.KernelIdeal.Hand.outs m) c),
       (h c _ (Cert.KernelIdeal.Hand.mem_uc Cert.KernelIdeal.main_arg7 (by decide))).trans (Cert.KernelIdeal.Gen.V17_main_arg7 m (Cert.KernelIdeal.Hand.outs m) c),
       (h c _ (Cert.KernelIdeal.Hand.mem_uc Cert.KernelIdeal.main_arg8 (by decide))).trans (Cert.KernelIdeal.Gen.V17_main_arg8 m (Cert.KernelIdeal.Hand.outs m) c),
       (h c _ (Cert.KernelIdeal.Hand.mem_uc Cert.KernelIdeal.main_arg9 (by decide))).trans (Cert.KernelIdeal.Gen.V17_main_arg9 m (Cert.KernelIdeal.Hand.outs m) c),
       (h c _ (Cert.KernelIdeal.Hand.mem_uc Cert.KernelIdeal.main_arg10 (by decide))).trans (Cert.KernelIdeal.Gen.V17_main_arg10 m (Cert.KernelIdeal.Hand.outs m) c),
       (h c _ (Cert.KernelIdeal.Hand.mem_uc Cert.KernelIdeal.main_arg11 (by decide))).trans (Cert.KernelIdeal.Gen.V17_main_arg11 m (Cert.KernelIdeal.Hand.outs m) c),
       (h c _ (Cert.KernelIdeal.Hand.mem_uc Cert.KernelIdeal.main_arg12 (by decide))).trans (Cert.KernelIdeal.Gen.V17_main_arg12 m (Cert.KernelIdeal.Hand.outs m) c),
       (h c _ (Cert.KernelIdeal.Hand.mem_uc Cert.KernelIdeal.main_arg13 (by decide))).trans (Cert.KernelIdeal.Gen.V17_main_arg13 m (Cert.KernelIdeal.Hand.outs m) c)⟩)
      (Cert.KernelIdeal.Hand.run_all m ρ)
  · refine (θ_run Cert.ReferenceIdeal.defs _ _).mono (fun r h c =>
      ⟨(h c Cert.ReferenceIdeal.main_v195).trans ?_, (h c Cert.ReferenceIdeal.main_v202).trans ?_, (h c Cert.ReferenceIdeal.main_v209).trans ?_,
       (h c Cert.ReferenceIdeal.main_arg0).trans (Cert.ReferenceIdeal.Hand.ref_arg0 (launchContents m' c)),
       (h c Cert.ReferenceIdeal.main_arg1).trans (Cert.ReferenceIdeal.Hand.ref_arg1 (launchContents m' c)),
       (h c Cert.ReferenceIdeal.main_arg2).trans (Cert.ReferenceIdeal.Hand.ref_arg2 (launchContents m' c)),
       (h c Cert.ReferenceIdeal.main_arg3).trans (Cert.ReferenceIdeal.Hand.ref_arg3 (launchContents m' c)),
       (h c Cert.ReferenceIdeal.main_arg4).trans (Cert.ReferenceIdeal.Hand.ref_arg4 (launchContents m' c)),
       (h c Cert.ReferenceIdeal.main_arg5).trans (Cert.ReferenceIdeal.Hand.ref_arg5 (launchContents m' c)),
       (h c Cert.ReferenceIdeal.main_arg6).trans (Cert.ReferenceIdeal.Hand.ref_arg6 (launchContents m' c)),
       (h c Cert.ReferenceIdeal.main_arg7).trans (Cert.ReferenceIdeal.Hand.ref_arg7 (launchContents m' c)),
       (h c Cert.ReferenceIdeal.main_arg8).trans (Cert.ReferenceIdeal.Hand.ref_arg8 (launchContents m' c)),
       (h c Cert.ReferenceIdeal.main_arg9).trans (Cert.ReferenceIdeal.Hand.ref_arg9 (launchContents m' c)),
       (h c Cert.ReferenceIdeal.main_arg10).trans (Cert.ReferenceIdeal.Hand.ref_arg10 (launchContents m' c)),
       (h c Cert.ReferenceIdeal.main_arg11).trans (Cert.ReferenceIdeal.Hand.ref_arg11 (launchContents m' c)),
       (h c Cert.ReferenceIdeal.main_arg12).trans (Cert.ReferenceIdeal.Hand.ref_arg12 (launchContents m' c)),
       (h c Cert.ReferenceIdeal.main_arg13).trans (Cert.ReferenceIdeal.Hand.ref_arg13 (launchContents m' c))⟩)
      (Cert.ReferenceIdeal.ValueP.run_after (F := Ideal) m' ρ')
    · exact ((Cert.ReferenceIdeal.Hand.ref_v195 (launchContents m' c)).trans
        (value_users m (launchContents m' c) c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1)).trans
        (Cert.KernelIdeal.Hand.k_results m c).1.symm
    · exact ((Cert.ReferenceIdeal.Hand.ref_v202 (launchContents m' c)).trans
        (value_items m (launchContents m' c) c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 _ _ (hagree c).2.2.2.2.2.2.2.2.2.2.2.2.1)).trans
        (Cert.KernelIdeal.Hand.k_results m c).2.1.symm
    · exact ((Cert.ReferenceIdeal.Hand.ref_v209 (launchContents m' c)).trans
        (value_items m (launchContents m' c) c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 _ _ (hagree c).2.2.2.2.2.2.2.2.2.2.2.2.2)).trans
        (Cert.KernelIdeal.Hand.k_results m c).2.2.symm

/-- Everything claimed: the three frames, the idealization (nothing was rewritten) and the equality of the results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
